-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384x8 : Shape := ⟨3, ![2048, 16384, 8]⟩
abbrev S1x40 : Shape := ⟨2, ![1, 40]⟩
abbrev S1 : Shape := ⟨1, ![1]⟩
abbrev S_ : Shape := ⟨0, ![]⟩

class Facts : Prop where
  bcast_S_S2048x16384x8 : S_.BroadcastsInDim S2048x16384x8 (![] : Fin 0 → Fin S2048x16384x8.rank)
  reducesTo_S2048x16384x8_S_d0_1_2 : S2048x16384x8.ReducesTo [0, 1, 2] S_
  h_S_ : 0 < S_.numel
  bcast_S_S1x40 : S_.BroadcastsInDim S1x40 (![] : Fin 0 → Fin S1x40.rank)
  reducesTo_S1x40_S_d0_1 : S1x40.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S2048x16384x8 .f32) (main_arg1 : FVec F S1x40 .f32) (main_arg2 : FVec F S1 .f32) : IVec S_ 1 :=
  let main_v0 : FVec F S2048x16384x8 .f32 := Host.absf main_arg0
  let main_cst : FVec F S_ .f32 := constant S_ .f32 0x7F800000#32
  let main_v1 : FVec F S2048x16384x8 .f32 := broadcastInDim S2048x16384x8 ![] bcast_S_S2048x16384x8 main_cst
  let main_v2 : IVec S2048x16384x8 1 := cmpf .olt main_v0 main_v1
  let main_c : IVec S_ 1 := constantI S_ 1 1#1
  let main_v3 : IVec S_ 1 := (fun x v => Host.reduce IntOp.andi x v reducesTo_S2048x16384x8_S_d0_1_2 h_S_) main_v2 main_c
  let main_v4 : FVec F S1x40 .f32 := Host.absf main_arg1
  let main_cst_0 : FVec F S_ .f32 := constant S_ .f32 0x7F800000#32
  let main_v5 : FVec F S1x40 .f32 := broadcastInDim S1x40 ![] bcast_S_S1x40 main_cst_0
  let main_v6 : IVec S1x40 1 := cmpf .olt main_v4 main_v5
  let main_c_1 : IVec S_ 1 := constantI S_ 1 1#1
  let main_v7 : IVec S_ 1 := (fun x v => Host.reduce IntOp.andi x v reducesTo_S1x40_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S2048x16384x8 : Shape := ⟨3, ![2048, 16384, 8]⟩
abbrev S1x40 : Shape := ⟨2, ![1, 40]⟩
abbrev S1 : Shape := ⟨1, ![1]⟩
abbrev S8x5 : Shape := ⟨2, ![8, 5]⟩
abbrev S5x8 : Shape := ⟨2, ![5, 8]⟩
abbrev S2048x1 : Shape := ⟨2, ![2048, 1]⟩
abbrev S128x128x8 : Shape := ⟨3, ![128, 128, 8]⟩
abbrev S128x1 : Shape := ⟨2, ![128, 1]⟩
abbrev S128x8 : Shape := ⟨2, ![128, 8]⟩
abbrev S1x8 : Shape := ⟨2, ![1, 8]⟩
abbrev S8 : Shape := ⟨1, ![8]⟩
abbrev S128 : Shape := ⟨1, ![128]⟩
abbrev S1x1 : Shape := ⟨2, ![1, 1]⟩

abbrev nBuf : Space → Nat
  | .hbm => 6
  | .vmem => 11
  | .smem => 0
  | _ => 0

abbrev bufTy : (tb : Table) → Fin (tcTables nBuf tb) → BufTy
  | .hbm, ⟨0, _⟩ => ⟨S2048x16384x8, .f32⟩
  | .hbm, ⟨1, _⟩ => ⟨S1x40, .f32⟩
  | .hbm, ⟨2, _⟩ => ⟨S1, .f32⟩
  | .hbm, ⟨3, _⟩ => ⟨S8x5, .f32⟩
  | .hbm, ⟨4, _⟩ => ⟨S5x8, .f32⟩
  | .hbm, ⟨5, _⟩ => ⟨S2048x1, .f32⟩
  | .local _ .vmem, ⟨0, _⟩ => ⟨S128x128x8, .f32⟩
  | .local _ .vmem, ⟨1, _⟩ => ⟨S128x128x8, .f32⟩
  | .local _ .vmem, ⟨2, _⟩ => ⟨S5x8, .f32⟩
  | .local _ .vmem, ⟨3, _⟩ => ⟨S1, .f32⟩
  | .local _ .vmem, ⟨4, _⟩ => ⟨S128x1, .f32⟩
  | .local _ .vmem, ⟨5, _⟩ => ⟨S128x1, .f32⟩
  | .local _ .vmem, ⟨6, _⟩ => ⟨S128x8, .f32⟩
  | .local _ .vmem, ⟨7, _⟩ => ⟨S128x8, .f32⟩
  | .local _ .vmem, ⟨8, _⟩ => ⟨S128x8, .f32⟩
  | .local _ .vmem, ⟨9, _⟩ => ⟨S128x8, .f32⟩
  | .local _ .vmem, ⟨10, _⟩ => ⟨S128x8, .f32⟩
  | _, _ => ⟨S2048x16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 128], ![false, false]⟩

def k0_cond2 (i : grid0.Coords) : BitVec 1 :=
  let arg1 : BitVec 32 := BitVec.ofNat 32 (i 1).val
  let c127_i32 : BitVec 32 := 127#32
  let v40 : BitVec 1 := Scalar.cmpi .eq arg1 c127_i32
  let v41 : BitVec 32 := Scalar.extui v40
  let c0_i32_28 : BitVec 32 := 0#32
  let v42 : BitVec 1 := Scalar.cmpi .ne v41 c0_i32_28
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x40_S8x5 : S1x40.ShapeCasts S8x5
  transposes_S8x5_S5x8_1_0 : S8x5.Transposes [1, 0] S5x8
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S128x128x8_S128x128x8_0_0_0 : ∀ a, (![0, 0, 0] : Fin 3 → Nat) a + S128x128x8.size a ≤ S128x128x8.size a
  h_S128x128x8 : 0 < S128x128x8.numel
  reduces_S128x128x8_S128x8 : S128x128x8.Reduces [1] S128x8
  natLt_1_32 : 1 < 32
  inb_S5x8_S5x8_0_0 : ∀ a, (![0, 0] : Fin 2 → Nat) a + S5x8.size a ≤ S5x8.size a
  h_S5x8 : 0 < S5x8.numel
  shapeCasts_S5x8_S5x8 : S5x8.ShapeCasts S5x8
  slices_S5x8_o0_0_S1x8 : S5x8.Slices ![0, 0] S1x8
  shapeCasts_S1x8_S8 : S1x8.ShapeCasts S8
  slices_S5x8_o1_0_S1x8 : S5x8.Slices ![1, 0] S1x8
  slices_S5x8_o2_0_S1x8 : S5x8.Slices ![2, 0] S1x8
  slices_S5x8_o3_0_S1x8 : S5x8.Slices ![3, 0] S1x8
  slices_S5x8_o4_0_S1x8 : S5x8.Slices ![4, 0] S1x8
  shapeCasts_S8_S1x8 : S8.ShapeCasts S1x8
  broadcasts_S1x8_S128x8 : S1x8.Broadcasts S128x8
  reduces_S128x8_S128 : S128x8.Reduces [1] S128
  shapeCasts_S128_S128x1 : S128.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x8.size a ≤ S2048x16384x8.size a
  hwx0_0 : ∀ i : grid0.Coords, EltTy.bits .f32 = 32 ∨ (Rect.block (s := S2048x16384x8) S128x128x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x8.size a ≤ S5x8.size a
  hwx0_1 : ∀ i : grid0.Coords, EltTy.bits .f32 = 32 ∨ (Rect.block (s := S5x8) S5x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S2048x1.size a
  hwx0_3 : ∀ i : grid0.Coords, EltTy.bits .f32 = 32 ∨ (Rect.block (s := S2048x1) S128x1.size (cc0_transform_3 i) (hinb0_3 i)).WholeWords (EltTy.packing .f32)

variable [Facts₀]

abbrev win0_0 : Pipeline.Window sig grid0 :=
  Pipeline.Window.ofSpec (Memref.whole main_arg0) S128x128x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x16384x8 : Shape := ⟨3, ![2048, 16384, 8]⟩
abbrev S1x40 : Shape := ⟨2, ![1, 40]⟩
abbrev S1 : Shape := ⟨1, ![1]⟩
abbrev S_ : Shape := ⟨0, ![]⟩
abbrev S2048x8 : Shape := ⟨2, ![2048, 8]⟩
abbrev S2048x1x8 : Shape := ⟨3, ![2048, 1, 8]⟩
abbrev S2048x8x1 : Shape := ⟨3, ![2048, 8, 1]⟩
abbrev S2048x8x5 : Shape := ⟨3, ![2048, 8, 5]⟩
abbrev S2048x40 : Shape := ⟨2, ![2048, 40]⟩
abbrev S40x1 : Shape := ⟨2, ![40, 1]⟩
abbrev S2048x1 : Shape := ⟨2, ![2048, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S2048x16384x8, .f32⟩
  | .hbm, ⟨1, _⟩ => ⟨S1x40, .f32⟩
  | .hbm, ⟨2, _⟩ => ⟨S1, .f32⟩
  | .hbm, ⟨3, _⟩ => ⟨S_, .f32⟩
  | .hbm, ⟨4, _⟩ => ⟨S2048x8, .f32⟩
  | .hbm, ⟨5, _⟩ => ⟨S_, .f32⟩
  | .hbm, ⟨6, _⟩ => ⟨S2048x8, .f32⟩
  | .hbm, ⟨7, _⟩ => ⟨S2048x8, .f32⟩
  | .hbm, ⟨8, _⟩ => ⟨S_, .i32⟩
  | .hbm, ⟨9, _⟩ => ⟨S_, .f32⟩
  | .hbm, ⟨10, _⟩ => ⟨S2048x8, .f32⟩
  | .hbm, ⟨11, _⟩ => ⟨S2048x1x8, .f32⟩
  | .hbm, ⟨12, _⟩ => ⟨S_, .f32⟩
  | .hbm, ⟨13, _⟩ => ⟨S2048x1x8, .f32⟩
  | .hbm, ⟨14, _⟩ => ⟨S2048x1x8, .f32⟩
  | .hbm, ⟨15, _⟩ => ⟨S2048x16384x8, .f32⟩
  | .hbm, ⟨16, _⟩ => ⟨S2048x16384x8, .f32⟩
  | .hbm, ⟨17, _⟩ => ⟨S2048x16384x8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S2048x8, .f32⟩
  | .hbm, ⟨30, _⟩ => ⟨S2048x8, .f32⟩
  | .hbm, ⟨31, _⟩ => ⟨S2048x8, .f32⟩
  | .hbm, ⟨32, _⟩ => ⟨S2048x1x8, .f32⟩
  | .hbm, ⟨33, _⟩ => ⟨S2048x16384x8, .f32⟩
  | .hbm, ⟨34, _⟩ => ⟨S2048x16384x8, .f32⟩
  | .hbm, ⟨35, _⟩ => ⟨S2048x16384x8, .f32⟩
  | .hbm, ⟨36, _⟩ => ⟨S2048x16384x8, .f32⟩
  | .hbm, ⟨37, _⟩ => ⟨S_, .f32⟩
  | .hbm, ⟨38, _⟩ => ⟨S2048x8, .f32⟩
  | .hbm, ⟨39, _⟩ => ⟨S_, .f32⟩
  | .hbm, ⟨40, _⟩ => ⟨S2048x8, .f32⟩
  | .hbm, ⟨41, _⟩ => ⟨S2048x8, .f32⟩
  | .hbm, ⟨42, _⟩ => ⟨S_, .f32⟩
  | .hbm, ⟨43, _⟩ => ⟨S2048x8, .f32⟩
  | .hbm, ⟨44, _⟩ => ⟨S2048x8, .f32⟩
  | .hbm, ⟨45, _⟩ => ⟨S2048x8, .f32⟩
  | .hbm, ⟨46, _⟩ => ⟨S2048x8, .f32⟩
  | .hbm, ⟨47, _⟩ => ⟨S2048x8, .f32⟩
  | .hbm, ⟨48, _⟩ => ⟨S_, .f32⟩
  | .hbm, ⟨49, _⟩ => ⟨S2048x8, .f32⟩
  | .hbm, ⟨50, _⟩ => ⟨S_, .f32⟩
  | .hbm, ⟨51, _⟩ => ⟨S2048x16384x8, .f32⟩
  | .hbm, ⟨52, _⟩ => ⟨S2048x16384x8, .i1⟩
  | .hbm, ⟨53, _⟩ => ⟨S2048x16384x8, .i32⟩
  | .hbm, ⟨54, _⟩ => ⟨S_, .i32⟩
  | .hbm, ⟨55, _⟩ => ⟨S2048x8, .i32⟩
  | .hbm, ⟨56, _⟩ => ⟨S2048x8, .f32⟩
  | .hbm, ⟨57, _⟩ => ⟨S_, .f32⟩
  | .hbm, ⟨58, _⟩ => ⟨S2048x8, .i1⟩
  | .hbm, ⟨59, _⟩ => ⟨S_, .f32⟩
  | .hbm, ⟨60, _⟩ => ⟨S2048x8, .f32⟩
  | .hbm, ⟨61, _⟩ => ⟨S2048x8, .f32⟩
  | .hbm, ⟨62, _⟩ => ⟨S_, .f32⟩
  | .hbm, ⟨63, _⟩ => ⟨S2048x8, .f32⟩
  | .hbm, ⟨64, _⟩ => ⟨S2048x8, .i1⟩
  | .hbm, ⟨65, _⟩ => ⟨S_, .f32⟩
  | .hbm, ⟨66, _⟩ => ⟨S2048x8, .f32⟩
  | .hbm, ⟨67, _⟩ => ⟨S2048x8, .f32⟩
  | .hbm, ⟨68, _⟩ => ⟨S_, .f32⟩
  | .hbm, ⟨69, _⟩ => ⟨S2048x8, .f32⟩
  | .hbm, ⟨70, _⟩ => ⟨S2048x8, .i1⟩
  | .hbm, ⟨71, _⟩ => ⟨S_, .f32⟩
  | .hbm, ⟨72, _⟩ => ⟨S2048x8, .f32⟩
  | .hbm, ⟨73, _⟩ => ⟨S2048x8, .f32⟩
  | .hbm, ⟨74, _⟩ => ⟨S_, .f32⟩
  | .hbm, ⟨75, _⟩ => ⟨S2048x8, .i1⟩
  | .hbm, ⟨76, _⟩ => ⟨S_, .f32⟩
  | .hbm, ⟨77, _⟩ => ⟨S2048x8, .f32⟩
  | .hbm, ⟨78, _⟩ => ⟨S2048x8, .f32⟩
  | .hbm, ⟨79, _⟩ => ⟨S_, .f32⟩
  | .hbm, ⟨80, _⟩ => ⟨S2048x8, .f32⟩
  | .hbm, ⟨81, _⟩ => ⟨S2048x8, .i1⟩
  | .hbm, ⟨82, _⟩ => ⟨S_, .f32⟩
  | .hbm, ⟨83, _⟩ => ⟨S2048x8, .f32⟩
  | .hbm, ⟨84, _⟩ => ⟨S2048x8, .f32⟩
  | .hbm, ⟨85, _⟩ => ⟨S_, .f32⟩
  | .hbm, ⟨86, _⟩ => ⟨S2048x8, .f32⟩
  | .hbm, ⟨87, _⟩ => ⟨S2048x8, .i1⟩
  | .hbm, ⟨88, _⟩ => ⟨S_, .f32⟩
  | .hbm, ⟨89, _⟩ => ⟨S2048x8, .f32⟩
  | .hbm, ⟨90, _⟩ => ⟨S2048x8, .f32⟩
  | .hbm, ⟨91, _⟩ => ⟨S2048x8x1, .f32⟩
  | .hbm, ⟨92, _⟩ => ⟨S2048x8x1, .f32⟩
  | .hbm, ⟨93, _⟩ => ⟨S2048x8x1, .f32⟩
  | .hbm, ⟨94, _⟩ => ⟨S2048x8x1, .f32⟩
  | .hbm, ⟨95, _⟩ => ⟨S2048x8x1, .f32⟩
  | .hbm, ⟨96, _⟩ => ⟨S2048x8x5, .f32⟩
  | .hbm, ⟨97, _⟩ => ⟨S2048x40, .f32⟩
  | .hbm, ⟨98, _⟩ => ⟨S40x1, .f32⟩
  | .hbm, ⟨99, _⟩ => ⟨S2048x1, .f32⟩
  | .hbm, ⟨100, _⟩ => ⟨S1x1, .f32⟩
  | .hbm, ⟨101, _⟩ => ⟨S2048x1, .f32⟩
  | .hbm, ⟨102, _⟩ => ⟨S2048x1, .f32⟩
  | _, _ => ⟨S2048x16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_cst_3 : Ref sig .tc := ⟨.hbm, 25, rfl⟩
abbrev main_call0_call0_v12 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_v0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_cst_3 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_4 : Ref sig .tc := ⟨.hbm, 48, rfl⟩
abbrev main_v17 : Ref sig .tc := ⟨.hbm, 49, rfl⟩
abbrev main_cst_5 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_6 : Ref sig .tc := ⟨.hbm, 54, rfl⟩
abbrev main_v21 : Ref sig .tc := ⟨.hbm, 55, rfl⟩
abbrev main_v22 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_call1_call0_v0 : Ref sig .tc := ⟨.hbm, 60, rfl⟩
abbrev main_call1_v2 : Ref sig .tc := ⟨.hbm, 61, rfl⟩
abbrev main_call1_cst : Ref sig .tc := ⟨.hbm, 62, rfl⟩
abbrev main_call1_v3 : Ref sig .tc := ⟨.hbm, 63, rfl⟩
abbrev main_call1_v4 : Ref sig .tc := ⟨.hbm, 64, rfl⟩
abbrev main_call1_cst_0 : Ref sig .tc := ⟨.hbm, 65, rfl⟩
abbrev main_call1_call1_v0 : Ref sig .tc := ⟨.hbm, 66, rfl⟩
abbrev main_call1_v5 : Ref sig .tc := ⟨.hbm, 67, rfl⟩
abbrev main_call1_cst_1 : Ref sig .tc := ⟨.hbm, 68, rfl⟩
abbrev main_call1_v6 : Ref sig .tc := ⟨.hbm, 69, rfl⟩
abbrev main_call1_v7 : Ref sig .tc := ⟨.hbm, 70, rfl⟩
abbrev main_call1_cst_2 : Ref sig .tc := ⟨.hbm, 71, rfl⟩
abbrev main_call1_call2_v0 : Ref sig .tc := ⟨.hbm, 72, rfl⟩
abbrev main_v23 : Ref sig .tc := ⟨.hbm, 73, rfl⟩
abbrev main_cst_8 : Ref sig .tc := ⟨.hbm, 74, rfl⟩
abbrev main_call2_v0 : Ref sig .tc := ⟨.hbm, 75, rfl⟩
abbrev main_call2_v1 : Ref sig .tc := ⟨.hbm, 76, rfl⟩
abbrev main_call2_call0_v0 : Ref sig .tc := ⟨.hbm, 77, rfl⟩
abbrev main_call2_v2 : Ref sig .tc := ⟨.hbm, 78, rfl⟩
abbrev main_call2_cst : Ref sig .tc := ⟨.hbm, 79, rfl⟩
abbrev main_call2_v3 : Ref sig .tc := ⟨.hbm, 80, rfl⟩
abbrev main_call2_v4 : Ref sig .tc := ⟨.hbm, 81, rfl⟩
abbrev main_call2_cst_0 : Ref sig .tc := ⟨.hbm, 82, rfl⟩
abbrev main_call2_call1_v0 : Ref sig .tc := ⟨.hbm, 83, rfl⟩
abbrev main_call2_v5 : Ref sig .tc := ⟨.hbm, 84, rfl⟩
abbrev main_call2_cst_1 : Ref sig .tc := ⟨.hbm, 85, rfl⟩
abbrev main_call2_v6 : Ref sig .tc := ⟨.hbm, 86, rfl⟩
abbrev main_call2_v7 : Ref sig .tc := ⟨.hbm, 87, rfl⟩
abbrev main_call2_cst_2 : Ref sig .tc := ⟨.hbm, 88, rfl⟩
abbrev main_call2_call2_v0 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩

abbrev nD : Nat := 1
abbrev τ : Topo := Topo.v7x

variable {F : FTy → Type} [FloatOps F]

class Facts₀ : Prop where
  reducesTo_S2048x16384x8_S2048x8_d1 : S2048x16384x8.ReducesTo [1] S2048x8
  h_S_ : 0 < S_.numel
  bcast_S_S2048x8 : S_.BroadcastsInDim S2048x8 (![] : Fin 0 → Fin S2048x8.rank)
  bcast_S2048x8_S2048x1x8_0_2 : S2048x8.BroadcastsInDim S2048x1x8 (![0, 2] : Fin 2 → Fin S2048x1x8.rank)
  bcast_S_S2048x1x8 : S_.BroadcastsInDim S2048x1x8 (![] : Fin 0 → Fin S2048x1x8.rank)
  bcast_S2048x1x8_S2048x16384x8_0_1_2 : S2048x1x8.BroadcastsInDim S2048x16384x8 (![0, 1, 2] : Fin 3 → Fin S2048x16384x8.rank)
  bcast_S_S2048x16384x8 : S_.BroadcastsInDim S2048x16384x8 (![] : Fin 0 → Fin S2048x16384x8.rank)
  natLt_1_32 : 1 < 32
  bcast_S2048x8_S2048x8x1_0_1 : S2048x8.BroadcastsInDim S2048x8x1 (![0, 1] : Fin 2 → Fin S2048x8x1.rank)
  concatenates_S2048x8x1_S2048x8x1_S2048x8x1_S2048x8x1_S2048x8x1_S2048x8x5_d2 : Shape.Concatenates [S2048x8x1, S2048x8x1, S2048x8x1, S2048x8x1, S2048x8x1] S2048x8x5 2
  shapeCasts_S2048x8x5_S2048x40 : S2048x8x5.ShapeCasts S2048x40
  transposes_S1x40_S40x1_1_0 : S1x40.Transposes [1, 0] S40x1
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S2048x40_S40x1_S2048x1_1_0_0_1_n_n_wf : DotDims.WF S2048x40 S40x1 S2048x1 [1] [0] [0] [1] [] []

variable [Facts₀]

def dot_S2048x40_S40x1_S2048x1_1_0_0_1_n_n : DotDims S2048x40 S40x1 S2048x1 where
  lhsContracting := [1]
  rhsContracting := [0]
  lhsNonContracting := [0]
  rhsNonContracting := [1]
  lhsBatch := []
  rhsBatch := []
  wf := dot_S2048x40_S40x1_S2048x1_1_0_0_1_n_n_wf

class Facts : Prop extends Facts₀ where

variable [Facts]
-- ==== Proof.KPieces.lean ====
/-
  What one grid point of the kernel leaves behind, as pure functions of what it read.

  The kernel keeps five [128, 8] accumulators across the points of a run over the time axis (the sums of x, x², x³, the
  running maximum and the running count of positive entries, per sample row and channel). At every point each accumulator
  becomes its update by the point's [128, 128, 8] block of x; at the first point of a run the update starts from the
  initial value stored just before (zero, or -∞ for the maximum); at the last point of a run the output block is, in
  addition, the head's value of the five updated accumulators, the [5, 8] weight block and the bias.
-/
import proofs.«158877_j46231027974422_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

section
variable (c : Dev nD) (i : grid0.Coords) (arg2 : Memref sig .tc .vmem S128x128x8 .f32) (harg2 : arg2.IsWhole) (arg3 : Memref sig .tc .vmem S5x8 .f32) (harg3 : arg3.IsWhole) (arg4 : Memref sig .tc .vmem S1 .f32) (harg4 : arg4.IsWhole) (arg5 : Memref sig .tc .vmem S128x1 .f32) (harg5 : arg5.IsWhole) (arg6 : Memref sig .tc .vmem S128x8 .f32) (harg6 : arg6.IsWhole) (arg7 : Memref sig .tc .vmem S128x8 .f32) (harg7 : arg7.IsWhole) (arg8 : Memref sig .tc .vmem S128x8 .f32) (harg8 : arg8.IsWhole) (arg9 : Memref sig .tc .vmem S128x8 .f32) (harg9 : arg9.IsWhole) (arg10 : Memref sig .tc .vmem S128x8 .f32) (harg10 : arg10.IsWhole)
  (x0 : Vec F S128x128x8 .f32) (x1 : Vec F S5x8 .f32) (x2 : Vec F S1 .f32) (xs0 xs1 xs2 xs3 xs4 : Vec F S128x8 .f32)

/-- At a point that starts a run over the time axis, the carried value 0 is the update, by the point's block of x, of the initial value just stored. -/
theorem sA0 (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 = k0_pay13 x0 (k0_pay8 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x8) hz2, View.readCov_unit_zero (S := S128x8) _ hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 0 is the update, by the point's block of x, of what the point before left. -/
theorem sB0 (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 xs0 xs1 xs2 xs3 xs4 = k0_pay13 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 0 is the update, by the point's block of x, of what the point before left. -/
theorem sC0 (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 xs0 xs1 xs2 xs3 xs4 = k0_pay13 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a point that starts a run over the time axis, the carried value 1 is the update, by the point's block of x, of the initial value just stored. -/
theorem sA1 (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 = k0_pay15 x0 (k0_pay9 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x8) hz2, View.readCov_unit_zero (S := S128x8) _ hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 1 is the update, by the point's block of x, of what the point before left. -/
theorem sB1 (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 xs0 xs1 xs2 xs3 xs4 = k0_pay15 x0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 1 is the update, by the point's block of x, of what the point before left. -/
theorem sC1 (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 xs0 xs1 xs2 xs3 xs4 = k0_pay15 x0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a point that starts a run over the time axis, the carried value 2 is the update, by the point's block of x, of the initial value just stored. -/
theorem sA2 (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 = k0_pay16 x0 (k0_pay10 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x8) hz2, View.readCov_unit_zero (S := S128x8) _ hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 2 is the update, by the point's block of x, of what the point before left. -/
theorem sB2 (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 xs0 xs1 xs2 xs3 xs4 = k0_pay16 x0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 2 is the update, by the point's block of x, of what the point before left. -/
theorem sC2 (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 xs0 xs1 xs2 xs3 xs4 = k0_pay16 x0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a point that starts a run over the time axis, the carried value 3 is the update, by the point's block of x, of the initial value just stored. -/
theorem sA3 (hc0 : cond0_0 i) (hc1 : ¬cond0_1 i) :
    sout0_A_3 c i arg2 harg2 arg3 harg3 arg4 harg4 arg5 harg5 arg6 harg6 arg7 harg7 arg8 harg8 arg9 harg9 arg10 harg10 hc0 hc1 x0 x1 x2 = k0_pay1 (k0_pay17 x0 (k0_pay11 (F := F))) := by
  unfold sout0_A_3
  rw [View.read_writes_eq_canon _ _ _ (scover0_A_3 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x8) hz2, View.readCov_unit_zero (S := S128x8) _ hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 3 is the update, by the point's block of x, of what the point before left. -/
theorem sB3 (hc0 : ¬cond0_0 i) (hc1 : ¬cond0_1 i) :
    sout0_B_3 c i arg2 harg2 arg3 harg3 arg4 harg4 arg5 harg5 arg6 harg6 arg7 harg7 arg8 harg8 arg9 harg9 arg10 harg10 hc0 hc1 x0 x1 x2 xs0 xs1 xs2 xs3 xs4 = k0_pay1 (k0_pay17 x0 xs3) := by
  unfold sout0_B_3
  rw [View.read_writes_eq_canon _ _ _ (scover0_B_3 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 3 is the update, by the point's block of x, of what the point before left. -/
theorem sC3 (hc0 : ¬cond0_0 i) (hc1 : cond0_1 i) :
    sout0_C_3 c i arg2 harg2 arg3 harg3 arg4 harg4 arg5 harg5 arg6 harg6 arg7 harg7 arg8 harg8 arg9 harg9 arg10 harg10 hc0 hc1 x0 x1 x2 xs0 xs1 xs2 xs3 xs4 = k0_pay1 (k0_pay17 x0 xs3) := by
  unfold sout0_C_3
  rw [View.read_writes_eq_canon _ _ _ (scover0_C_3 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a point that starts a run over the time axis, the carried value 4 is the update, by the point's block of x, of the initial value just stored. -/
theorem sA4 (hc0 : cond0_0 i) (hc1 : ¬cond0_1 i) :
    sout0_A_4 c i arg2 harg2 arg3 harg3 arg4 harg4 arg5 harg5 arg6 harg6 arg7 harg7 arg8 harg8 arg9 harg9 arg10 harg10 hc0 hc1 x0 x1 x2 = k0_pay2 x0 (k0_pay12 (F := F)) := by
  unfold sout0_A_4
  rw [View.read_writes_eq_canon _ _ _ (scover0_A_4 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  rw [View.canon_cons_unit_zero (S := S128x8) hz2, View.readCov_unit_zero (S := S128x8) _ hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 4 is the update, by the point's block of x, of what the point before left. -/
theorem sB4 (hc0 : ¬cond0_0 i) (hc1 : ¬cond0_1 i) :
    sout0_B_4 c i arg2 harg2 arg3 harg3 arg4 harg4 arg5 harg5 arg6 harg6 arg7 harg7 arg8 harg8 arg9 harg9 arg10 harg10 hc0 hc1 x0 x1 x2 xs0 xs1 xs2 xs3 xs4 = k0_pay2 x0 xs4 := by
  unfold sout0_B_4
  rw [View.read_writes_eq_canon _ _ _ (scover0_B_4 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_B
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At a later point of the run the carried value 4 is the update, by the point's block of x, of what the point before left. -/
theorem sC4 (hc0 : ¬cond0_0 i) (hc1 : cond0_1 i) :
    sout0_C_4 c i arg2 harg2 arg3 harg3 arg4 harg4 arg5 harg5 arg6 harg6 arg7 harg7 arg8 harg8 arg9 harg9 arg10 harg10 hc0 hc1 x0 x1 x2 xs0 xs1 xs2 xs3 xs4 = k0_pay2 x0 xs4 := by
  unfold sout0_C_4
  rw [View.read_writes_eq_canon _ _ _ (scover0_C_4 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  rw [View.canon_unit_zero hz2]
  simp only [View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- At the last point of a run the output block is the head's value of the five updated carried values, the weight block and the bias. -/
theorem oC3 (hc0 : ¬cond0_0 i) (hc1 : cond0_1 i) :
    out0_C_3 c i arg2 harg2 arg3 harg3 arg4 harg4 arg5 harg5 arg6 harg6 arg7 harg7 arg8 harg8 arg9 harg9 arg10 harg10 hc0 hc1 x0 x1 x2 xs0 xs1 xs2 xs3 xs4
      = k0_pay3 (k0_pay4 (k0_pay13 x0 xs0)) (k0_pay6 (k0_pay13 x0 xs0) (k0_pay15 x0 xs1))
          (k0_pay7 (k0_pay13 x0 xs0) (k0_pay15 x0 xs1) (k0_pay16 x0 xs2) (k0_pay15 x0 xs1)) x1
          (k0_pay1 (k0_pay17 x0 xs3)) (k0_pay2 x0 xs4) x2 := by
  unfold out0_C_3
  rw [View.read_writes_eq_canon _ _ _ (cover0_C_3 c i arg2 harg2 arg3 harg3 arg4 harg4 arg5 harg5 arg6 harg6 arg7 harg7 arg8 harg8 arg9 harg9 arg10 harg10 hc0 hc1 x0 x1 x2 xs0 xs1 xs2 xs3 xs4)]
  unfold kernelRun0_C
  dsimp only
  try sl_unfold_words
  rw [View.canon_unit_zero hz2]
  simp only [View.readCov_unit_zero (S := S128x8) _ hz2, View.readAt_eq_ld, harg2.read_unread, harg3.read_unread, harg4.read_unread, harg6.read_unread, harg7.read_unread, harg8.read_unread, harg9.read_unread, harg10.read_unread, View.ld_unit_zero (S := S128x128x8) hz3, View.ld_unit_zero (S := S128x8) hz2, View.ld_unit_zero (S := S5x8) hz2, View.ld_unit_zero (S := S1) hz1]

/-- So at the last point of a run the output block is the head's value of what that same point leaves in the five accumulators. -/
theorem caseC_out (hc0 : ¬cond0_0 i) (hc1 : cond0_1 i) :
    out0_C_3 c i arg2 harg2 arg3 harg3 arg4 harg4 arg5 harg5 arg6 harg6 arg7 harg7 arg8 harg8 arg9 harg9 arg10 harg10 hc0 hc1 x0 x1 x2 xs0 xs1 xs2 xs3 xs4
      = k0_pay3 (k0_pay4 (sout0_C_0 c i arg2 harg2 arg3 harg3 arg4 harg4 arg5 harg5 arg6 harg6 arg7 harg7 arg8 harg8 arg9 harg9 arg10 harg10 hc0 hc1 x0 x1 x2 xs0 xs1 xs2 xs3 xs4))
          (k0_pay6 (sout0_C_0 c i arg2 harg2 arg3 harg3 arg4 harg4 arg5 harg5 arg6 harg6 arg7 harg7 arg8 harg8 arg9 harg9 arg10 harg10 hc0 hc1 x0 x1 x2 xs0 xs1 xs2 xs3 xs4) (sout0_C_1 c i arg2 harg2 arg3 harg3 arg4 harg4 arg5 harg5 arg6 harg6 arg7 harg7 arg8 harg8 arg9 harg9 arg10 harg10 hc0 hc1 x0 x1 x2 xs0 xs1 xs2 xs3 xs4))
          (k0_pay7 (sout0_C_0 c i arg2 harg2 arg3 harg3 arg4 harg4 arg5 harg5 arg6 harg6 arg7 harg7 arg8 harg8 arg9 harg9 arg10 harg10 hc0 hc1 x0 x1 x2 xs0 xs1 xs2 xs3 xs4) (sout0_C_1 c i arg2 harg2 arg3 harg3 arg4 harg4 arg5 harg5 arg6 harg6 arg7 harg7 arg8 harg8 arg9 harg9 arg10 harg10 hc0 hc1 x0 x1 x2 xs0 xs1 xs2 xs3 xs4)
            (sout0_C_2 c i arg2 harg2 arg3 harg3 arg4 harg4 arg5 harg5 arg6 harg6 arg7 harg7 arg8 harg8 arg9 harg9 arg10 harg10 hc0 hc1 x0 x1 x2 xs0 xs1 xs2 xs3 xs4) (sout0_C_1 c i arg2 harg2 arg3 harg3 arg4 harg4 arg5 harg5 arg6 harg6 arg7 harg7 arg8 harg8 arg9 harg9 arg10 harg10 hc0 hc1 x0 x1 x2 xs0 xs1 xs2 xs3 xs4)) x1
          (sout0_C_3 c i arg2 harg2 arg3 harg3 arg4 harg4 arg5 harg5 arg6 harg6 arg7 harg7 arg8 harg8 arg9 harg9 arg10 harg10 hc0 hc1 x0 x1 x2 xs0 xs1 xs2 xs3 xs4) (sout0_C_4 c i arg2 harg2 arg3 harg3 arg4 harg4 arg5 harg5 arg6 harg6 arg7 harg7 arg8 harg8 arg9 harg9 arg10 harg10 hc0 hc1 x0 x1 x2 xs0 xs1 xs2 xs3 xs4) x2 := by
  rw [oC3, sC0, sC1, sC2, sC3, sC4]

end
end Cert.KernelIdeal.Pieces
end
-- ==== Proof.KUpd.lean ====
/-
  The kernel's arithmetic read at an index, over the extended reals.

  One grid point updates each of the five [128, 8] accumulators by the point's block x : [128, 128, 8] (row, time within
  the tile, channel). At row r and channel ch the updates are: the sum accumulators add the tile's sum of x, of x² or of
  x³ over the tile's 128 times; the maximum becomes the larger of itself and the tile's maximum; the count adds the number
  of positive entries of the tile (each one-bit answer widened to 32 bits and made a float). The initial values are the
  words 0 and, for the maximum, -∞.
-/
import proofs.«158877_j46231027974422_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.KernelIdeal.Upd

open Cert.KernelIdeal Cert.KernelIdeal.Gen

/-- The sum over a tile's time axis, read at (row, channel). -/
theorem tileSum (src : FVec Ideal S128x128x8 .f32) (r : Fin 128) (ch : Fin 8) :
    multiReduction .add [1] S128x8 src 0x00000000#32 reduces_S128x128x8_S128x8 (.inl rfl) rfl (ix2 r ch)
      = ∑ l : Fin 128, src (ix3 r l ch) :=
  (Ideal.multiReduction_add_single src 0x00000000#32 reduces_S128x128x8_S128x8 (.inl rfl) rfl (ix2 r ch)).trans
    (Finset.sum_congr rfl fun l _ => congrArg src (funext fun a => match a with | ⟨0, _⟩ => rfl | ⟨1, _⟩ => rfl | ⟨2, _⟩ => rfl))

/-- The maximum over a tile's time axis, read at (row, channel): the fold of max from the word -∞. -/
theorem tileMax (src : FVec Ideal S128x128x8 .f32) (r : Fin 128) (ch : Fin 8) :
    multiReduction .maximumf [1] S128x8 src 0xFF800000#32 reduces_S128x128x8_S128x8 (.inl rfl) rfl (ix2 r ch)
      = (Finset.univ : Finset (Fin 128)).fold max (Ideal.ofBits .f32 0xFF800000#32) (fun l => src (ix3 r l ch)) :=
  (Ideal.multiReduction_maximumf_single src 0xFF800000#32 reduces_S128x128x8_S128x8 (.inl rfl) rfl (ix2 r ch)).trans
    (congrArg (fun f => (Finset.univ : Finset (Fin 128)).fold max (Ideal.ofBits .f32 0xFF800000#32) f)
      (funext fun l => congrArg src (funext fun a => match a with | ⟨0, _⟩ => rfl | ⟨1, _⟩ => rfl | ⟨2, _⟩ => rfl)))

variable (x : Vec Ideal S128x128x8 .f32) (acc : Vec Ideal S128x8 .f32) (r : Fin 128) (ch : Fin 8)

theorem sum1_apply : k0_pay13 (F := Ideal) x acc (ix2 r ch) = acc (ix2 r ch) + ∑ l : Fin 128, x (ix3 r l ch) := by
  unfold k0_pay13
  rw [shapeCast_self]
  exact congrArg (fun v => acc (ix2 r ch) + v) (tileSum x r ch)

theorem sum2_apply : k0_pay15 (F := Ideal) x acc (ix2 r ch) = acc (ix2 r ch) + ∑ l : Fin 128, x (ix3 r l ch) * x (ix3 r l ch) := by
  unfold k0_pay15 k0_pay14
  rw [shapeCast_self]
  exact congrArg (fun v => acc (ix2 r ch) + v) (tileSum (mulf x x) r ch)

theorem sum3_apply : k0_pay16 (F := Ideal) x acc (ix2 r ch)
    = acc (ix2 r ch) + ∑ l : Fin 128, x (ix3 r l ch) * x (ix3 r l ch) * x (ix3 r l ch) := by
  unfold k0_pay16 k0_pay14
  rw [shapeCast_self]
  exact congrArg (fun v => acc (ix2 r ch) + v) (tileSum (mulf (mulf x x) x) r ch)

theorem max_apply : k0_pay1 (F := Ideal) (k0_pay17 x acc) (ix2 r ch)
    = max (acc (ix2 r ch)) ((Finset.univ : Finset (Fin 128)).fold max (Ideal.ofBits .f32 0xFF800000#32) (fun l => x (ix3 r l ch))) := by
  unfold k0_pay1 k0_pay17
  rw [shapeCast_self]
  exact congrArg (fun v => max (acc (ix2 r ch)) v) (tileMax x r ch)

/-- The float a "positive?" bit becomes: widened to 32 bits, read as a signed integer. -/
def posF (v : EReal) : EReal := ((((Ideal.cmp .ogt v (Ideal.ofBits .f32 0x00000000#32)).setWidth 32).toInt : ℝ) : EReal)

theorem cnt_apply : k0_pay2 (F := Ideal) x acc (ix2 r ch) = acc (ix2 r ch) + ∑ l : Fin 128, posF (x (ix3 r l ch)) := by
  unfold k0_pay2
  rw [shapeCast_self]
  refine congrArg (fun v => acc (ix2 r ch) + v) ((tileSum _ r ch).trans ?_)
  rfl

theorem init0 : k0_pay8 (F := Ideal) (ix2 r ch) = Ideal.ofBits .f32 0x00000000#32 := by unfold k0_pay8; rw [shapeCast_self]; rfl
theorem init1 : k0_pay9 (F := Ideal) (ix2 r ch) = Ideal.ofBits .f32 0x00000000#32 := by unfold k0_pay9; rw [shapeCast_self]; rfl
theorem init2 : k0_pay10 (F := Ideal) (ix2 r ch) = Ideal.ofBits .f32 0x00000000#32 := by unfold k0_pay10; rw [shapeCast_self]; rfl
theorem init3 : k0_pay11 (F := Ideal) (ix2 r ch) = Ideal.ofBits .f32 0xFF800000#32 := by unfold k0_pay11; rw [shapeCast_self]; rfl
theorem init4 : k0_pay12 (F := Ideal) (ix2 r ch) = Ideal.ofBits .f32 0x00000000#32 := by unfold k0_pay12; rw [shapeCast_self]; rfl

end Cert.KernelIdeal.Upd

end
-- ==== Proof.LibAccFold.lean ====
/-
  Running accumulators over a run of consecutive grid points, in closed form (a general lemma file: it mentions no program,
  only the library's fold over a run of points, `Pipeline.accAt`).

  A kernel that keeps a scratch accumulator across the points b, b + 1, …, b + e of a run leaves in it, after point b + j,
  the fold `Pipeline.accAt a g b j`: the reset value `a b` at the first point, stepped by `g` through the later ones. Read
  through any evaluation `ev` (for instance "the entry at a fixed index"):
  * `accAt_sum`: if the reset value reads `z + T b` and each later step adds that point's term `T n`, the fold after j
    steps reads `z + Σ_{s ≤ j} T (b + s)` — in any commutative monoid, so also on the extended reals, infinities included;
  * `accAt_max`: if the reset value reads `max z (T b)` and each later step takes the max with `T n`, then y is an upper
    bound of what the fold after j steps reads iff y bounds z and every T (b + s), s ≤ j — in any linear order; two such
    quantities with the same upper bounds are equal (`eq_of_forall_ge_iff`), which identifies the running maximum with the
    maximum over the whole run.
-/
import Idealize.ShloMosaic.Lib.Pipeline.Value

open scoped BigOperators

namespace AccFoldLaw

open Idealize.ShloMosaic.Pipeline (accAt accAt_zero accAt_succ)

variable {α β : Type*} {N : ℕ}

/-- A sum accumulator after j further points of its run: the start value plus the terms of the points met so far. -/
theorem accAt_sum [AddCommMonoid β] (a : (n : ℕ) → n < N → α) (g : (n : ℕ) → n < N → α → α) (ev : α → β) (z : β)
    (T : ℕ → β) (b e : ℕ) (ha : ∀ h : b < N, ev (a b h) = z + T b)
    (hg : ∀ (n : ℕ) (h : n < N) (acc : α), b < n → n ≤ b + e → ev (g n h acc) = ev acc + T n) :
    ∀ (j : ℕ), j ≤ e → ∀ (h : b + j < N), ev (accAt a g b j h) = z + ∑ s ∈ Finset.range (j + 1), T (b + s)
  | 0, _, h => by rw [accAt_zero, Finset.sum_range_one, ha]; rfl
  | j + 1, hj, h => by
    rw [accAt_succ, hg (b + (j + 1)) h _ (by omega) (by omega),
      accAt_sum a g ev z T b e ha hg j (Nat.le_of_succ_le hj) (Nat.lt_of_succ_lt h), Finset.sum_range_succ _ (j + 1), add_assoc]

/-- A maximum accumulator after j further points of its run, by its upper bounds. -/
theorem accAt_max [LinearOrder β] (a : (n : ℕ) → n < N → α) (g : (n : ℕ) → n < N → α → α) (ev : α → β) (z : β)
    (T : ℕ → β) (b e : ℕ) (ha : ∀ h : b < N, ev (a b h) = max z (T b))
    (hg : ∀ (n : ℕ) (h : n < N) (acc : α), b < n → n ≤ b + e → ev (g n h acc) = max (ev acc) (T n)) :
    ∀ (j : ℕ), j ≤ e → ∀ (h : b + j < N) (y : β), ev (accAt a g b j h) ≤ y ↔ z ≤ y ∧ ∀ s, s ≤ j → T (b + s) ≤ y
  | 0, _, h, y => by
    rw [accAt_zero, ha, max_le_iff]
    refine and_congr Iff.rfl ⟨fun hT s hs => ?_, fun hT => hT 0 le_rfl⟩
    obtain rfl : s = 0 := by omega
    exact hT
  | j + 1, hj, h, y => by
    rw [accAt_succ, hg (b + (j + 1)) h _ (by omega) (by omega), max_le_iff,
      accAt_max a g ev z T b e ha hg j (Nat.le_of_succ_le hj) (Nat.lt_of_succ_lt h) y]
    constructor
    · rintro ⟨⟨hz, hT⟩, hl⟩
      refine ⟨hz, fun s hs => ?_⟩
      rcases Nat.lt_or_ge s (j + 1) with h' | h'
      · exact hT s (by omega)
      · obtain rfl : s = j + 1 := by omega
        exact hl
    · rintro ⟨hz, hT⟩
      exact ⟨⟨hz, fun s hs => hT s (by omega)⟩, hT (j + 1) le_rfl⟩

end AccFoldLaw
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.AccFold.lean ====
/-
  The 16384 times of a row, tile by tile: 128 runs of 128 consecutive terms are the 16384 terms, and a property of every
  entry of every tile is a property of every entry.
-/
import proofs.«158877_j46231027974422_2_alg».proof.Proof.LibAccFold
import proofs.«158877_j46231027974422_2_alg».proof.Proof.LibSumRegroup

open scoped BigOperators

namespace Cert.Moments.AccFold

variable {β : Type*}

/-- 128 runs of 128 consecutive terms are the 16384 terms. -/
theorem tiles_sum [AddCommMonoid β] (F : ℕ → β) :
    ∑ s ∈ Finset.range 128, ∑ l : Fin 128, F (128 * s + l.val) = ∑ u : Fin 16384, F u.val := by
  rw [← Finset.sum_range (fun u => F u) (n := 16384), show (16384 : ℕ) = 128 * 128 from rfl, SumLaw.sum_range_mul F 128 128]
  refine Finset.sum_congr rfl fun s _ => ?_
  rw [← Finset.sum_range (fun l => F (128 * s + l)) (n := 128)]
  exact Finset.sum_congr rfl fun l _ => by rw [Nat.mul_comm]

/-- A property of every tile's entries is a property of every entry. -/
theorem tiles_forall (P : ℕ → Prop) : (∀ s, s ≤ 127 → ∀ l : Fin 128, P (128 * s + l.val)) ↔ ∀ u : Fin 16384, P u.val := by
  constructor
  · intro h u
    have := h (u.val / 128) (by have := u.isLt; omega) ⟨u.val % 128, Nat.mod_lt _ (by omega)⟩
    rwa [show 128 * (u.val / 128) + u.val % 128 = u.val from Nat.div_add_mod _ _] at this
  · intro h s hs l
    exact h ⟨128 * s + l.val, by have := l.isLt; omega⟩

end Cert.Moments.AccFold
-- ==== Proof.Spec.lean ====
/-
  The mathematics both programs compute, written once over extended reals and without either program.

  Input: x of shape [2048, 16384, 8] (sample, time, channel), a weight row W of shape [1, 40] and a bias b of shape [1].
  For a sample p and a channel c the ROW is the time series t ↦ x(p, t, c). Five statistics of a row enter the result:
  its maximum, its mean, the number of its positive entries, its (unbiased) standard deviation and its skewness. The result
  at sample p is the weighted sum of the forty statistics (weight of statistic j of channel c: W(0, 5c + j)) plus the bias.

  Two arrangements of this are stated. `kVal` forms the statistics from the raw moments Σx, Σx², Σx³ (one pass over
  the row); `rVal` centres the row at its mean first (two passes), counts positives in 32-bit integers and replaces
  non-finite statistics as `nan_to_num` does. That the two agree on finite rows is proved elsewhere; here are only the definitions.
-/
import Mathlib
import Idealize.ShloMosaic.PureOps.Ideal
import Idealize.ShloMosaic.PureOps.Reduce
import Idealize.ShloMosaic.Lib.ValueIdx

noncomputable section

open scoped BigOperators
open Idealize.ShloMosaic Idealize.ShloMosaic.ValueIdx

namespace Cert.Moments

abbrev SX : Shape := ⟨3, ![2048, 16384, 8]⟩
abbrev SW : Shape := ⟨2, ![1, 40]⟩
abbrev SB : Shape := ⟨1, ![1]⟩
abbrev SO : Shape := ⟨2, ![2048, 1]⟩

/-- The time series of sample `p`, channel `c`. -/
def row (x : SX.Idx → EReal) (p : Fin 2048) (c : Fin 8) : Fin 16384 → EReal := fun t => x (ix3 p t c)

/-- Entry `k` of the weight row. -/
def wAt (W : SW.Idx → EReal) (k : Fin 40) : EReal := W (ix2 (0 : Fin 1) k)

/-- The position of statistic `j` of channel `c` in the weight row: channel-major, five per channel. -/
def widx (c : Fin 8) (j : Fin 5) : Fin 40 := ⟨5 * c.val + j.val, by omega⟩

/-! The float words of the two programs (the same word reads the same on both sides). -/
def wT : EReal := Ideal.ofBits .f32 0x46800000#32      -- 16384, the length of a row
def wT1 : EReal := Ideal.ofBits .f32 0x467FFC00#32     -- 16383
def w0 : EReal := Ideal.ofBits .f32 0x00000000#32      -- 0
def w2 : EReal := Ideal.ofBits .f32 0x40000000#32      -- 2
def w3 : EReal := Ideal.ofBits .f32 0x40400000#32      -- 3
def wE : EReal := Ideal.ofBits .f32 0x322BCC77#32      -- the small positive ε added to the standard deviation
def wInf : EReal := Ideal.ofBits .f32 0x7F800000#32    -- +∞
def wNInf : EReal := Ideal.ofBits .f32 0xFF800000#32   -- -∞
def wMax : EReal := Ideal.ofBits .f32 0x7F7FFFFF#32    -- the largest finite float
def wMin : EReal := Ideal.ofBits .f32 0xFF7FFFFF#32    -- its negative
def wNaN : EReal := Ideal.ofBits .f32 0x7FC00000#32    -- the word of a NaN (never selected)

/-! ## Statistics of a row -/

def sum1 (r : Fin 16384 → EReal) : EReal := ∑ t, r t
def sum2 (r : Fin 16384 → EReal) : EReal := ∑ t, r t * r t
def sum3 (r : Fin 16384 → EReal) : EReal := ∑ t, r t * r t * r t
/-- The maximum of a row, as the fold of `max` from -∞. -/
def rowMax (r : Fin 16384 → EReal) : EReal := (Finset.univ : Finset (Fin 16384)).fold max wNInf r
/-- The one-bit answer to "is this entry positive". -/
def pos (v : EReal) : BitVec 1 := Ideal.cmp .ogt v w0
/-- The number of positive entries, each bit widened to 32 bits, read as a signed integer, made a float, and the floats summed. -/
def cntF (r : Fin 16384 → EReal) : EReal := ∑ t, ((((pos (r t)).setWidth 32).toInt : ℝ) : EReal)
/-- The number of positive entries, the widened bits summed as 32-bit integers from 0 and the sum made a float. -/
def cntI (r : Fin 16384 → EReal) : EReal :=
  (((((Finset.univ : Finset (Fin 16384)).fold (IntOp.addi (w := 32)) (0#32 : BitVec 32) (fun t => (pos (r t)).setWidth 32)).toInt : ℝ)) : EReal)

/-! ## One pass: the statistics from the raw moments -/

/-- The contribution of one channel from its raw moments `s1 s2 s3`, its maximum and its count, with the channel's five weights. -/
def kHead (s1 s2 s3 mx cnt : EReal) (w : Fin 5 → EReal) : EReal :=
  let mean := Ideal.div s1 wT
  let ex2 := Ideal.div s2 wT
  let ex3 := Ideal.div s3 wT
  let std := Ideal.sqrt (max (Ideal.div (s2 - wT * mean * mean) wT1) w0)
  let m3 := ex3 - w3 * mean * ex2 + w2 * mean * mean * mean
  let d := std + wE
  let skew := Ideal.div m3 (d * (d * d))
  mx * w 0 + mean * w 1 + cnt * w 2 + std * w 3 + skew * w 4

/-- The one-pass value at sample `p`. -/
def kVal (x : SX.Idx → EReal) (W : SW.Idx → EReal) (b : SB.Idx → EReal) (p : Fin 2048) : EReal :=
  (∑ c : Fin 8, kHead (sum1 (row x p c)) (sum2 (row x p c)) (sum3 (row x p c)) (rowMax (row x p c)) (cntF (row x p c))
      (fun j => wAt W (widx c j))) + b (ix1 (0 : Fin 1))

/-! ## Two passes: the statistics of the centred row -/

def rMean (r : Fin 16384 → EReal) : EReal := Ideal.div (w0 + sum1 r) wT
/-- An entry's deviation from the mean. -/
def rDev (r : Fin 16384 → EReal) (t : Fin 16384) : EReal := r t - rMean r
/-- The divisor of the unbiased variance: the length minus the integer 1 made a float. -/
def rN1 : EReal := wT - ((((1#32 : BitVec 32)).toInt : ℝ) : EReal)
/-- The unbiased variance, guarded by "the divisor is positive". -/
def rVar (r : Fin 16384 → EReal) : EReal :=
  if Ideal.cmp .ogt rN1 w0 = 1#1 then Ideal.div (w0 + ∑ t, rDev r t * rDev r t) rN1 else wNaN
def rStd (r : Fin 16384 → EReal) : EReal := Ideal.sqrt (rVar r)
def rSkew (r : Fin 16384 → EReal) : EReal :=
  let d := rStd r + wE
  Ideal.div (Ideal.div (w0 + ∑ t, rDev r t * rDev r t * rDev r t) wT) (d * d * d)
/-- `nan_to_num` with replacement `z` for a NaN: then +∞ becomes the largest float and -∞ its negative. -/
def n2n (z v : EReal) : EReal :=
  let a := if Ideal.cmp .une v v = 1#1 then z else v
  let b := if Ideal.cmp .oeq a wInf = 1#1 then wMax else a
  if Ideal.cmp .oeq b wNInf = 1#1 then wMin else b
/-- The five statistics of a row, in the order of the weight row. -/
def rFeat (r : Fin 16384 → EReal) (j : Fin 5) : EReal :=
  match j with
  | ⟨0, _⟩ => rowMax r
  | ⟨1, _⟩ => rMean r
  | ⟨2, _⟩ => cntI r
  | ⟨3, _⟩ => n2n w0 (rStd r)
  | ⟨4, _⟩ => n2n w0 (rSkew r)

/-- The two-pass value at sample `p`. -/
def rVal (x : SX.Idx → EReal) (W : SW.Idx → EReal) (b : SB.Idx → EReal) (p : Fin 2048) : EReal :=
  (∑ k : Fin 40, rFeat (row x p ⟨k.val / 5, by omega⟩) ⟨k.val % 5, by omega⟩ * wAt W k) + b (ix1 (0 : Fin 1))

end Cert.Moments

end
-- ==== Proof.KAcc.lean ====
/-
  The grid of the kernel is 16 × 128 points, numbered t = 128·q + s (q the block of 128 sample rows, s the tile of 128 times).
  Here: which entries of x a point's block holds, and what each point leaves in each of the five carried accumulators.
-/
import proofs.«158877_j46231027974422_2_alg».proof.Proof.Gen.KernelIdeal.Value
import proofs.«158877_j46231027974422_2_alg».proof.Proof.KPieces
import proofs.«158877_j46231027974422_2_alg».proof.Proof.KUpd
import proofs.«158877_j46231027974422_2_alg».proof.Proof.AccFold
import proofs.«158877_j46231027974422_2_alg».proof.Proof.Spec
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat accAt)

namespace Cert.KernelIdeal.Acc

open Cert.KernelIdeal Cert.KernelIdeal.Gen Cert.KernelIdeal.Value Cert.Moments

variable (m : (ℓ : Loc nD τ sig) → Buf (Elt Ideal) ℓ)
/-- The block indices of the x window at point t of the 16 × 128 grid: (t / 128, t % 128, 0). -/
theorem idx0 : ∀ t : Fin cfg0.N, win0_0.index t (0 : Fin 3) = t.val / 128 ∧ win0_0.index t (1 : Fin 3) = t.val % 128
    ∧ win0_0.index t (2 : Fin 3) = 0 :=
  (by decide +kernel : ∀ t : Fin grid0.N, _)

/-- The x block of point t at (r, l, ch) is x at sample 128·(t / 128) + r, time 128·(t % 128) + l, channel ch. -/
theorem xblk (c : Dev nD) (t : Fin cfg0.N) (r l : Fin 128) (ch : Fin 8) (p : Fin 2048) (u : Fin 16384)
    (hp : p.val = 128 * (t.val / 128) + r.val) (hu : u.val = 128 * (t.val % 128) + l.val) :
    iblk m c 0 t (ix3 r l ch) = m ((c : Thread nD τ).loc main_arg0) (ix3 p u ch) := by
  obtain ⟨e0, e1, e2⟩ := idx0 t
  unfold iblk
  rw [View.read_apply]
  show V m c main_arg0 _ = _
  rw [V_main_arg0]
  refine congrArg (m _) (funext fun a => Fin.ext ?_)
  match a with
  | ⟨0, _⟩ => show win0_0.index t (0 : Fin 3) * 128 + 1 * r.val = p.val; omega
  | ⟨1, _⟩ => show win0_0.index t (1 : Fin 3) * 128 + 1 * l.val = u.val; omega
  | ⟨2, _⟩ => show win0_0.index t (2 : Fin 3) * 8 + 1 * ch.val = ch.val; omega

/-- What point n leaves in carried accumulator 0: its update by the point's x block, from the initial value at the first point of a run over the time axis and from what the point before left elsewhere. -/
theorem sc0_eq (c : Dev nD) (n : ℕ) (hb : n < cfg0.N) (acc : Vec Ideal S128x8 .f32) :
    scAt0_0 m c n hb acc = k0_pay13 (iblk m c 0 ⟨n, hb⟩) (if n % 128 = 0 then (k0_pay8 (F := Ideal)) else acc) := by
  have hN' : n < 2048 := lt_of_lt_of_eq hb N_0
  unfold scAt0_0
  by_cases h0 : n % 128 = 0
  · have h1 : ¬ n % 128 = 127 := by omega
    rw [dif_pos h0, dif_neg h1, if_pos h0]
    exact Pieces.sA0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _
  · rw [dif_neg h0, if_neg h0]
    by_cases h1 : n % 128 = 127
    · rw [dif_pos h1]
      exact Pieces.sC0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) acc _ _ _ _ _ _
    · rw [dif_neg h1]
      exact Pieces.sB0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) acc _ _ _ _ _ _

/-- What point n leaves in carried accumulator 1: its update by the point's x block, from the initial value at the first point of a run over the time axis and from what the point before left elsewhere. -/
theorem sc1_eq (c : Dev nD) (n : ℕ) (hb : n < cfg0.N) (acc : Vec Ideal S128x8 .f32) :
    scAt0_1 m c n hb acc = k0_pay15 (iblk m c 0 ⟨n, hb⟩) (if n % 128 = 0 then (k0_pay9 (F := Ideal)) else acc) := by
  have hN' : n < 2048 := lt_of_lt_of_eq hb N_0
  unfold scAt0_1
  by_cases h0 : n % 128 = 0
  · have h1 : ¬ n % 128 = 127 := by omega
    rw [dif_pos h0, dif_neg h1, if_pos h0]
    exact Pieces.sA1 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _
  · rw [dif_neg h0, if_neg h0]
    by_cases h1 : n % 128 = 127
    · rw [dif_pos h1]
      exact Pieces.sC1 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ acc _ _ _ _ _
    · rw [dif_neg h1]
      exact Pieces.sB1 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ acc _ _ _ _ _

/-- What point n leaves in carried accumulator 2: its update by the point's x block, from the initial value at the first point of a run over the time axis and from what the point before left elsewhere. -/
theorem sc2_eq (c : Dev nD) (n : ℕ) (hb : n < cfg0.N) (acc : Vec Ideal S128x8 .f32) :
    scAt0_2 m c n hb acc = k0_pay16 (iblk m c 0 ⟨n, hb⟩) (if n % 128 = 0 then (k0_pay10 (F := Ideal)) else acc) := by
  have hN' : n < 2048 := lt_of_lt_of_eq hb N_0
  unfold scAt0_2
  by_cases h0 : n % 128 = 0
  · have h1 : ¬ n % 128 = 127 := by omega
    rw [dif_pos h0, dif_neg h1, if_pos h0]
    exact Pieces.sA2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _
  · rw [dif_neg h0, if_neg h0]
    by_cases h1 : n % 128 = 127
    · rw [dif_pos h1]
      exact Pieces.sC2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _ acc _ _ _ _
    · rw [dif_neg h1]
      exact Pieces.sB2 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _ acc _ _ _ _

/-- What point n leaves in carried accumulator 3: its update by the point's x block, from the initial value at the first point of a run over the time axis and from what the point before left elsewhere. -/
theorem sc3_eq (c : Dev nD) (n : ℕ) (hb : n < cfg0.N) (acc : Vec Ideal S128x8 .f32) :
    scAt0_3 m c n hb acc = k0_pay1 (k0_pay17 (iblk m c 0 ⟨n, hb⟩) (if n % 128 = 0 then (k0_pay11 (F := Ideal)) else acc)) := by
  have hN' : n < 2048 := lt_of_lt_of_eq hb N_0
  unfold scAt0_3
  by_cases h0 : n % 128 = 0
  · have h1 : ¬ n % 128 = 127 := by omega
    rw [dif_pos h0, dif_neg h1, if_pos h0]
    exact Pieces.sA3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _
  · rw [dif_neg h0, if_neg h0]
    by_cases h1 : n % 128 = 127
    · rw [dif_pos h1]
      exact Pieces.sC3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _ _ acc _ _ _
    · rw [dif_neg h1]
      exact Pieces.sB3 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _ _ acc _ _ _

/-- What point n leaves in carried accumulator 4: its update by the point's x block, from the initial value at the first point of a run over the time axis and from what the point before left elsewhere. -/
theorem sc4_eq (c : Dev nD) (n : ℕ) (hb : n < cfg0.N) (acc : Vec Ideal S128x8 .f32) :
    scAt0_4 m c n hb acc = k0_pay2 (iblk m c 0 ⟨n, hb⟩) (if n % 128 = 0 then (k0_pay12 (F := Ideal)) else acc) := by
  have hN' : n < 2048 := lt_of_lt_of_eq hb N_0
  unfold scAt0_4
  by_cases h0 : n % 128 = 0
  · have h1 : ¬ n % 128 = 127 := by omega
    rw [dif_pos h0, dif_neg h1, if_pos h0]
    exact Pieces.sA4 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _
  · rw [dif_neg h0, if_neg h0]
    by_cases h1 : n % 128 = 127
    · rw [dif_pos h1]
      exact Pieces.sC4 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _ _ _ acc _ _
    · rw [dif_neg h1]
      exact Pieces.sB4 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) scM0_1 (Memref.isWhole_whole _) scM0_2 (Memref.isWhole_whole _) scM0_3 (Memref.isWhole_whole _) scM0_4 (Memref.isWhole_whole _) (iblk m c 0 ⟨n, hb⟩) (iblk m c 1 ⟨n, hb⟩) (iblk m c 2 ⟨n, hb⟩) _ _ _ _ acc _ _

end Cert.KernelIdeal.Acc
end
-- ==== Proof.KRun.lean ====
/-
  The five accumulators after the last point of a run over the time axis, in closed form.

  Block q of 128 sample rows is visited at the points 128·q … 128·q + 127, one per tile of 128 times. The sum accumulators
  start from the word 0 and add each tile's sum, so after the last tile they hold 0 + the sum over all 16384 times (of x,
  x², x³, and of the float made from each "positive?" bit); the maximum starts from -∞ and ends at the fold of max over all
  times. Read at row r and channel ch these are the statistics of the time series of sample 128·q + r, channel ch.
-/
import proofs.«158877_j46231027974422_2_alg».proof.Proof.KAcc

noncomputable section

open scoped BigOperators
open Idealize.ShloMosaic Idealize.ShloMosaic.TcCoe Idealize.SL.Sem Idealize.ShloMosaic.ValueIdx
open Idealize.ShloMosaic.Pipeline (Dat accAt)

namespace Cert.KernelIdeal.Acc

open Cert.KernelIdeal Cert.KernelIdeal.Gen Cert.KernelIdeal.Value Cert.Moments

variable (m : (ℓ : Loc nD τ sig) → Buf (Elt Ideal) ℓ)

/-- The time series of sample p, channel ch, continued by 0 past its end (so that it is a function of every natural). -/
def XR (c : Dev nD) (p : Fin 2048) (ch : Fin 8) (n : ℕ) : EReal :=
  if h : n < 16384 then m ((c : Thread nD τ).loc main_arg0) (ix3 p ⟨n, h⟩ ch) else 0

theorem XR_fin (c : Dev nD) (p : Fin 2048) (ch : Fin 8) (u : Fin 16384) :
    XR m c p ch u.val = row (m ((c : Thread nD τ).loc main_arg0)) p ch u := by
  unfold XR row; rw [dif_pos u.isLt]

/-- The x block of a point of the run of block q, at (r, l, ch): the time series of sample 128·q + r at time 128·(n % 128) + l. -/
theorem xblk_XR (c : Dev nD) (n : ℕ) (hb : n < cfg0.N) (q : ℕ) (hq : n / 128 = q) (r l : Fin 128) (ch : Fin 8) (p : Fin 2048)
    (hp : p.val = 128 * q + r.val) :
    iblk m c 0 ⟨n, hb⟩ (ix3 r l ch) = XR m c p ch (128 * (n % 128) + l.val) := by
  have hl := l.isLt
  have hlt : 128 * (n % 128) + l.val < 16384 := by omega
  rw [xblk m c ⟨n, hb⟩ r l ch p ⟨128 * (n % 128) + l.val, hlt⟩ (by rw [hp, ← hq]) rfl]
  unfold XR; rw [dif_pos hlt]

/-- Accumulator 0 after the last point of the run of block q, at row r and channel ch. -/
theorem acc0_last (c : Dev nD) (t : Fin cfg0.N) (ht : t.val % 128 = 127) (r : Fin 128) (ch : Fin 8) (p : Fin 2048)
    (hp : p.val = 128 * (t.val / 128) + r.val) :
    (outsAt0 m c t.val t.isLt).2.1 (ix2 r ch)
      = Ideal.ofBits .f32 0x00000000#32 + ∑ u : Fin 16384, (fun v => v) (row (m ((c : Thread nD τ).loc main_arg0)) p ch u) := by
  have hN : cfg0.N = 2048 := N_0
  have htl := t.isLt
  rw [soutsAt0_0_eq m c t]
  have key := AccFoldLaw.accAt_sum (fun n h => scAt0_0 m c n h (VS0_0.read (Elt Ideal) VS0_0.junk)) (scAt0_0 m c)
    (fun v : Vec Ideal S128x8 .f32 => v (ix2 r ch)) (Ideal.ofBits .f32 0x00000000#32)
    (fun n => ∑ l : Fin 128, (fun v => v) (XR m c p ch (128 * (n % 128) + l.val))) (128 * (t.val / 128)) 127
    (fun h => by
      show scAt0_0 m c (128 * (t.val / 128)) h _ (ix2 r ch) = _
      rw [sc0_eq, if_pos (by omega)]
      refine (Upd.sum1_apply (iblk m c 0 ⟨128 * (t.val / 128), h⟩) _ r ch).trans ?_
      rw [Upd.init0]
      refine congrArg (fun v => Ideal.ofBits .f32 0x00000000#32 + v) (Finset.sum_congr rfl fun l _ => ?_)
      rw [xblk_XR m c _ h (t.val / 128) (by omega) r l ch p hp])
    (fun n h acc h1 h2 => by
      show scAt0_0 m c n h acc (ix2 r ch) = _
      rw [sc0_eq, if_neg (by omega)]
      refine (Upd.sum1_apply (iblk m c 0 ⟨n, h⟩) acc r ch).trans ?_
      refine congrArg (fun v => acc (ix2 r ch) + v) (Finset.sum_congr rfl fun l _ => ?_)
      rw [xblk_XR m c n h (t.val / 128) (by omega) r l ch p hp])
    (t.val % 128) (by omega) (by omega)
  refine key.trans (congrArg (fun v => Ideal.ofBits .f32 0x00000000#32 + v) ?_)
  rw [ht]
  refine Eq.trans (Finset.sum_congr rfl fun s hs => ?_) ((AccFold.tiles_sum (fun u => (fun v => v) (XR m c p ch u))).trans
    (Finset.sum_congr rfl fun u _ => by rw [XR_fin]))
  have hs' : s < 128 := Finset.mem_range.mp hs
  show ∑ l : Fin 128, (fun v => v) (XR m c p ch (128 * ((128 * (t.val / 128) + s) % 128) + l.val)) = _
  rw [show (128 * (t.val / 128) + s) % 128 = s by omega]

/-- Accumulator 1 after the last point of the run of block q, at row r and channel ch. -/
theorem acc1_last (c : Dev nD) (t : Fin cfg0.N) (ht : t.val % 128 = 127) (r : Fin 128) (ch : Fin 8) (p : Fin 2048)
    (hp : p.val = 128 * (t.val / 128) + r.val) :
    (outsAt0 m c t.val t.isLt).2.2.1 (ix2 r ch)
      = Ideal.ofBits .f32 0x00000000#32 + ∑ u : Fin 16384, (fun v => v * v) (row (m ((c : Thread nD τ).loc main_arg0)) p ch u) := by
  have hN : cfg0.N = 2048 := N_0
  have htl := t.isLt
  rw [soutsAt0_1_eq m c t]
  have key := AccFoldLaw.accAt_sum (fun n h => scAt0_1 m c n h (VS0_1.read (Elt Ideal) VS0_1.junk)) (scAt0_1 m c)
    (fun v : Vec Ideal S128x8 .f32 => v (ix2 r ch)) (Ideal.ofBits .f32 0x00000000#32)
    (fun n => ∑ l : Fin 128, (fun v => v * v) (XR m c p ch (128 * (n % 128) + l.val))) (128 * (t.val / 128)) 127
    (fun h => by
      show scAt0_1 m c (128 * (t.val / 128)) h _ (ix2 r ch) = _
      rw [sc1_eq, if_pos (by omega)]
      refine (Upd.sum2_apply (iblk m c 0 ⟨128 * (t.val / 128), h⟩) _ r ch).trans ?_
      rw [Upd.init1]
      refine congrArg (fun v => Ideal.ofBits .f32 0x00000000#32 + v) (Finset.sum_congr rfl fun l _ => ?_)
      rw [xblk_XR m c _ h (t.val / 128) (by omega) r l ch p hp])
    (fun n h acc h1 h2 => by
      show scAt0_1 m c n h acc (ix2 r ch) = _
      rw [sc1_eq, if_neg (by omega)]
      refine (Upd.sum2_apply (iblk m c 0 ⟨n, h⟩) acc r ch).trans ?_
      refine congrArg (fun v => acc (ix2 r ch) + v) (Finset.sum_congr rfl fun l _ => ?_)
      rw [xblk_XR m c n h (t.val / 128) (by omega) r l ch p hp])
    (t.val % 128) (by omega) (by omega)
  refine key.trans (congrArg (fun v => Ideal.ofBits .f32 0x00000000#32 + v) ?_)
  rw [ht]
  refine Eq.trans (Finset.sum_congr rfl fun s hs => ?_) ((AccFold.tiles_sum (fun u => (fun v => v * v) (XR m c p ch u))).trans
    (Finset.sum_congr rfl fun u _ => by rw [XR_fin]))
  have hs' : s < 128 := Finset.mem_range.mp hs
  show ∑ l : Fin 128, (fun v => v * v) (XR m c p ch (128 * ((128 * (t.val / 128) + s) % 128) + l.val)) = _
  rw [show (128 * (t.val / 128) + s) % 128 = s by omega]

/-- Accumulator 2 after the last point of the run of block q, at row r and channel ch. -/
theorem acc2_last (c : Dev nD) (t : Fin cfg0.N) (ht : t.val % 128 = 127) (r : Fin 128) (ch : Fin 8) (p : Fin 2048)
    (hp : p.val = 128 * (t.val / 128) + r.val) :
    (outsAt0 m c t.val t.isLt).2.2.2.1 (ix2 r ch)
      = Ideal.ofBits .f32 0x00000000#32 + ∑ u : Fin 16384, (fun v => v * v * v) (row (m ((c : Thread nD τ).loc main_arg0)) p ch u) := by
  have hN : cfg0.N = 2048 := N_0
  have htl := t.isLt
  rw [soutsAt0_2_eq m c t]
  have key := AccFoldLaw.accAt_sum (fun n h => scAt0_2 m c n h (VS0_2.read (Elt Ideal) VS0_2.junk)) (scAt0_2 m c)
    (fun v : Vec Ideal S128x8 .f32 => v (ix2 r ch)) (Ideal.ofBits .f32 0x00000000#32)
    (fun n => ∑ l : Fin 128, (fun v => v * v * v) (XR m c p ch (128 * (n % 128) + l.val))) (128 * (t.val / 128)) 127
    (fun h => by
      show scAt0_2 m c (128 * (t.val / 128)) h _ (ix2 r ch) = _
      rw [sc2_eq, if_pos (by omega)]
      refine (Upd.sum3_apply (iblk m c 0 ⟨128 * (t.val / 128), h⟩) _ r ch).trans ?_
      rw [Upd.init2]
      refine congrArg (fun v => Ideal.ofBits .f32 0x00000000#32 + v) (Finset.sum_congr rfl fun l _ => ?_)
      rw [xblk_XR m c _ h (t.val / 128) (by omega) r l ch p hp])
    (fun n h acc h1 h2 => by
      show scAt0_2 m c n h acc (ix2 r ch) = _
      rw [sc2_eq, if_neg (by omega)]
      refine (Upd.sum3_apply (iblk m c 0 ⟨n, h⟩) acc r ch).trans ?_
      refine congrArg (fun v => acc (ix2 r ch) + v) (Finset.sum_congr rfl fun l _ => ?_)
      rw [xblk_XR m c n h (t.val / 128) (by omega) r l ch p hp])
    (t.val % 128) (by omega) (by omega)
  refine key.trans (congrArg (fun v => Ideal.ofBits .f32 0x00000000#32 + v) ?_)
  rw [ht]
  refine Eq.trans (Finset.sum_congr rfl fun s hs => ?_) ((AccFold.tiles_sum (fun u => (fun v => v * v * v) (XR m c p ch u))).trans
    (Finset.sum_congr rfl fun u _ => by rw [XR_fin]))
  have hs' : s < 128 := Finset.mem_range.mp hs
  show ∑ l : Fin 128, (fun v => v * v * v) (XR m c p ch (128 * ((128 * (t.val / 128) + s) % 128) + l.val)) = _
  rw [show (128 * (t.val / 128) + s) % 128 = s by omega]

/-- Accumulator 4 after the last point of the run of block q, at row r and channel ch. -/
theorem acc4_last (c : Dev nD) (t : Fin cfg0.N) (ht : t.val % 128 = 127) (r : Fin 128) (ch : Fin 8) (p : Fin 2048)
    (hp : p.val = 128 * (t.val / 128) + r.val) :
    (outsAt0 m c t.val t.isLt).2.2.2.2.2 (ix2 r ch)
      = Ideal.ofBits .f32 0x00000000#32 + ∑ u : Fin 16384, (Upd.posF) (row (m ((c : Thread nD τ).loc main_arg0)) p ch u) := by
  have hN : cfg0.N = 2048 := N_0
  have htl := t.isLt
  rw [soutsAt0_4_eq m c t]
  have key := AccFoldLaw.accAt_sum (fun n h => scAt0_4 m c n h (VS0_4.read (Elt Ideal) VS0_4.junk)) (scAt0_4 m c)
    (fun v : Vec Ideal S128x8 .f32 => v (ix2 r ch)) (Ideal.ofBits .f32 0x00000000#32)
    (fun n => ∑ l : Fin 128, (Upd.posF) (XR m c p ch (128 * (n % 128) + l.val))) (128 * (t.val / 128)) 127
    (fun h => by
      show scAt0_4 m c (128 * (t.val / 128)) h _ (ix2 r ch) = _
      rw [sc4_eq, if_pos (by omega)]
      refine (Upd.cnt_apply (iblk m c 0 ⟨128 * (t.val / 128), h⟩) _ r ch).trans ?_
      rw [Upd.init4]
      refine congrArg (fun v => Ideal.ofBits .f32 0x00000000#32 + v) (Finset.sum_congr rfl fun l _ => ?_)
      rw [xblk_XR m c _ h (t.val / 128) (by omega) r l ch p hp])
    (fun n h acc h1 h2 => by
      show scAt0_4 m c n h acc (ix2 r ch) = _
      rw [sc4_eq, if_neg (by omega)]
      refine (Upd.cnt_apply (iblk m c 0 ⟨n, h⟩) acc r ch).trans ?_
      refine congrArg (fun v => acc (ix2 r ch) + v) (Finset.sum_congr rfl fun l _ => ?_)
      rw [xblk_XR m c n h (t.val / 128) (by omega) r l ch p hp])
    (t.val % 128) (by omega) (by omega)
  refine key.trans (congrArg (fun v => Ideal.ofBits .f32 0x00000000#32 + v) ?_)
  rw [ht]
  refine Eq.trans (Finset.sum_congr rfl fun s hs => ?_) ((AccFold.tiles_sum (fun u => (Upd.posF) (XR m c p ch u))).trans
    (Finset.sum_congr rfl fun u _ => by rw [XR_fin]))
  have hs' : s < 128 := Finset.mem_range.mp hs
  show ∑ l : Fin 128, (Upd.posF) (XR m c p ch (128 * ((128 * (t.val / 128) + s) % 128) + l.val)) = _
  rw [show (128 * (t.val / 128) + s) % 128 = s by omega]

/-- The maximum accumulator after the last point of the run of block q, at row r and channel ch: the row's maximum. -/
theorem acc3_last (c : Dev nD) (t : Fin cfg0.N) (ht : t.val % 128 = 127) (r : Fin 128) (ch : Fin 8) (p : Fin 2048)
    (hp : p.val = 128 * (t.val / 128) + r.val) :
    (outsAt0 m c t.val t.isLt).2.2.2.2.1 (ix2 r ch) = rowMax (row (m ((c : Thread nD τ).loc main_arg0)) p ch) := by
  have hN : cfg0.N = 2048 := N_0
  have htl := t.isLt
  rw [soutsAt0_3_eq m c t]
  have key := AccFoldLaw.accAt_max (fun n h => scAt0_3 m c n h (VS0_3.read (Elt Ideal) VS0_3.junk)) (scAt0_3 m c)
    (fun v : Vec Ideal S128x8 .f32 => v (ix2 r ch)) (Ideal.ofBits .f32 0xFF800000#32)
    (fun n => (Finset.univ : Finset (Fin 128)).fold max (Ideal.ofBits .f32 0xFF800000#32) (fun l => XR m c p ch (128 * (n % 128) + l.val)))
    (128 * (t.val / 128)) 127
    (fun h => by
      show scAt0_3 m c (128 * (t.val / 128)) h _ (ix2 r ch) = _
      rw [sc3_eq, if_pos (by omega)]
      refine (Upd.max_apply (iblk m c 0 ⟨128 * (t.val / 128), h⟩) _ r ch).trans ?_
      rw [Upd.init3]
      refine congrArg (fun f => max (Ideal.ofBits .f32 0xFF800000#32) ((Finset.univ : Finset (Fin 128)).fold max (Ideal.ofBits .f32 0xFF800000#32) f)) (funext fun l => ?_)
      rw [xblk_XR m c _ h (t.val / 128) (by omega) r l ch p hp])
    (fun n h acc h1 h2 => by
      show scAt0_3 m c n h acc (ix2 r ch) = _
      rw [sc3_eq, if_neg (by omega)]
      refine (Upd.max_apply (iblk m c 0 ⟨n, h⟩) acc r ch).trans ?_
      refine congrArg (fun f => max (acc (ix2 r ch)) ((Finset.univ : Finset (Fin 128)).fold max (Ideal.ofBits .f32 0xFF800000#32) f)) (funext fun l => ?_)
      rw [xblk_XR m c n h (t.val / 128) (by omega) r l ch p hp])
    (t.val % 128) (by omega) (by omega)
  refine eq_of_forall_ge_iff fun y => ?_
  rw [key y, ht]
  unfold rowMax wNInf
  rw [Finset.fold_max_le]
  refine and_congr_right fun hz => ?_
  simp only [Finset.mem_univ, forall_true_left]
  rw [← (AccFold.tiles_forall (fun u => XR m c p ch u ≤ y)).trans (forall_congr' fun u => by rw [XR_fin])]
  constructor
  · intro h s hs l
    have := ((Finset.fold_max_le y).mp (h s hs)).2 l (Finset.mem_univ l)
    rwa [show (128 * (t.val / 128) + s) % 128 = s by omega] at this
  · intro h s hs
    rw [Finset.fold_max_le]
    exact ⟨hz, fun l _ => by rw [show (128 * (t.val / 128) + s) % 128 = s by omega]; exact h s hs l⟩

end Cert.KernelIdeal.Acc
end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KHead.lean ====
/-
  The kernel's head read at an index, over the extended reals.

  At the last point of a run over the time axis the kernel turns the five accumulators Σx, Σx², Σx³, the
  maximum and the count (each [128, 8]: row, channel) into mean, standard deviation and skewness, multiplies the five
  statistics of every channel by that channel's five weights (row j of the [5, 8] weight block holds weight j of every
  channel), sums over the eight channels and adds the bias. Read at row r this is the sum over the channels of the
  one-channel contribution `Cert.Moments.kHead` plus the bias. The kernel's guard "x ≠ x ? 0 : x" on the standard deviation
  and on the skewness is the identity: on the extended reals nothing differs from itself.
-/
import proofs.«158877_j46231027974422_2_alg».proof.Proof.Gen.KernelIdeal.Skeleton
import proofs.«158877_j46231027974422_2_alg».proof.Proof.Spec
import proofs.«158877_j46231027974422_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators
open Idealize.ShloMosaic Idealize.ShloMosaic.ValueIdx

namespace Cert.KernelIdeal.Head

open Cert.KernelIdeal Cert.KernelIdeal.Gen Cert.Moments

/-- Nothing differs from itself. -/
theorem cmp_one_self (v : EReal) : Ideal.cmp .one v v = 0#1 := by simp [Ideal.cmp]

/-- The sum over the eight channels of a [128, 8] array, read at row r. -/
theorem rowSum8 (v : FVec Ideal S128x8 .f32) (r : Fin 128) :
    multiReduction .add [1] S128 v 0x00000000#32 Gen.reduces_S128x8_S128 (.inl rfl) rfl (ix1 r) = ∑ ch : Fin 8, v (ix2 r ch) :=
  (Ideal.multiReduction_add_single v 0x00000000#32 Gen.reduces_S128x8_S128 (.inl rfl) rfl (ix1 r)).trans
    (Finset.sum_congr rfl fun ch _ => congrArg v (funext fun a => match a with | ⟨0, _⟩ => rfl | ⟨1, _⟩ => rfl))

/-- Row o of the weight block, made a vector, a row again and broadcast over the 128 rows, read at (r, ch): the weight block at (o, ch). -/
theorem wrow (wt : Vec Ideal S5x8 .f32) (o : Nat) (ho : o < 5) (h0 : S5x8.ShapeCasts S5x8) (hs : S5x8.Slices ![o, 0] S1x8)
    (h1 : S1x8.ShapeCasts S8) (h2 : S8.ShapeCasts S1x8) (h3 : S1x8.Broadcasts S128x8) (r : Fin 128) (ch : Fin 8) :
    broadcastTo S128x8 (shapeCast S1x8 (shapeCast S8 (extractStridedSlice S1x8 ![o, 0] (shapeCast S5x8 wt h0) hs) h1) h2) h3 (ix2 r ch)
      = wt (ix2 (⟨o, ho⟩ : Fin 5) ch) := by
  rw [broadcastTo_1b_ab_apply, shapeCast_shapeCast, slice2_axis0_apply o _ hs (0 : Fin 1) ch (⟨o, ho⟩ : Fin 5) rfl, shapeCast_self]

/-- The bias made a [1, 1] array and broadcast over the 128 rows, read at (r, 0): the bias. -/
theorem biasCol (bias : Vec Ideal S1 .f32) (h1 : S1.ShapeCasts S1x1) (h2 : S1x1.Broadcasts S128x1) (r : Fin 128) :
    broadcastTo S128x1 (shapeCast S1x1 bias h1) h2 (ix2 r (0 : Fin 1)) = bias (ix1 (0 : Fin 1)) := by
  rw [broadcastTo_1b_ab_apply, shapeCast_a_1a_apply]

variable (a1 a2 a3 amx acnt : Vec Ideal S128x8 .f32) (wt : Vec Ideal S5x8 .f32) (bias : Vec Ideal S1 .f32) (r : Fin 128) (ch : Fin 8)

theorem mean_apply : k0_pay4 (F := Ideal) a1 (ix2 r ch) = Ideal.div (a1 (ix2 r ch)) wT := rfl

theorem std_apply : k0_pay5 (F := Ideal) a1 a2 (ix2 r ch)
    = Ideal.sqrt (max (Ideal.div (a2 (ix2 r ch) - wT * Ideal.div (a1 (ix2 r ch)) wT * Ideal.div (a1 (ix2 r ch)) wT) wT1) w0) := rfl

theorem stdf_apply : k0_pay6 (F := Ideal) a1 a2 (ix2 r ch) = k0_pay5 (F := Ideal) a1 a2 (ix2 r ch) := by
  unfold k0_pay6
  show Scalar.select (Ideal.cmp .one (k0_pay5 (F := Ideal) a1 a2 (ix2 r ch)) (k0_pay5 (F := Ideal) a1 a2 (ix2 r ch))) _ _ = _
  rw [cmp_one_self, select_zero]

/-- The skewness before its guard. -/
def skewAt (s1 s2 s3 std : EReal) : EReal :=
  Ideal.div (Ideal.div s3 wT - w3 * Ideal.div s1 wT * Ideal.div s2 wT + w2 * Ideal.div s1 wT * Ideal.div s1 wT * Ideal.div s1 wT)
    ((std + wE) * ((std + wE) * (std + wE)))

theorem skew_apply : k0_pay7 (F := Ideal) a1 a2 a3 a2 (ix2 r ch)
    = skewAt (a1 (ix2 r ch)) (a2 (ix2 r ch)) (a3 (ix2 r ch)) (k0_pay5 (F := Ideal) a1 a2 (ix2 r ch)) := by
  unfold k0_pay7
  show Scalar.select (Ideal.cmp .one (skewAt (a1 (ix2 r ch)) (a2 (ix2 r ch)) (a3 (ix2 r ch)) (k0_pay5 (F := Ideal) a1 a2 (ix2 r ch)))
      (skewAt (a1 (ix2 r ch)) (a2 (ix2 r ch)) (a3 (ix2 r ch)) (k0_pay5 (F := Ideal) a1 a2 (ix2 r ch)))) _ _ = _
  rw [cmp_one_self, select_zero]
  rfl

/-- The head at row r: the channels' contributions summed, plus the bias. -/
theorem head_apply :
    k0_pay3 (F := Ideal) (k0_pay4 a1) (k0_pay6 a1 a2) (k0_pay7 a1 a2 a3 a2) wt amx acnt bias (ix2 r (0 : Fin 1))
      = (∑ ch : Fin 8, kHead (a1 (ix2 r ch)) (a2 (ix2 r ch)) (a3 (ix2 r ch)) (amx (ix2 r ch)) (acnt (ix2 r ch)) (fun j => wt (ix2 j ch)))
        + bias (ix1 (0 : Fin 1)) := by
  unfold k0_pay3
  rw [addf_apply, Idealize.ShloMosaic.Keepdims.shapeCast_a_a1_apply, biasCol, rowSum8]
  refine congrArg (fun v => v + bias (ix1 (0 : Fin 1))) (Finset.sum_congr rfl fun ch _ => ?_)
  simp only [addf_apply, mulf_apply, wrow wt 0 (by omega), wrow wt 1 (by omega), wrow wt 2 (by omega), wrow wt 3 (by omega),
    wrow wt 4 (by omega), stdf_apply, skew_apply, mean_apply, std_apply]
  rfl

end Cert.KernelIdeal.Head

end
-- ==== Proof.KWeights.lean ====
/-
  The weight and bias blocks the kernel's body sees.

  Before the region the weight row W of shape [1, 40] is cut into eight rows of five (entry (ch, j) is W(0, 5 ch + j):
  the same position in row-major order) and transposed to [5, 8] (entry (j, ch) is the cut array's (ch, j)). The window
  that stages this array holds it whole at every grid point, and so does the window that stages the bias. So at every
  point the weight block at (j, ch) is W(0, 5 ch + j) and the bias block at 0 is b(0).
-/
import proofs.«158877_j46231027974422_2_alg».proof.Proof.Gen.KernelIdeal.Frame
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The weight window's block index is (0, 0) at every grid point: the whole array is one block. -/
theorem widx0 : ∀ t : Fin cfg0.N, win0_1.index t (0 : Fin 2) = 0 ∧ win0_1.index t (1 : Fin 2) = 0 :=
  (by decide +kernel : ∀ t : Fin grid0.N, _)

/-- The bias window's block index is 0 at every grid point. -/
theorem bidx0 : ∀ t : Fin cfg0.N, win0_2.index t (0 : Fin 1) = 0 :=
  (by decide +kernel : ∀ t : Fin grid0.N, _)

/-- What the region finds in the weight array: the weight row cut into eight rows of five, then transposed. -/
theorem V_main_v1 (c : Dev nD) :
    (V m c main_v1 : S5x8.Idx → EReal)
      = transpose S5x8 [1, 0] (shapeCast S8x5 (m ((c : Thread nD τ).loc main_arg1)) shapeCasts_S1x40_S8x5)
          transposes_S8x5_S5x8_1_0 := by
  dsimp only [Gen.V, Gen.hostOps0]
  after_results
  rfl

/-- The weight block of any point at (j, ch) is the weight row's entry 5 ch + j. -/
theorem wblk (c : Dev nD) (t : Fin cfg0.N) (j : Fin 5) (ch : Fin 8) (k : Fin 40) (hk : k.val = 5 * ch.val + j.val) :
    iblk m c 1 t (ix2 j ch) = m ((c : Thread nD τ).loc main_arg1) (ix2 (0 : Fin 1) k) := by
  obtain ⟨e0, e1⟩ := widx0 t
  have hemb : ((cfg0.win 1).blk t).view.emb (ix2 j ch) = ix2 j ch := funext fun a => Fin.ext (by
    match a with
    | ⟨0, _⟩ => show win0_1.index t (0 : Fin 2) * 5 + 1 * j.val = j.val; omega
    | ⟨1, _⟩ => show win0_1.index t (1 : Fin 2) * 8 + 1 * ch.val = ch.val; omega)
  unfold iblk
  rw [View.read_apply]
  show V m c main_v1 (((cfg0.win 1).blk t).view.emb (ix2 j ch)) = _
  rw [hemb, V_main_v1, transpose_ix2_apply]
  refine shapeCast_apply _ _ _ _ ?_
  show (S1x40.rowMajor (ix2 (0 : Fin 1) k)).val = (S8x5.rowMajor (ix2 ch j)).val
  rw [Shape.rowMajor_val_two, Shape.rowMajor_val_two]
  show 0 * 40 + k.val = ch.val * 5 + j.val
  omega

/-- The bias block of any point at 0 is the bias. -/
theorem bblk (c : Dev nD) (t : Fin cfg0.N) :
    iblk m c 2 t (ix1 (0 : Fin 1)) = m ((c : Thread nD τ).loc main_arg2) (ix1 (0 : Fin 1)) := by
  have e0 := bidx0 t
  unfold iblk
  rw [View.read_apply]
  show V m c main_arg2 _ = _
  rw [V_main_arg2]
  refine congrArg (m _) (funext fun a => Fin.ext ?_)
  match a with
  | ⟨0, _⟩ => show win0_2.index t (0 : Fin 1) * 1 + 1 * (0 : Fin 1).val = (0 : Fin 1).val; omega

end Cert.KernelIdeal.Acc

end
-- ==== Proof.KOut.lean ====
/-
  The kernel's result array, in closed form: entry (p, 0) is the one-pass value `Cert.Moments.kVal` of the arguments at sample p.

  Only the last point of each run over the time axis (t % 128 = 127) writes its [128, 1] output block back, block t / 128
  of the [2048, 1] result; there the block is the head's value of the five accumulators that point leaves, which are the
  statistics of the whole time series (closed forms of the accumulators), with the weight block a re-laid copy of the weight
  row and the bias block the bias. The sixteen written blocks tile the result.
-/
import proofs.«158877_j46231027974422_2_alg».proof.Proof.KRun
import proofs.«158877_j46231027974422_2_alg».proof.Proof.KHead
import proofs.«158877_j46231027974422_2_alg».proof.Proof.KWeights

noncomputable section

open scoped BigOperators
open Idealize.ShloMosaic Idealize.ShloMosaic.TcCoe Idealize.SL.Sem Idealize.ShloMosaic.ValueIdx
open Idealize.ShloMosaic.Pipeline (Dat accAt)

namespace Cert.KernelIdeal.Acc

open Cert.KernelIdeal Cert.KernelIdeal.Gen Cert.KernelIdeal.Value Cert.Moments

variable (m : (ℓ : Loc nD τ sig) → Buf (Elt Ideal) ℓ) (ρ : Dev nD → PrngReg)

/-- At the last point of a run the output buffer holds the head's value of the accumulators that point leaves. -/
theorem out_last (c : Dev nD) (t : Fin cfg0.N) (h0 : ¬t.val % 128 = 0) (h1 : t.val % 128 = 127) :
    (outsAt0 m c t.val t.isLt).1
      = k0_pay3 (k0_pay4 (outsAt0 m c t.val t.isLt).2.1) (k0_pay6 (outsAt0 m c t.val t.isLt).2.1 (outsAt0 m c t.val t.isLt).2.2.1) (k0_pay7 (outsAt0 m c t.val t.isLt).2.1 (outsAt0 m c t.val t.isLt).2.2.1 (outsAt0 m c t.val t.isLt).2.2.2.1 (outsAt0 m c t.val t.isLt).2.2.1)
          (iblk m c 1 t) (outsAt0 m c t.val t.isLt).2.2.2.2.1 (outsAt0 m c t.val t.isLt).2.2.2.2.2 (iblk m c 2 t) := by
  rw [outsAt0_C m c t h0 h1]
  dsimp only
  exact Pieces.caseC_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) _ _ _ _ _ _ _

/-- The output block of the last point of the run of block q, at row r: the one-pass value at sample 128·q + r. -/
theorem kblock (c : Dev nD) (t : Fin cfg0.N) (ht : t.val % 128 = 127) (r : Fin 128) (p : Fin 2048)
    (hp : p.val = 128 * (t.val / 128) + r.val) :
    (outsAt0 m c t.val t.isLt).1 (ix2 r (0 : Fin 1))
      = kVal (m ((c : Thread nD τ).loc main_arg0)) (m ((c : Thread nD τ).loc main_arg1)) (m ((c : Thread nD τ).loc main_arg2)) p := by
  rw [out_last m c t (by omega) ht]
  refine (Head.head_apply (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2 (iblk m c 1 t) (iblk m c 2 t) r).trans ?_
  unfold kVal
  rw [bblk m c t]
  refine congrArg (fun v => v + m ((c : Thread nD τ).loc main_arg2) (ix1 (0 : Fin 1))) (Finset.sum_congr rfl fun ch _ => ?_)
  rw [acc0_last m c t ht r ch p hp, acc1_last m c t ht r ch p hp, acc2_last m c t ht r ch p hp, acc3_last m c t ht r ch p hp,
    acc4_last m c t ht r ch p hp]
  simp only [Ideal.ofBits_zero_f32, zero_add]
  have hw : (fun j : Fin 5 => iblk m c 1 t (ix2 j ch)) = fun j => wAt (m ((c : Thread nD τ).loc main_arg1)) (widx ch j) :=
    funext fun j => wblk m c t j ch (widx ch j) rfl
  rw [hw]
  rfl

/-- The block indices of the output window at point t: (t / 128, 0). -/
theorem idx3 : ∀ t : Fin cfg0.N, win0_3.index t (0 : Fin 2) = t.val / 128 ∧ win0_3.index t (1 : Fin 2) = 0 :=
  (by decide +kernel : ∀ t : Fin grid0.N, _)

/-- The result array: entry (p, 0) is the one-pass value at sample p. -/
def G (c : Dev nD) : S2048x1.Idx → EReal := fun i =>
  kVal (m ((c : Thread nD τ).loc main_arg0)) (m ((c : Thread nD τ).loc main_arg1)) (m ((c : Thread nD τ).loc main_arg2))
    ⟨(i 0).val, idx2_lt0 i⟩

/-- What a point that writes back writes is its block of `G`. -/
theorem flushed_last (c : Dev nD) (t : Fin cfg0.N) (ht : t.val % 128 = 127) :
    (dats m 0 c).flushed 3 t = ((cfg0.win 3).blk t).view.read (Elt Ideal) (G m c) := by
  obtain ⟨e0, e1⟩ := idx3 t
  rw [flushed3]
  funext y
  have hr : (y 0).val < 128 := (y 0).isLt
  have hy : (y : S128x1.Idx) = ix2 (⟨(y 0).val, hr⟩ : Fin 128) (0 : Fin 1) := by
    funext a
    match a with
    | ⟨0, _⟩ => rfl
    | ⟨1, _⟩ => exact Fin.ext (Nat.lt_one_iff.mp (show (y 1).val < 1 from (y 1).isLt))
  show (outsAt0 m c t.val t.isLt).1 y = G m c (((cfg0.win 3).blk t).view.emb y)
  have htl := t.isLt
  have hN : cfg0.N = 2048 := N_0
  refine (congrArg (outsAt0 m c t.val t.isLt).1 hy).trans ((kblock m c t ht ⟨(y 0).val, hr⟩ ⟨128 * (t.val / 128) + (y 0).val, by omega⟩ rfl).trans ?_)
  unfold G
  refine congrArg (kVal _ _ _) (Fin.ext ?_)
  show 128 * (t.val / 128) + (y 0).val = win0_3.index t (0 : Fin 2) * 128 + 1 * (y 0).val
  omega

/-- An index of the result is in point t's block iff each coordinate is in the block's range on its axis. -/
theorem mem_blk3 (t : Fin cfg0.N) (i : S2048x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v2).slice (win0_3.rect t)).set ↔ _
  rw [View.set_slice_whole, Rect.mem_set_unit]
  exact Iff.rfl

/-- The result array after the run. -/
theorem final (c : Dev nD) : (dats m 0 c).arrAt 3 cfg0.N = G m c := by
  have hN : cfg0.N = 2048 := N_0
  refine (dats m 0 c).arrAt_eq_of_cover 3 (G m c) (fun t hf => flushed_last m c t ((flush0_3 t).mp hf)) fun i => ?_
  have hi0 : (i 0).val < 2048 := idx2_lt0 i
  have hi1 : (i 1).val < 1 := idx2_lt1 i
  let t : Fin cfg0.N := ⟨128 * ((i 0).val / 128) + 127, by omega⟩
  have htv : t.val = 128 * ((i 0).val / 128) + 127 := rfl
  obtain ⟨e0, e1⟩ := idx3 t
  refine ⟨t, (flush0_3 t).mpr (by omega), ?_⟩
  rw [mem_blk3]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 1 ≤ (i 1).val ∧ (i 1).val < win0_3.index t (1 : Fin 2) * 1 + 1; omega

/-- The kernel's run, read: the result array is `G`, the arguments are unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Acc
end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.RefTerm.lean ====
/-
  The reference program's result as one pure function of its three argument arrays.

  Each definition below is one value of the program, or one of its module-local functions applied to operands,
  built from earlier ones by exactly the operation the program's line names and in the program's order: the per-row
  sum and mean, the unbiased variance with its guard on the divisor, the standard deviation, the skewness from the
  centred cubes, the row maximum, the count of positive entries in 32-bit integers, the two statistics with their
  non-finite values replaced, the stacking [2048, 8, 5] and its flattening [2048, 40], the product with the
  transposed weight row, and the bias added. Definitions only: nothing is proved here.
-/
import proofs.«158877_j46231027974422_2_alg».proof.ReferenceIdeal

set_option synthInstance.maxSize 4096

noncomputable section

namespace Cert.ReferenceIdeal.RefTerm

open Idealize.ShloMosaic Idealize.SL.Sem
open Cert.ReferenceIdeal

variable {F : FTy → Type} [FloatOps F] [Facts]
open Facts₀ Facts

/-- The contents of a 32-bit float array of shape `s`. -/
abbrev Cf (F : FTy → Type) (s : Shape) : Type := (⟨s, .f32⟩ : BufTy).Contents (Elt F)
/-- The contents of a 32-bit integer array of shape `s`. -/
abbrev Ci (F : FTy → Type) (s : Shape) : Type := (⟨s, .i32⟩ : BufTy).Contents (Elt F)
/-- The contents of a one-bit array of shape `s`. -/
abbrev Cb (F : FTy → Type) (s : Shape) : Type := (⟨s, .i1⟩ : BufTy).Contents (Elt F)

/-! ## The module-local functions, as functions of their operands -/

/-- A scalar condition broadcast over [2048, 8] selects between an array and a broadcast scalar. -/
def whereS (p : Cb F S_) (a : Cf F S2048x8) (z : Cf F S_) : Cf F S2048x8 :=
  select (broadcastInDim S2048x8 ![] bcast_S_S2048x8 p) a (broadcastInDim S2048x8 ![] bcast_S_S2048x8 (id z))

/-- The row sums of a [2048, 16384, 8] array along its middle axis, started from 0. -/
def rowSum (x : Cf F S2048x16384x8) : Cf F S2048x8 :=
  Host.reduceAdd x (constant S_ .f32 0x00000000#32) reducesTo_S2048x16384x8_S2048x8_d1 h_S_

/-- Inside the variance: the row mean kept as [2048, 1, 8]. -/
def varMean (x : Cf F S2048x16384x8) : Cf F S2048x1x8 :=
  Host.divf (broadcastInDim S2048x1x8 ![0, 2] bcast_S2048x8_S2048x1x8_0_2 (rowSum x))
    (broadcastInDim S2048x1x8 ![] bcast_S_S2048x1x8 (constant S_ .f32 0x46800000#32))

/-- Inside the variance: the entries centred at their row mean. -/
def varCentred (x : Cf F S2048x16384x8) : Cf F S2048x16384x8 :=
  subf x (broadcastInDim S2048x16384x8 ![0, 1, 2] bcast_S2048x1x8_S2048x16384x8_0_1_2 (varMean x))

/-- Inside the variance: the squares of the centred entries. -/
def varSq (x : Cf F S2048x16384x8) : Cf F S2048x16384x8 := mulf (varCentred x) (varCentred x)

/-- Inside the variance: the divisor, the row length minus the integer correction made a float. -/
def varDiv (c : Ci F S_) : Cf F S_ := subf (constant S_ .f32 0x46800000#32) (sitofp .f32 c)

/-- The variance of each row with correction `c`: the sum of squared deviations over the divisor where the divisor
    is positive, the word of a NaN elsewhere. -/
def var (x : Cf F S2048x16384x8) (c : Ci F S_) : Cf F S2048x8 :=
  whereS (cmpf .ogt (varDiv c) (constant S_ .f32 0x00000000#32))
    (Host.divf (rowSum (varSq x)) (broadcastInDim S2048x8 ![] bcast_S_S2048x8 (varDiv c)))
    (constant S_ .f32 0x7FC00000#32)

/-- The standard deviation of each row with correction `c`. -/
def std (x : Cf F S2048x16384x8) (c : Ci F S_) : Cf F S2048x8 := Host.sqrt (var x c)

/-- Where the condition holds the broadcast scalar, elsewhere the array. -/
def where0 (p : Cb F S2048x8) (z : Cf F S_) (a : Cf F S2048x8) : Cf F S2048x8 :=
  select p (broadcastInDim S2048x8 ![] bcast_S_S2048x8 z) a

/-- First replacement: a NaN becomes `z`. -/
def n2n1 (a : Cf F S2048x8) (z : Cf F S_) : Cf F S2048x8 := where0 (cmpf .une a a) (id z) a

/-- Second replacement: +∞ becomes the largest finite float. -/
def n2n2 (a : Cf F S2048x8) (z : Cf F S_) : Cf F S2048x8 :=
  where0 (cmpf .oeq (n2n1 a z) (broadcastInDim S2048x8 ![] bcast_S_S2048x8 (constant S_ .f32 0x7F800000#32)))
    (constant S_ .f32 0x7F7FFFFF#32) (n2n1 a z)

/-- Third replacement: -∞ becomes the most negative finite float. The three together replace the non-finite values. -/
def nanToNum (a : Cf F S2048x8) (z : Cf F S_) : Cf F S2048x8 :=
  where0 (cmpf .oeq (n2n2 a z) (broadcastInDim S2048x8 ![] bcast_S_S2048x8 (constant S_ .f32 0xFF800000#32)))
    (constant S_ .f32 0xFF7FFFFF#32) (n2n2 a z)

/-! ## The program's values -/

/-- The mean of each row. -/
def mean (x : Cf F S2048x16384x8) : Cf F S2048x8 :=
  Host.divf (rowSum x) (broadcastInDim S2048x8 ![] bcast_S_S2048x8 (constant S_ .f32 0x46800000#32))

/-- The unbiased standard deviation of each row: correction 1. -/
def stdv (x : Cf F S2048x16384x8) : Cf F S2048x8 := std x (constantI S_ 32 1#32)

/-- The entries centred at their row mean. -/
def centred (x : Cf F S2048x16384x8) : Cf F S2048x16384x8 :=
  subf x (broadcastInDim S2048x16384x8 ![0, 1, 2] bcast_S2048x1x8_S2048x16384x8_0_1_2
    (broadcastInDim S2048x1x8 ![0, 2] bcast_S2048x8_S2048x1x8_0_2 (mean x)))

/-- The cubes of the centred entries, as the square times the entry. -/
def cube (x : Cf F S2048x16384x8) : Cf F S2048x16384x8 := mulf (mulf (centred x) (centred x)) (centred x)

/-- The mean of the centred cubes of each row. -/
def m3 (x : Cf F S2048x16384x8) : Cf F S2048x8 :=
  Host.divf (rowSum (cube x)) (broadcastInDim S2048x8 ![] bcast_S_S2048x8 (constant S_ .f32 0x46800000#32))

/-- The standard deviation plus the small positive constant. -/
def sde (x : Cf F S2048x16384x8) : Cf F S2048x8 :=
  addf (stdv x) (broadcastInDim S2048x8 ![] bcast_S_S2048x8 (constant S_ .f32 0x322BCC77#32))

/-- The skewness of each row: the mean centred cube over the cube of (standard deviation + constant). -/
def skew (x : Cf F S2048x16384x8) : Cf F S2048x8 :=
  Host.divf (m3 x) (mulf (mulf (sde x) (sde x)) (sde x))

/-- The maximum of each row, folded from -∞. -/
def mx (x : Cf F S2048x16384x8) : Cf F S2048x8 :=
  Host.reduce FloatOps.maximumf x (constant S_ .f32 0xFF800000#32) reducesTo_S2048x16384x8_S2048x8_d1 h_S_

/-- The one-bit answers "this entry is positive", widened to 32 bits. -/
def posI (x : Cf F S2048x16384x8) : Ci F S2048x16384x8 :=
  extui 32 (cmpf .ogt x (broadcastInDim S2048x16384x8 ![] bcast_S_S2048x16384x8 (constant S_ .f32 0x00000000#32))) natLt_1_32

/-- The number of positive entries of each row, summed as 32-bit integers from 0 and made a float. -/
def cnt (x : Cf F S2048x16384x8) : Cf F S2048x8 :=
  sitofp .f32 (Host.reduce IntOp.addi (posI x) (constantI S_ 32 0#32) reducesTo_S2048x16384x8_S2048x8_d1 h_S_)

/-- The standard deviation with non-finite values replaced (a NaN by 0). -/
def stdN (x : Cf F S2048x16384x8) : Cf F S2048x8 := nanToNum (stdv x) (constant S_ .f32 0x00000000#32)

/-- The skewness with non-finite values replaced (a NaN by 0). -/
def skewN (x : Cf F S2048x16384x8) : Cf F S2048x8 := nanToNum (skew x) (constant S_ .f32 0x00000000#32)

/-- A [2048, 8] statistic as a [2048, 8, 1] slab. -/
def slab (a : Cf F S2048x8) : Cf F S2048x8x1 := broadcastInDim S2048x8x1 ![0, 1] bcast_S2048x8_S2048x8x1_0_1 a

/-- The five statistics stacked along a new last axis: maximum, mean, count, standard deviation, skewness. -/
def cat (x : Cf F S2048x16384x8) : Cf F S2048x8x5 :=
  concatenate S2048x8x5 2 [⟨S2048x8x1, slab (mx x)⟩, ⟨S2048x8x1, slab (mean x)⟩, ⟨S2048x8x1, slab (cnt x)⟩,
    ⟨S2048x8x1, slab (stdN x)⟩, ⟨S2048x8x1, slab (skewN x)⟩]
    concatenates_S2048x8x1_S2048x8x1_S2048x8x1_S2048x8x1_S2048x8x1_S2048x8x5_d2

/-- The forty statistics of each sample, channel-major. -/
def feats (x : Cf F S2048x16384x8) : Cf F S2048x40 :=
  fun i => shapeCast S2048x40 (cat x) shapeCasts_S2048x8x5_S2048x40 i

/-- The weight row as a column. -/
def wT (W : Cf F S1x40) : Cf F S40x1 := transpose S40x1 [1, 0] W transposes_S1x40_S40x1_1_0

/-- The product of the statistics with the weight column. -/
def dot (x : Cf F S2048x16384x8) (W : Cf F S1x40) : Cf F S2048x1 :=
  Host.dotGeneral dot_S2048x40_S40x1_S2048x1_1_0_0_1_n_n none (feats x) (wT W)

/-- The bias broadcast over the samples. -/
def bias (b : Cf F S1) : Cf F S2048x1 :=
  broadcastInDim S2048x1 ![0, 1] bcast_S1x1_S2048x1_0_1 (broadcastInDim S1x1 ![1] bcast_S1_S1x1_1 b)

/-- The program's result. -/
def out (x : (⟨S2048x16384x8, .f32⟩ : BufTy).Contents (Elt F)) (W : (⟨S1x40, .f32⟩ : BufTy).Contents (Elt F))
    (b : (⟨S1, .f32⟩ : BufTy).Contents (Elt F)) : (⟨S2048x1, .f32⟩ : BufTy).Contents (Elt F) :=
  addf (dot x W) (bias b)

end Cert.ReferenceIdeal.RefTerm

end
-- ==== Proof.RefRun.lean ====
/-
  The reference program's run, read back as a fold.

  The reference is a host-only program: its entry function is a straight line of tensor operations, three of which are
  calls of outlined helper functions (the standard deviation, which calls the variance, which calls a select; and the
  replacement of non-finite values, twice, each calling a select three times). A call executes the callee's body on
  the operands, each value of the body in a buffer of its own, so the whole program is ONE straight line of one hundred
  operations: the entry function's own, with each callee's operations standing at its call site over that call's buffers.

  `ops` is that line. `main_eq` says the printed entry function is the line run in order; `run_main` that every
  weakly fair execution from a memory with zero counters terminates with each buffer holding what the fold of the
  operations over the launch contents gives it. The argument buffers are written by no operation, so the fold leaves
  them as they were (`arg0_eq`, `arg1_eq`, `arg2_eq`).

  The result buffer's contents are then compared with the program's result written as one pure function of the three
  argument arrays (`RefTerm.out`). The line is cut in two. After the first eighty-eight operations the five per-row
  statistics stand in their buffers: each is read off the fold and is, by unfolding, the statistic's definition
  (`mx_eq`, `mean_eq`, `cnt_eq`, `stdN_eq`, `skewN_eq`). The last twelve operations — the five statistics placed
  side by side, the reshape, the product with the transposed weights and the bias — are read from ANY contents of
  those five buffers and of the two small arguments (`tail_eq`). Putting the two readings together gives `out_eq`, and
  with `run_main` the statement `run` about every execution.
-/
import proofs.«158877_j46231027974422_2_alg».proof.ReferenceIdeal
import proofs.«158877_j46231027974422_2_alg».proof.Proof.Gen.ReferenceIdeal
import proofs.«158877_j46231027974422_2_alg».proof.Proof.LibHostPieces
import proofs.«158877_j46231027974422_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.HostPieces Idealize.ShloMosaic.TcCoe Idealize.SL.Sem Idealize.ShloMosaic.StableHlo

variable {F : FTy → Type} [FloatOps F]

/-- The entry function's one hundred operations, in order, the calls unfolded: six of its own (the row sums, their
    division by the row length: the mean; the integer one); the standard deviation's twenty-three (the variance's
    own nineteen — the mean again, the centred squares, their sum over the row length less one — then the select that
    keeps it where that divisor is positive, three, then the square root); the centred third moment over the cube of the
    deviation, sixteen; the row maximum, two; the count of positive entries, seven; then the replacement of non-finite
    values applied to the deviation and to the skewness, seventeen each with its leading zero (the test for a value
    unequal to itself and the select on it, then the same against plus and minus infinity); and the assembly: the five
    statistics side by side, reshaped to forty columns, times the transposed weights, plus the bias, twelve. -/
abbrev ops : List (HloOp τ sig (Elt F)) :=
  [
    StableHlo.nullary main_cst (constant S_ .f32 0x00000000#32),
    StableHlo.binary main_arg0 main_cst main_v0 ((fun x v => Host.reduceAdd x v reducesTo_S2048x16384x8_S2048x8_d1 h_S_) : (⟨S2048x16384x8, .f32⟩ : BufTy).Contents (Elt F) → (⟨S_, .f32⟩ : BufTy).Contents (Elt F) → (⟨S2048x8, .f32⟩ : BufTy).Contents (Elt F)),
    StableHlo.nullary main_cst_0 (constant S_ .f32 0x46800000#32),
    StableHlo.unary main_cst_0 main_v1 (broadcastInDim S2048x8 ![] bcast_S_S2048x8 : (⟨S_, .f32⟩ : BufTy).Contents (Elt F) → (⟨S2048x8, .f32⟩ : BufTy).Contents (Elt F)),
    StableHlo.binary main_v0 main_v1 main_v2 (Host.divf : (⟨S2048x8, .f32⟩ : BufTy).Contents (Elt F) → (⟨S2048x8, .f32⟩ : BufTy).Contents (Elt F) → (⟨S2048x8, .f32⟩ : BufTy).Contents (Elt F)),
    StableHlo.nullary main_c (constantI S_ 32 1#32),
    StableHlo.TRef.nullary main_call0.call0.cst (constant S_ .f32 0x00000000#32),
    StableHlo.TRef.binary (StableHlo.TRef.of main_arg0 : StableHlo.TRef sig ⟨S2048x16384x8, .f32⟩) main_call0.call0.cst main_call0.call0.v0 (fun x v => Host.reduceAdd x v reducesTo_S2048x16384x8_S2048x8_d1 h_S_),
    StableHlo.TRef.unary main_call0.call0.v0 main_call0.call0.v1 (broadcastInDim S2048x1x8 ![0, 2] bcast_S2048x8_S2048x1x8_0_2),
    StableHlo.TRef.nullary main_call0.call0.cst_0 (constant S_ .f32 0x46800000#32),
    StableHlo.TRef.unary main_call0.call0.cst_0 main_call0.call0.v2 (broadcastInDim S2048x1x8 ![] bcast_S_S2048x1x8),
    StableHlo.TRef.binary main_call0.call0.v1 main_call0.call0.v2 main_call0.call0.v3 Host.divf,
    StableHlo.TRef.unary main_call0.call0.v3 main_call0.call0.v4 (broadcastInDim S2048x16384x8 ![0, 1, 2] bcast_S2048x1x8_S2048x16384x8_0_1_2),
    StableHlo.TRef.binary (StableHlo.TRef.of main_arg0 : StableHlo.TRef sig ⟨S2048x16384x8, .f32⟩) main_call0.call0.v4 main_call0.call0.v5 subf,
    StableHlo.TRef.binary main_call0.call0.v5 main_call0.call0.v5 main_call0.call0.v6 mulf,
    StableHlo.TRef.unary (StableHlo.TRef.of main_c : StableHlo.TRef sig ⟨S_, .i32⟩) main_call0.call0.v7 (sitofp .f32),
    StableHlo.TRef.nullary main_call0.call0.cst_1 (constant S_ .f32 0x46800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S2048x16384x8_S2048x8_d1 h_S_),
    StableHlo.TRef.unary main_call0.call0.v8 main_call0.call0.v10 (broadcastInDim S2048x8 ![] bcast_S_S2048x8),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S2048x8 ![] bcast_S_S2048x8),
    StableHlo.TRef.ternary main_call0.call0.v12 main_call0.call0.v11 main_call0.call0.call0.v1 main_call0.call0.call0.v2 (fun p a b => select (broadcastInDim S2048x8 ![] bcast_S_S2048x8 p) a b),
    StableHlo.TRef.unary main_call0.call0.call0.v2 main_call0.v1 Host.sqrt,
    StableHlo.unary main_v2 main_v4 (broadcastInDim S2048x1x8 ![0, 2] bcast_S2048x8_S2048x1x8_0_2 : (⟨S2048x8, .f32⟩ : BufTy).Contents (Elt F) → (⟨S2048x1x8, .f32⟩ : BufTy).Contents (Elt F)),
    StableHlo.unary main_v4 main_v5 (broadcastInDim S2048x16384x8 ![0, 1, 2] bcast_S2048x1x8_S2048x16384x8_0_1_2 : (⟨S2048x1x8, .f32⟩ : BufTy).Contents (Elt F) → (⟨S2048x16384x8, .f32⟩ : BufTy).Contents (Elt F)),
    StableHlo.binary main_arg0 main_v5 main_v6 (subf : (⟨S2048x16384x8, .f32⟩ : BufTy).Contents (Elt F) → (⟨S2048x16384x8, .f32⟩ : BufTy).Contents (Elt F) → (⟨S2048x16384x8, .f32⟩ : BufTy).Contents (Elt F)),
    StableHlo.binary main_v6 main_v6 main_v7 (mulf : (⟨S2048x16384x8, .f32⟩ : BufTy).Contents (Elt F) → (⟨S2048x16384x8, .f32⟩ : BufTy).Contents (Elt F) → (⟨S2048x16384x8, .f32⟩ : BufTy).Contents (Elt F)),
    StableHlo.binary main_v7 main_v6 main_v8 (mulf : (⟨S2048x16384x8, .f32⟩ : BufTy).Contents (Elt F) → (⟨S2048x16384x8, .f32⟩ : BufTy).Contents (Elt F) → (⟨S2048x16384x8, .f32⟩ : BufTy).Contents (Elt F)),
    StableHlo.nullary main_cst_1 (constant S_ .f32 0x00000000#32),
    StableHlo.binary main_v8 main_cst_1 main_v9 ((fun x v => Host.reduceAdd x v reducesTo_S2048x16384x8_S2048x8_d1 h_S_) : (⟨S2048x16384x8, .f32⟩ : BufTy).Contents (Elt F) → (⟨S_, .f32⟩ : BufTy).Contents (Elt F) → (⟨S2048x8, .f32⟩ : BufTy).Contents (Elt F)),
    StableHlo.nullary main_cst_2 (constant S_ .f32 0x46800000#32),
    StableHlo.unary main_cst_2 main_v10 (broadcastInDim S2048x8 ![] bcast_S_S2048x8 : (⟨S_, .f32⟩ : BufTy).Contents (Elt F) → (⟨S2048x8, .f32⟩ : BufTy).Contents (Elt F)),
    StableHlo.binary main_v9 main_v10 main_v11 (Host.divf : (⟨S2048x8, .f32⟩ : BufTy).Contents (Elt F) → (⟨S2048x8, .f32⟩ : BufTy).Contents (Elt F) → (⟨S2048x8, .f32⟩ : BufTy).Contents (Elt F)),
    StableHlo.nullary main_cst_3 (constant S_ .f32 0x322BCC77#32),
    StableHlo.unary main_cst_3 main_v12 (broadcastInDim S2048x8 ![] bcast_S_S2048x8 : (⟨S_, .f32⟩ : BufTy).Contents (Elt F) → (⟨S2048x8, .f32⟩ : BufTy).Contents (Elt F)),
    StableHlo.binary main_v3 main_v12 main_v13 (addf : (⟨S2048x8, .f32⟩ : BufTy).Contents (Elt F) → (⟨S2048x8, .f32⟩ : BufTy).Contents (Elt F) → (⟨S2048x8, .f32⟩ : BufTy).Contents (Elt F)),
    StableHlo.binary main_v13 main_v13 main_v14 (mulf : (⟨S2048x8, .f32⟩ : BufTy).Contents (Elt F) → (⟨S2048x8, .f32⟩ : BufTy).Contents (Elt F) → (⟨S2048x8, .f32⟩ : BufTy).Contents (Elt F)),
    StableHlo.binary main_v14 main_v13 main_v15 (mulf : (⟨S2048x8, .f32⟩ : BufTy).Contents (Elt F) → (⟨S2048x8, .f32⟩ : BufTy).Contents (Elt F) → (⟨S2048x8, .f32⟩ : BufTy).Contents (Elt F)),
    StableHlo.binary main_v11 main_v15 main_v16 (Host.divf : (⟨S2048x8, .f32⟩ : BufTy).Contents (Elt F) → (⟨S2048x8, .f32⟩ : BufTy).Contents (Elt F) → (⟨S2048x8, .f32⟩ : BufTy).Contents (Elt F)),
    StableHlo.nullary main_cst_4 (constant S_ .f32 0xFF800000#32),
    StableHlo.binary main_arg0 main_cst_4 main_v17 ((fun x v => Host.reduce FloatOps.maximumf x v reducesTo_S2048x16384x8_S2048x8_d1 h_S_) : (⟨S2048x16384x8, .f32⟩ : BufTy).Contents (Elt F) → (⟨S_, .f32⟩ : BufTy).Contents (Elt F) → (⟨S2048x8, .f32⟩ : BufTy).Contents (Elt F)),
    StableHlo.nullary main_cst_5 (constant S_ .f32 0x00000000#32),
    StableHlo.unary main_cst_5 main_v18 (broadcastInDim S2048x16384x8 ![] bcast_S_S2048x16384x8 : (⟨S_, .f32⟩ : BufTy).Contents (Elt F) → (⟨S2048x16384x8, .f32⟩ : BufTy).Contents (Elt F)),
    StableHlo.binary main_arg0 main_v18 main_v19 (cmpf .ogt : (⟨S2048x16384x8, .f32⟩ : BufTy).Contents (Elt F) → (⟨S2048x16384x8, .f32⟩ : BufTy).Contents (Elt F) → (⟨S2048x16384x8, .i1⟩ : BufTy).Contents (Elt F)),
    StableHlo.unary main_v19 main_v20 ((extui 32 · natLt_1_32) : (⟨S2048x16384x8, .i1⟩ : BufTy).Contents (Elt F) → (⟨S2048x16384x8, .i32⟩ : BufTy).Contents (Elt F)),
    StableHlo.nullary main_c_6 (constantI S_ 32 0#32),
    StableHlo.binary main_v20 main_c_6 main_v21 ((fun x v => Host.reduce IntOp.addi x v reducesTo_S2048x16384x8_S2048x8_d1 h_S_) : (⟨S2048x16384x8, .i32⟩ : BufTy).Contents (Elt F) → (⟨S_, .i32⟩ : BufTy).Contents (Elt F) → (⟨S2048x8, .i32⟩ : BufTy).Contents (Elt F)),
    StableHlo.unary main_v21 main_v22 (sitofp .f32 : (⟨S2048x8, .i32⟩ : BufTy).Contents (Elt F) → (⟨S2048x8, .f32⟩ : BufTy).Contents (Elt F)),
    StableHlo.nullary main_cst_7 (constant S_ .f32 0x00000000#32),
    StableHlo.TRef.binary (StableHlo.TRef.of main_v3 : StableHlo.TRef sig ⟨S2048x8, .f32⟩) (StableHlo.TRef.of main_v3 : StableHlo.TRef sig ⟨S2048x8, .f32⟩) main_call1.v0 (cmpf .une),
    StableHlo.TRef.unary (StableHlo.TRef.of main_cst_7 : StableHlo.TRef sig ⟨S_, .f32⟩) main_call1.v1 id,
    StableHlo.TRef.unary main_call1.v1 main_call1.call0.v0 (broadcastInDim S2048x8 ![] bcast_S_S2048x8),
    StableHlo.TRef.ternary main_call1.v0 main_call1.call0.v0 (StableHlo.TRef.of main_v3 : StableHlo.TRef sig ⟨S2048x8, .f32⟩) main_call1.call0.v1 select,
    StableHlo.TRef.nullary main_call1.cst (constant S_ .f32 0x7F800000#32),
    StableHlo.TRef.unary main_call1.cst main_call1.v3 (broadcastInDim S2048x8 ![] bcast_S_S2048x8),
    StableHlo.TRef.binary main_call1.call0.v1 main_call1.v3 main_call1.v4 (cmpf .oeq),
    StableHlo.TRef.nullary main_call1.cst_0 (constant S_ .f32 0x7F7FFFFF#32),
    StableHlo.TRef.unary main_call1.cst_0 main_call1.call1.v0 (broadcastInDim S2048x8 ![] bcast_S_S2048x8),
    StableHlo.TRef.ternary main_call1.v4 main_call1.call1.v0 main_call1.call0.v1 main_call1.call1.v1 select,
    StableHlo.TRef.nullary main_call1.cst_1 (constant S_ .f32 0xFF800000#32),
    StableHlo.TRef.unary main_call1.cst_1 main_call1.v6 (broadcastInDim S2048x8 ![] bcast_S_S2048x8),
    StableHlo.TRef.binary main_call1.call1.v1 main_call1.v6 main_call1.v7 (cmpf .oeq),
    StableHlo.TRef.nullary main_call1.cst_2 (constant S_ .f32 0xFF7FFFFF#32),
    StableHlo.TRef.unary main_call1.cst_2 main_call1.call2.v0 (broadcastInDim S2048x8 ![] bcast_S_S2048x8),
    StableHlo.TRef.ternary main_call1.v7 main_call1.call2.v0 main_call1.call1.v1 main_call1.call2.v1 select,
    StableHlo.nullary main_cst_8 (constant S_ .f32 0x00000000#32),
    StableHlo.TRef.binary (StableHlo.TRef.of main_v16 : StableHlo.TRef sig ⟨S2048x8, .f32⟩) (StableHlo.TRef.of main_v16 : StableHlo.TRef sig ⟨S2048x8, .f32⟩) main_call2.v0 (cmpf .une),
    StableHlo.TRef.unary (StableHlo.TRef.of main_cst_8 : StableHlo.TRef sig ⟨S_, .f32⟩) main_call2.v1 id,
    StableHlo.TRef.unary main_call2.v1 main_call2.call0.v0 (broadcastInDim S2048x8 ![] bcast_S_S2048x8),
    StableHlo.TRef.ternary main_call2.v0 main_call2.call0.v0 (StableHlo.TRef.of main_v16 : StableHlo.TRef sig ⟨S2048x8, .f32⟩) main_call2.call0.v1 select,
    StableHlo.TRef.nullary main_call2.cst (constant S_ .f32 0x7F800000#32),
    StableHlo.TRef.unary main_call2.cst main_call2.v3 (broadcastInDim S2048x8 ![] bcast_S_S2048x8),
    StableHlo.TRef.binary main_call2.call0.v1 main_call2.v3 main_call2.v4 (cmpf .oeq),
    StableHlo.TRef.nullary main_call2.cst_0 (constant S_ .f32 0x7F7FFFFF#32),
    StableHlo.TRef.unary main_call2.cst_0 main_call2.call1.v0 (broadcastInDim S2048x8 ![] bcast_S_S2048x8),
    StableHlo.TRef.ternary main_call2.v4 main_call2.call1.v0 main_call2.call0.v1 main_call2.call1.v1 select,
    StableHlo.TRef.nullary main_call2.cst_1 (constant S_ .f32 0xFF800000#32),
    StableHlo.TRef.unary main_call2.cst_1 main_call2.v6 (broadcastInDim S2048x8 ![] bcast_S_S2048x8),
    StableHlo.TRef.binary main_call2.call1.v1 main_call2.v6 main_call2.v7 (cmpf .oeq),
    StableHlo.TRef.nullary main_call2.cst_2 (constant S_ .f32 0xFF7FFFFF#32),
    StableHlo.TRef.unary main_call2.cst_2 main_call2.call2.v0 (broadcastInDim S2048x8 ![] bcast_S_S2048x8),
    StableHlo.TRef.ternary main_call2.v7 main_call2.call2.v0 main_call2.call1.v1 main_call2.call2.v1 select,
    StableHlo.unary main_v17 main_v25 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v2 main_v26 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v22 main_v27 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v23 main_v28 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v24 main_v29 (broadcastInDim S2048x8x1 ![0, 1] bcast_S2048x8_S2048x8x1_0_1 : (⟨S2048x8, .f32⟩ : BufTy).Contents (Elt F) → (⟨S2048x8x1, .f32⟩ : BufTy).Contents (Elt F)),
    StableHlo.nary ![main_v25, main_v26, main_v27, main_v28, main_v29] main_v30 (fun u => concatenate S2048x8x5 2 [⟨S2048x8x1, u 0⟩, ⟨S2048x8x1, u 1⟩, ⟨S2048x8x1, u 2⟩, ⟨S2048x8x1, u 3⟩, ⟨S2048x8x1, u 4⟩] concatenates_S2048x8x1_S2048x8x1_S2048x8x1_S2048x8x1_S2048x8x1_S2048x8x5_d2),
    StableHlo.reshape main_v30 main_v31 rfl shapeCasts_S2048x8x5_S2048x40,
    StableHlo.unary main_arg1 main_v32 ((transpose S40x1 [1, 0] · transposes_S1x40_S40x1_1_0) : (⟨S1x40, .f32⟩ : BufTy).Contents (Elt F) → (⟨S40x1, .f32⟩ : BufTy).Contents (Elt F)),
    StableHlo.binary main_v31 main_v32 main_v33 ((fun l r => Host.dotGeneral dot_S2048x40_S40x1_S2048x1_1_0_0_1_n_n none l r) : (⟨S2048x40, .f32⟩ : BufTy).Contents (Elt F) → (⟨S40x1, .f32⟩ : BufTy).Contents (Elt F) → (⟨S2048x1, .f32⟩ : BufTy).Contents (Elt F)),
    StableHlo.unary main_arg2 main_v34 (broadcastInDim S1x1 ![1] bcast_S1_S1x1_1 : (⟨S1, .f32⟩ : BufTy).Contents (Elt F) → (⟨S1x1, .f32⟩ : BufTy).Contents (Elt F)),
    StableHlo.unary main_v34 main_v35 (broadcastInDim S2048x1 ![0, 1] bcast_S1x1_S2048x1_0_1 : (⟨S1x1, .f32⟩ : BufTy).Contents (Elt F) → (⟨S2048x1, .f32⟩ : BufTy).Contents (Elt F)),
    StableHlo.binary main_v33 main_v35 main_v36 (addf : (⟨S2048x1, .f32⟩ : BufTy).Contents (Elt F) → (⟨S2048x1, .f32⟩ : BufTy).Contents (Elt F) → (⟨S2048x1, .f32⟩ : BufTy).Contents (Elt F)) ]

-- the two sides are compared statement by statement, one level of recursion for each of the hundred
set_option maxRecDepth 8192 in
/-- The entry function is that straight line: with each helper's definition unfolded at its call and the call's record
    at its fields, and sequencing re-associated, both sides are the same chain of operation steps, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches tensor buffers of the core only. -/
theorem ops_sub : (ops : List (HloOp τ sig (Elt F))).Forall fun op => op.bufs ⊆ tcRefs τ sig :=
  ⟨
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    unary_bufs_sub .., binary_bufs_sub .., binary_bufs_sub .., binary_bufs_sub .., nullary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., binary_bufs_sub .., nullary_bufs_sub ..,
    unary_bufs_sub .., binary_bufs_sub .., unary_bufs_sub .., nullary_bufs_sub .., binary_bufs_sub .., unary_bufs_sub ..,
    nullary_bufs_sub .., binary_bufs_sub .., unary_bufs_sub .., unary_bufs_sub .., ternary_bufs_sub .., nullary_bufs_sub ..,
    unary_bufs_sub .., binary_bufs_sub .., nullary_bufs_sub .., unary_bufs_sub .., ternary_bufs_sub .., nullary_bufs_sub ..,
    unary_bufs_sub .., binary_bufs_sub .., nullary_bufs_sub .., unary_bufs_sub .., ternary_bufs_sub .., nullary_bufs_sub ..,
    binary_bufs_sub .., unary_bufs_sub .., unary_bufs_sub .., ternary_bufs_sub .., nullary_bufs_sub .., unary_bufs_sub ..,
    binary_bufs_sub .., nullary_bufs_sub .., unary_bufs_sub .., ternary_bufs_sub .., nullary_bufs_sub .., unary_bufs_sub ..,
    binary_bufs_sub .., nullary_bufs_sub .., unary_bufs_sub .., ternary_bufs_sub .., unary_bufs_sub .., unary_bufs_sub ..,
    unary_bufs_sub .., unary_bufs_sub .., unary_bufs_sub .., nary_bufs_sub .., reshape_bufs_sub .., unary_bufs_sub ..,
    binary_bufs_sub .., unary_bufs_sub .., unary_bufs_sub .., binary_bufs_sub .. ⟩

/-- At the compiled mesh, for any float values, from any memory with zero counters: every weakly fair execution of the
    entry function on the cores terminates, and every final state has each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes the first argument's buffer: the fold leaves it as it was. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- No operation writes the third argument's buffer. -/
theorem arg2_eq (V : Valuation τ sig (Elt F)) :
    after ops V (main_arg2 : DevRef τ sig) = V (main_arg2 : DevRef τ sig) := by
  after_results_simp

/-! ## The result buffer, read in two stretches -/

/-- The first eighty-eight operations: everything up to and including the second replacement of non-finite values. -/
abbrev opsH : List (HloOp τ sig (Elt F)) :=
  [
    StableHlo.nullary main_cst (constant S_ .f32 0x00000000#32),
    StableHlo.binary main_arg0 main_cst main_v0 ((fun x v => Host.reduceAdd x v reducesTo_S2048x16384x8_S2048x8_d1 h_S_) : (⟨S2048x16384x8, .f32⟩ : BufTy).Contents (Elt F) → (⟨S_, .f32⟩ : BufTy).Contents (Elt F) → (⟨S2048x8, .f32⟩ : BufTy).Contents (Elt F)),
    StableHlo.nullary main_cst_0 (constant S_ .f32 0x46800000#32),
    StableHlo.unary main_cst_0 main_v1 (broadcastInDim S2048x8 ![] bcast_S_S2048x8 : (⟨S_, .f32⟩ : BufTy).Contents (Elt F) → (⟨S2048x8, .f32⟩ : BufTy).Contents (Elt F)),
    StableHlo.binary main_v0 main_v1 main_v2 (Host.divf : (⟨S2048x8, .f32⟩ : BufTy).Contents (Elt F) → (⟨S2048x8, .f32⟩ : BufTy).Contents (Elt F) → (⟨S2048x8, .f32⟩ : BufTy).Contents (Elt F)),
    StableHlo.nullary main_c (constantI S_ 32 1#32),
    StableHlo.TRef.nullary main_call0.call0.cst (constant S_ .f32 0x00000000#32),
    StableHlo.TRef.binary (StableHlo.TRef.of main_arg0 : StableHlo.TRef sig ⟨S2048x16384x8, .f32⟩) main_call0.call0.cst main_call0.call0.v0 (fun x v => Host.reduceAdd x v reducesTo_S2048x16384x8_S2048x8_d1 h_S_),
    StableHlo.TRef.unary main_call0.call0.v0 main_call0.call0.v1 (broadcastInDim S2048x1x8 ![0, 2] bcast_S2048x8_S2048x1x8_0_2),
    StableHlo.TRef.nullary main_call0.call0.cst_0 (constant S_ .f32 0x46800000#32),
    StableHlo.TRef.unary main_call0.call0.cst_0 main_call0.call0.v2 (broadcastInDim S2048x1x8 ![] bcast_S_S2048x1x8),
    StableHlo.TRef.binary main_call0.call0.v1 main_call0.call0.v2 main_call0.call0.v3 Host.divf,
    StableHlo.TRef.unary main_call0.call0.v3 main_call0.call0.v4 (broadcastInDim S2048x16384x8 ![0, 1, 2] bcast_S2048x1x8_S2048x16384x8_0_1_2),
    StableHlo.TRef.binary (StableHlo.TRef.of main_arg0 : StableHlo.TRef sig ⟨S2048x16384x8, .f32⟩) main_call0.call0.v4 main_call0.call0.v5 subf,
    StableHlo.TRef.binary main_call0.call0.v5 main_call0.call0.v5 main_call0.call0.v6 mulf,
    StableHlo.TRef.unary (StableHlo.TRef.of main_c : StableHlo.TRef sig ⟨S_, .i32⟩) main_call0.call0.v7 (sitofp .f32),
    StableHlo.TRef.nullary main_call0.call0.cst_1 (constant S_ .f32 0x46800000#32),
    StableHlo.TRef.binary main_call0.call0.cst_1 main_call0.call0.v7 main_call0.call0.v8 subf,
    StableHlo.TRef.nullary main_call0.call0.cst_2 (constant S_ .f32 0x00000000#32),
    StableHlo.TRef.binary main_call0.call0.v6 main_call0.call0.cst_2 main_call0.call0.v9 (fun x v => Host.reduceAdd x v reducesTo_S2048x16384x8_S2048x8_d1 h_S_),
    StableHlo.TRef.unary main_call0.call0.v8 main_call0.call0.v10 (broadcastInDim S2048x8 ![] bcast_S_S2048x8),
    StableHlo.TRef.binary main_call0.call0.v9 main_call0.call0.v10 main_call0.call0.v11 Host.divf,
    StableHlo.TRef.nullary main_call0.call0.cst_3 (constant S_ .f32 0x00000000#32),
    StableHlo.TRef.binary main_call0.call0.v8 main_call0.call0.cst_3 main_call0.call0.v12 (cmpf .ogt),
    StableHlo.TRef.nullary main_call0.call0.cst_4 (constant S_ .f32 0x7FC00000#32),
    StableHlo.TRef.unary main_call0.call0.cst_4 main_call0.call0.call0.v0 id,
    StableHlo.TRef.unary main_call0.call0.call0.v0 main_call0.call0.call0.v1 (broadcastInDim S2048x8 ![] bcast_S_S2048x8),
    StableHlo.TRef.ternary main_call0.call0.v12 main_call0.call0.v11 main_call0.call0.call0.v1 main_call0.call0.call0.v2 (fun p a b => select (broadcastInDim S2048x8 ![] bcast_S_S2048x8 p) a b),
    StableHlo.TRef.unary main_call0.call0.call0.v2 main_call0.v1 Host.sqrt,
    StableHlo.unary main_v2 main_v4 (broadcastInDim S2048x1x8 ![0, 2] bcast_S2048x8_S2048x1x8_0_2 : (⟨S2048x8, .f32⟩ : BufTy).Contents (Elt F) → (⟨S2048x1x8, .f32⟩ : BufTy).Contents (Elt F)),
    StableHlo.unary main_v4 main_v5 (broadcastInDim S2048x16384x8 ![0, 1, 2] bcast_S2048x1x8_S2048x16384x8_0_1_2 : (⟨S2048x1x8, .f32⟩ : BufTy).Contents (Elt F) → (⟨S2048x16384x8, .f32⟩ : BufTy).Contents (Elt F)),
    StableHlo.binary main_arg0 main_v5 main_v6 (subf : (⟨S2048x16384x8, .f32⟩ : BufTy).Contents (Elt F) → (⟨S2048x16384x8, .f32⟩ : BufTy).Contents (Elt F) → (⟨S2048x16384x8, .f32⟩ : BufTy).Contents (Elt F)),
    StableHlo.binary main_v6 main_v6 main_v7 (mulf : (⟨S2048x16384x8, .f32⟩ : BufTy).Contents (Elt F) → (⟨S2048x16384x8, .f32⟩ : BufTy).Contents (Elt F) → (⟨S2048x16384x8, .f32⟩ : BufTy).Contents (Elt F)),
    StableHlo.binary main_v7 main_v6 main_v8 (mulf : (⟨S2048x16384x8, .f32⟩ : BufTy).Contents (Elt F) → (⟨S2048x16384x8, .f32⟩ : BufTy).Contents (Elt F) → (⟨S2048x16384x8, .f32⟩ : BufTy).Contents (Elt F)),
    StableHlo.nullary main_cst_1 (constant S_ .f32 0x00000000#32),
    StableHlo.binary main_v8 main_cst_1 main_v9 ((fun x v => Host.reduceAdd x v reducesTo_S2048x16384x8_S2048x8_d1 h_S_) : (⟨S2048x16384x8, .f32⟩ : BufTy).Contents (Elt F) → (⟨S_, .f32⟩ : BufTy).Contents (Elt F) → (⟨S2048x8, .f32⟩ : BufTy).Contents (Elt F)),
    StableHlo.nullary main_cst_2 (constant S_ .f32 0x46800000#32),
    StableHlo.unary main_cst_2 main_v10 (broadcastInDim S2048x8 ![] bcast_S_S2048x8 : (⟨S_, .f32⟩ : BufTy).Contents (Elt F) → (⟨S2048x8, .f32⟩ : BufTy).Contents (Elt F)),
    StableHlo.binary main_v9 main_v10 main_v11 (Host.divf : (⟨S2048x8, .f32⟩ : BufTy).Contents (Elt F) → (⟨S2048x8, .f32⟩ : BufTy).Contents (Elt F) → (⟨S2048x8, .f32⟩ : BufTy).Contents (Elt F)),
    StableHlo.nullary main_cst_3 (constant S_ .f32 0x322BCC77#32),
    StableHlo.unary main_cst_3 main_v12 (broadcastInDim S2048x8 ![] bcast_S_S2048x8 : (⟨S_, .f32⟩ : BufTy).Contents (Elt F) → (⟨S2048x8, .f32⟩ : BufTy).Contents (Elt F)),
    StableHlo.binary main_v3 main_v12 main_v13 (addf : (⟨S2048x8, .f32⟩ : BufTy).Contents (Elt F) → (⟨S2048x8, .f32⟩ : BufTy).Contents (Elt F) → (⟨S2048x8, .f32⟩ : BufTy).Contents (Elt F)),
    StableHlo.binary main_v13 main_v13 main_v14 (mulf : (⟨S2048x8, .f32⟩ : BufTy).Contents (Elt F) → (⟨S2048x8, .f32⟩ : BufTy).Contents (Elt F) → (⟨S2048x8, .f32⟩ : BufTy).Contents (Elt F)),
    StableHlo.binary main_v14 main_v13 main_v15 (mulf : (⟨S2048x8, .f32⟩ : BufTy).Contents (Elt F) → (⟨S2048x8, .f32⟩ : BufTy).Contents (Elt F) → (⟨S2048x8, .f32⟩ : BufTy).Contents (Elt F)),
    StableHlo.binary main_v11 main_v15 main_v16 (Host.divf : (⟨S2048x8, .f32⟩ : BufTy).Contents (Elt F) → (⟨S2048x8, .f32⟩ : BufTy).Contents (Elt F) → (⟨S2048x8, .f32⟩ : BufTy).Contents (Elt F)),
    StableHlo.nullary main_cst_4 (constant S_ .f32 0xFF800000#32),
    StableHlo.binary main_arg0 main_cst_4 main_v17 ((fun x v => Host.reduce FloatOps.maximumf x v reducesTo_S2048x16384x8_S2048x8_d1 h_S_) : (⟨S2048x16384x8, .f32⟩ : BufTy).Contents (Elt F) → (⟨S_, .f32⟩ : BufTy).Contents (Elt F) → (⟨S2048x8, .f32⟩ : BufTy).Contents (Elt F)),
    StableHlo.nullary main_cst_5 (constant S_ .f32 0x00000000#32),
    StableHlo.unary main_cst_5 main_v18 (broadcastInDim S2048x16384x8 ![] bcast_S_S2048x16384x8 : (⟨S_, .f32⟩ : BufTy).Contents (Elt F) → (⟨S2048x16384x8, .f32⟩ : BufTy).Contents (Elt F)),
    StableHlo.binary main_arg0 main_v18 main_v19 (cmpf .ogt : (⟨S2048x16384x8, .f32⟩ : BufTy).Contents (Elt F) → (⟨S2048x16384x8, .f32⟩ : BufTy).Contents (Elt F) → (⟨S2048x16384x8, .i1⟩ : BufTy).Contents (Elt F)),
    StableHlo.unary main_v19 main_v20 ((extui 32 · natLt_1_32) : (⟨S2048x16384x8, .i1⟩ : BufTy).Contents (Elt F) → (⟨S2048x16384x8, .i32⟩ : BufTy).Contents (Elt F)),
    StableHlo.nullary main_c_6 (constantI S_ 32 0#32),
    StableHlo.binary main_v20 main_c_6 main_v21 ((fun x v => Host.reduce IntOp.addi x v reducesTo_S2048x16384x8_S2048x8_d1 h_S_) : (⟨S2048x16384x8, .i32⟩ : BufTy).Contents (Elt F) → (⟨S_, .i32⟩ : BufTy).Contents (Elt F) → (⟨S2048x8, .i32⟩ : BufTy).Contents (Elt F)),
    StableHlo.unary main_v21 main_v22 (sitofp .f32 : (⟨S2048x8, .i32⟩ : BufTy).Contents (Elt F) → (⟨S2048x8, .f32⟩ : BufTy).Contents (Elt F)),
    StableHlo.nullary main_cst_7 (constant S_ .f32 0x00000000#32),
    StableHlo.TRef.binary (StableHlo.TRef.of main_v3 : StableHlo.TRef sig ⟨S2048x8, .f32⟩) (StableHlo.TRef.of main_v3 : StableHlo.TRef sig ⟨S2048x8, .f32⟩) main_call1.v0 (cmpf .une),
    StableHlo.TRef.unary (StableHlo.TRef.of main_cst_7 : StableHlo.TRef sig ⟨S_, .f32⟩) main_call1.v1 id,
    StableHlo.TRef.unary main_call1.v1 main_call1.call0.v0 (broadcastInDim S2048x8 ![] bcast_S_S2048x8),
    StableHlo.TRef.ternary main_call1.v0 main_call1.call0.v0 (StableHlo.TRef.of main_v3 : StableHlo.TRef sig ⟨S2048x8, .f32⟩) main_call1.call0.v1 select,
    StableHlo.TRef.nullary main_call1.cst (constant S_ .f32 0x7F800000#32),
    StableHlo.TRef.unary main_call1.cst main_call1.v3 (broadcastInDim S2048x8 ![] bcast_S_S2048x8),
    StableHlo.TRef.binary main_call1.call0.v1 main_call1.v3 main_call1.v4 (cmpf .oeq),
    StableHlo.TRef.nullary main_call1.cst_0 (constant S_ .f32 0x7F7FFFFF#32),
    StableHlo.TRef.unary main_call1.cst_0 main_call1.call1.v0 (broadcastInDim S2048x8 ![] bcast_S_S2048x8),
    StableHlo.TRef.ternary main_call1.v4 main_call1.call1.v0 main_call1.call0.v1 main_call1.call1.v1 select,
    StableHlo.TRef.nullary main_call1.cst_1 (constant S_ .f32 0xFF800000#32),
    StableHlo.TRef.unary main_call1.cst_1 main_call1.v6 (broadcastInDim S2048x8 ![] bcast_S_S2048x8),
    StableHlo.TRef.binary main_call1.call1.v1 main_call1.v6 main_call1.v7 (cmpf .oeq),
    StableHlo.TRef.nullary main_call1.cst_2 (constant S_ .f32 0xFF7FFFFF#32),
    StableHlo.TRef.unary main_call1.cst_2 main_call1.call2.v0 (broadcastInDim S2048x8 ![] bcast_S_S2048x8),
    StableHlo.TRef.ternary main_call1.v7 main_call1.call2.v0 main_call1.call1.v1 main_call1.call2.v1 select,
    StableHlo.nullary main_cst_8 (constant S_ .f32 0x00000000#32),
    StableHlo.TRef.binary (StableHlo.TRef.of main_v16 : StableHlo.TRef sig ⟨S2048x8, .f32⟩) (StableHlo.TRef.of main_v16 : StableHlo.TRef sig ⟨S2048x8, .f32⟩) main_call2.v0 (cmpf .une),
    StableHlo.TRef.unary (StableHlo.TRef.of main_cst_8 : StableHlo.TRef sig ⟨S_, .f32⟩) main_call2.v1 id,
    StableHlo.TRef.unary main_call2.v1 main_call2.call0.v0 (broadcastInDim S2048x8 ![] bcast_S_S2048x8),
    StableHlo.TRef.ternary main_call2.v0 main_call2.call0.v0 (StableHlo.TRef.of main_v16 : StableHlo.TRef sig ⟨S2048x8, .f32⟩) main_call2.call0.v1 select,
    StableHlo.TRef.nullary main_call2.cst (constant S_ .f32 0x7F800000#32),
    StableHlo.TRef.unary main_call2.cst main_call2.v3 (broadcastInDim S2048x8 ![] bcast_S_S2048x8),
    StableHlo.TRef.binary main_call2.call0.v1 main_call2.v3 main_call2.v4 (cmpf .oeq),
    StableHlo.TRef.nullary main_call2.cst_0 (constant S_ .f32 0x7F7FFFFF#32),
    StableHlo.TRef.unary main_call2.cst_0 main_call2.call1.v0 (broadcastInDim S2048x8 ![] bcast_S_S2048x8),
    StableHlo.TRef.ternary main_call2.v4 main_call2.call1.v0 main_call2.call0.v1 main_call2.call1.v1 select,
    StableHlo.TRef.nullary main_call2.cst_1 (constant S_ .f32 0xFF800000#32),
    StableHlo.TRef.unary main_call2.cst_1 main_call2.v6 (broadcastInDim S2048x8 ![] bcast_S_S2048x8),
    StableHlo.TRef.binary main_call2.call1.v1 main_call2.v6 main_call2.v7 (cmpf .oeq),
    StableHlo.TRef.nullary main_call2.cst_2 (constant S_ .f32 0xFF7FFFFF#32),
    StableHlo.TRef.unary main_call2.cst_2 main_call2.call2.v0 (broadcastInDim S2048x8 ![] bcast_S_S2048x8),
    StableHlo.TRef.ternary main_call2.v7 main_call2.call2.v0 main_call2.call1.v1 main_call2.call2.v1 select ]

/-- The last twelve operations: the five statistics as slabs, their concatenation, the reshape, the transposed
    weights, the product, the bias broadcast twice, the sum. -/
abbrev opsT : List (HloOp τ sig (Elt F)) :=
  [
    StableHlo.unary main_v17 main_v25 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v2 main_v26 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v22 main_v27 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v23 main_v28 (broadcastInDim S2048x8x1 ![0, 1] bcast_S2048x8_S2048x8x1_0_1 : (⟨S2048x8, .f32⟩ : BufTy).Contents (Elt F) → (⟨S2048x8x1, .f32⟩ : BufTy).Contents (Elt F)),
    StableHlo.unary main_v24 main_v29 (broadcastInDim S2048x8x1 ![0, 1] bcast_S2048x8_S2048x8x1_0_1 : (⟨S2048x8, .f32⟩ : BufTy).Contents (Elt F) → (⟨S2048x8x1, .f32⟩ : BufTy).Contents (Elt F)),
    StableHlo.nary ![main_v25, main_v26, main_v27, main_v28, main_v29] main_v30 (fun u => concatenate S2048x8x5 2 [⟨S2048x8x1, u 0⟩, ⟨S2048x8x1, u 1⟩, ⟨S2048x8x1, u 2⟩, ⟨S2048x8x1, u 3⟩, ⟨S2048x8x1, u 4⟩] concatenates_S2048x8x1_S2048x8x1_S2048x8x1_S2048x8x1_S2048x8x1_S2048x8x5_d2),
    StableHlo.reshape main_v30 main_v31 rfl shapeCasts_S2048x8x5_S2048x40,
    StableHlo.unary main_arg1 main_v32 ((transpose S40x1 [1, 0] · transposes_S1x40_S40x1_1_0) : (⟨S1x40, .f32⟩ : BufTy).Contents (Elt F) → (⟨S40x1, .f32⟩ : BufTy).Contents (Elt F)),
    StableHlo.binary main_v31 main_v32 main_v33 ((fun l r => Host.dotGeneral dot_S2048x40_S40x1_S2048x1_1_0_0_1_n_n none l r) : (⟨S2048x40, .f32⟩ : BufTy).Contents (Elt F) → (⟨S40x1, .f32⟩ : BufTy).Contents (Elt F) → (⟨S2048x1, .f32⟩ : BufTy).Contents (Elt F)),
    StableHlo.unary main_arg2 main_v34 (broadcastInDim S1x1 ![1] bcast_S1_S1x1_1 : (⟨S1, .f32⟩ : BufTy).Contents (Elt F) → (⟨S1x1, .f32⟩ : BufTy).Contents (Elt F)),
    StableHlo.unary main_v34 main_v35 (broadcastInDim S2048x1 ![0, 1] bcast_S1x1_S2048x1_0_1 : (⟨S1x1, .f32⟩ : BufTy).Contents (Elt F) → (⟨S2048x1, .f32⟩ : BufTy).Contents (Elt F)),
    StableHlo.binary main_v33 main_v35 main_v36 (addf : (⟨S2048x1, .f32⟩ : BufTy).Contents (Elt F) → (⟨S2048x1, .f32⟩ : BufTy).Contents (Elt F) → (⟨S2048x1, .f32⟩ : BufTy).Contents (Elt F)) ]

/-- The line is its first eighty-eight operations followed by its last twelve. -/
theorem ops_split : (ops : List (HloOp τ sig (Elt F))) = opsH ++ opsT := rfl

section Head

variable (V : Valuation τ sig (Elt F))

/-- After the first stretch the row maxima stand in their buffer. -/
theorem mx_eq : after opsH V (main_v17 : DevRef τ sig) = RefTerm.mx (V (main_arg0 : DevRef τ sig)) := by
  after_results_simp
  rfl

/-- After the first stretch the row means stand in their buffer. -/
theorem mean_eq : after opsH V (main_v2 : DevRef τ sig) = RefTerm.mean (V (main_arg0 : DevRef τ sig)) := by
  after_results_simp
  rfl

/-- After the first stretch the counts of positive entries stand in their buffer. -/
theorem cnt_eq : after opsH V (main_v22 : DevRef τ sig) = RefTerm.cnt (V (main_arg0 : DevRef τ sig)) := by
  after_results_simp
  rfl

-- the deviation's term is deep: the variance's centred squares under the guard, under three selects
set_option maxRecDepth 16384 in
set_option maxHeartbeats 2000000 in
/-- After the first stretch the standard deviations, non-finite values replaced, stand in their buffer. -/
theorem stdN_eq : after opsH V (main_v23 : DevRef τ sig) = RefTerm.stdN (V (main_arg0 : DevRef τ sig)) := by
  after_results_simp
  rfl

-- the skewness reads the deviation three times and the centred cubes once, under three selects
set_option maxRecDepth 16384 in
set_option maxHeartbeats 2000000 in
/-- After the first stretch the skewnesses, non-finite values replaced, stand in their buffer. -/
theorem skewN_eq : after opsH V (main_v24 : DevRef τ sig) = RefTerm.skewN (V (main_arg0 : DevRef τ sig)) := by
  after_results_simp
  rfl

/-- The first stretch writes neither of the two small arguments. -/
theorem headArg1_eq : after opsH V (main_arg1 : DevRef τ sig) = V (main_arg1 : DevRef τ sig) := by
  after_results_simp

theorem headArg2_eq : after opsH V (main_arg2 : DevRef τ sig) = V (main_arg2 : DevRef τ sig) := by
  after_results_simp

end Head

/-- The last stretch from ANY contents: the result buffer ends at the five statistics' buffers made slabs, set side by
    side and flattened to forty columns, times the transposed weights, plus the broadcast bias. -/
theorem tail_eq (W : Valuation τ sig (Elt F)) :
    after opsT W (main_v36 : DevRef τ sig)
      = addf
          (Host.dotGeneral dot_S2048x40_S40x1_S2048x1_1_0_0_1_n_n none
            (fun i => shapeCast S2048x40
              (concatenate S2048x8x5 2
                [⟨S2048x8x1, RefTerm.slab (W (main_v17 : DevRef τ sig))⟩, ⟨S2048x8x1, RefTerm.slab (W (main_v2 : DevRef τ sig))⟩,
                  ⟨S2048x8x1, RefTerm.slab (W (main_v22 : DevRef τ sig))⟩, ⟨S2048x8x1, RefTerm.slab (W (main_v23 : DevRef τ sig))⟩,
                  ⟨S2048x8x1, RefTerm.slab (W (main_v24 : DevRef τ sig))⟩]
                concatenates_S2048x8x1_S2048x8x1_S2048x8x1_S2048x8x1_S2048x8x1_S2048x8x5_d2)
              shapeCasts_S2048x8x5_S2048x40 i)
            (RefTerm.wT (W (main_arg1 : DevRef τ sig))))
          (RefTerm.bias (W (main_arg2 : DevRef τ sig))) := by
  after_results_simp
  rfl

/-- The result buffer after the whole line is the program's result as one function of the three arguments' contents:
    the two stretches' readings composed, then the definitions of the product, the flattening and the stacking
    unfolded. -/
theorem out_eq (V : Valuation τ sig (Elt F)) :
    after ops V (main_v36 : DevRef τ sig)
      = Cert.ReferenceIdeal.RefTerm.out (V (main_arg0 : DevRef τ sig)) (V (main_arg1 : DevRef τ sig)) (V (main_arg2 : DevRef τ sig)) := by
  rw [ops_split, HostPieces.after_append, tail_eq, mx_eq, mean_eq, cnt_eq, stdN_eq, skewN_eq, headArg1_eq, headArg2_eq]
  rfl

/-- On every device, for any float values, from any memory with zero counters: every weakly fair execution of the
    entry function terminates with the result buffer at the program's result as a function of the arguments' launch
    contents, and the three argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = Cert.ReferenceIdeal.RefTerm.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v36).trans (out_eq _), (h c main_arg0).trans (arg0_eq _),
      (h c main_arg1).trans (arg1_eq _), (h c main_arg2).trans (arg2_eq _)⟩)
    (run_main m ρ)

end Cert.ReferenceIdeal.RefRun

end
-- ==== Proof.RefRead.lean ====
/-
  The reference program's result read at a sample is the two-pass value of the specification.

  Every stage of the program is read at explicit coordinates, a [2048, 8] statistic at (p, c) and a [2048, 16384, 8]
  array at (p, t, c), as the corresponding quantity of the row t ↦ x(p, t, c): a row sum is its initial value plus the
  sum over t; the row maximum and the integer count are folds over t; a broadcast reads its operand at the kept
  coordinates; a pointwise operation is the operation on the elements; the stacking reads the statistic its last
  coordinate names; the flattening reads position k at channel k / 5, statistic k % 5; the product with the weight
  column is the sum over the forty positions. No arithmetic is done: each statement only says which element of which
  earlier stage an element is.
-/
import proofs.«158877_j46231027974422_2_alg».proof.Proof.RefTerm
import proofs.«158877_j46231027974422_2_alg».proof.Proof.Spec
import Idealize.ShloMosaic.Lib.IdealHost
import Idealize.ShloMosaic.Lib.Pipeline.Value
import Idealize.ShloMosaic.Lib.ValueLayout

noncomputable section

open scoped BigOperators
open Idealize.ShloMosaic Idealize.ShloMosaic.ValueIdx
open Cert.ReferenceIdeal Cert.ReferenceIdeal.RefTerm Cert.Moments

namespace Cert.ReferenceIdeal.RefRead

variable [Facts]
open Facts₀ Facts

/-! ## The reduced axis -/

/-- The middle axis of [2048, 16384, 8] is the one the row reductions drop. -/
theorem red : S2048x16384x8.Reduces [1] S2048x8 := by decide

/-- The index (p, c) with t inserted on the dropped axis is (p, t, c). -/
theorem lift_eq (p : Fin 2048) (c : Fin 8) (t : Fin 16384) : red.lift (ix2 p c) t = ix3 p t c := by
  funext a
  match a with
  | ⟨0, _⟩ => rfl
  | ⟨1, _⟩ => rfl
  | ⟨2, _⟩ => rfl

/-- A sum over the dropped axis's coordinates is the sum over t of the entries at (p, t, c). -/
theorem sum_lift (f : S2048x16384x8.Idx → EReal) (p : Fin 2048) (c : Fin 8) :
    ∑ k : Fin (S2048x16384x8.size 1), f (red.lift (ix2 p c) k) = ∑ t : Fin 16384, f (ix3 p t c) :=
  Finset.sum_congr rfl fun t _ => congrArg f (lift_eq p c t)

/-- A fold over the dropped axis's coordinates is the fold over t of the entries at (p, t, c). -/
theorem fold_lift {α : Type} (op : α → α → α) [Std.Commutative op] [Std.Associative op] (init : α)
    (f : S2048x16384x8.Idx → α) (p : Fin 2048) (c : Fin 8) :
    (Finset.univ : Finset (Fin (S2048x16384x8.size 1))).fold op init (f ∘ red.lift (ix2 p c))
      = (Finset.univ : Finset (Fin 16384)).fold op init (fun t => f (ix3 p t c)) :=
  congrArg (fun g : Fin 16384 → α => (Finset.univ : Finset (Fin 16384)).fold op init g)
    (funext fun t => congrArg f (lift_eq p c t))

/-- The float zero a row sum starts from. -/
theorem init0 : (constant (F := Ideal) S_ .f32 0x00000000#32) (Shape.Idx.first h_S_) = w0 := rfl

/-! ## Broadcasts between the shapes of the program, read at coordinates -/

section Bcast
variable {α : Type}

/-- A [2048, 8] array as [2048, 1, 8] reads (p, c) at (p, 0, c). -/
theorem bcast_2x8_2x1x8 (a : S2048x8.Idx → α) (p : Fin 2048) (c : Fin 8) :
    broadcastInDim S2048x1x8 ![0, 2] bcast_S2048x8_S2048x1x8_0_2 a (ix3 p (0 : Fin 1) c) = a (ix2 p c) :=
  broadcastInDim_apply _ _ a _ (ix2 p c) fun d => match d with
    | ⟨0, _⟩ => rfl
    | ⟨1, _⟩ => rfl

/-- A [2048, 1, 8] array over the 16384 times reads (p, 0, c) at every (p, t, c). -/
theorem bcast_2x1x8_full (a : S2048x1x8.Idx → α) (p : Fin 2048) (t : Fin 16384) (c : Fin 8) :
    broadcastInDim S2048x16384x8 ![0, 1, 2] bcast_S2048x1x8_S2048x16384x8_0_1_2 a (ix3 p t c) = a (ix3 p (0 : Fin 1) c) :=
  broadcastInDim_apply _ _ a _ (ix3 p (0 : Fin 1) c) fun d => match d with
    | ⟨0, _⟩ => rfl
    | ⟨1, _⟩ => rfl
    | ⟨2, _⟩ => rfl

/-- A [2048, 8] array as a [2048, 8, 1] slab reads (p, c) at (p, c, 0). -/
theorem bcast_2x8_slab (a : S2048x8.Idx → α) (p : Fin 2048) (c : Fin 8) :
    broadcastInDim S2048x8x1 ![0, 1] bcast_S2048x8_S2048x8x1_0_1 a (ix3 p c (0 : Fin 1)) = a (ix2 p c) :=
  broadcastInDim_apply _ _ a _ (ix2 p c) fun d => match d with
    | ⟨0, _⟩ => rfl
    | ⟨1, _⟩ => rfl

/-- The bias [1] as [1, 1] reads its one entry. -/
theorem bcast_1_1x1 (a : S1.Idx → α) :
    broadcastInDim S1x1 ![1] bcast_S1_S1x1_1 a (ix2 (0 : Fin 1) (0 : Fin 1)) = a (ix1 (0 : Fin 1)) :=
  broadcastInDim_apply _ _ a _ (ix1 (0 : Fin 1)) fun d => match d with
    | ⟨0, _⟩ => rfl

/-- A [1, 1] array over the samples reads its one entry at every (p, 0). -/
theorem bcast_1x1_2048x1 (a : S1x1.Idx → α) (p : Fin 2048) :
    broadcastInDim S2048x1 ![0, 1] bcast_S1x1_S2048x1_0_1 a (ix2 p (0 : Fin 1)) = a (ix2 (0 : Fin 1) (0 : Fin 1)) :=
  broadcastInDim_apply _ _ a _ (ix2 (0 : Fin 1) (0 : Fin 1)) fun d => match d with
    | ⟨0, _⟩ => rfl
    | ⟨1, _⟩ => rfl

/-- A scalar over [2048, 8] reads the scalar everywhere. -/
theorem bcast_scalar_2x8 (s : S_.Idx → α) (i : S2048x8.Idx) :
    broadcastInDim S2048x8 ![] bcast_S_S2048x8 s i = s ix0 :=
  broadcastInDim_scalar_apply _ s i

end Bcast

/-! ## The statistics of a row -/

section Stats
variable (x : FVec Ideal S2048x16384x8 .f32) (p : Fin 2048) (c : Fin 8)

/-- A row sum: the initial zero plus the sum over t. -/
theorem rowSum_apply (y : FVec Ideal S2048x16384x8 .f32) :
    rowSum (F := Ideal) y (ix2 p c) = w0 + ∑ t : Fin 16384, y (ix3 p t c) := by
  unfold rowSum
  rw [hostReduceAdd_apply, Ideal.hostReduceAdd_single _ red, sum_lift, init0]

/-- The mean of a row. -/
theorem mean_apply : mean (F := Ideal) x (ix2 p c) = rMean (row x p c) := by
  unfold mean
  rw [hostDivf_apply, rowSum_apply, broadcastInDim_scalar_apply]
  rfl

/-- Inside the variance the mean, kept as [2048, 1, 8], is the same mean. -/
theorem varMean_apply : varMean (F := Ideal) x (ix3 p (0 : Fin 1) c) = rMean (row x p c) := by
  unfold varMean
  rw [hostDivf_apply, bcast_2x8_2x1x8, rowSum_apply, broadcastInDim_scalar_apply]
  rfl

/-- Inside the variance an entry centred is its deviation from the mean. -/
theorem varCentred_apply (t : Fin 16384) : varCentred (F := Ideal) x (ix3 p t c) = rDev (row x p c) t := by
  unfold varCentred
  rw [subf_apply, bcast_2x1x8_full, varMean_apply]
  rfl

/-- Its square. -/
theorem varSq_apply (t : Fin 16384) :
    varSq (F := Ideal) x (ix3 p t c) = rDev (row x p c) t * rDev (row x p c) t := by
  unfold varSq
  rw [mulf_apply, varCentred_apply]

/-- The divisor of the unbiased variance. -/
theorem varDiv_apply : varDiv (F := Ideal) (constantI S_ 32 1#32) ix0 = rN1 := rfl

/-- The unbiased variance of a row, with its guard. -/
theorem var_apply : var (F := Ideal) x (constantI S_ 32 1#32) (ix2 p c) = rVar (row x p c) := by
  unfold var whereS
  rw [select_apply, hostDivf_apply, rowSum_apply]
  simp only [broadcastInDim_scalar_apply, cmpf_apply, varSq_apply, varDiv_apply]
  rfl

/-- The unbiased standard deviation of a row. -/
theorem stdv_apply : stdv (F := Ideal) x (ix2 p c) = rStd (row x p c) := by
  unfold stdv std
  show Ideal.sqrt (var (F := Ideal) x (constantI S_ 32 1#32) (ix2 p c)) = _
  rw [var_apply]
  rfl

/-- An entry centred at the row mean is its deviation. -/
theorem centred_apply (t : Fin 16384) : centred (F := Ideal) x (ix3 p t c) = rDev (row x p c) t := by
  unfold centred
  rw [subf_apply, bcast_2x1x8_full, bcast_2x8_2x1x8, mean_apply]
  rfl

/-- The cube of a deviation, as the square times the deviation. -/
theorem cube_apply (t : Fin 16384) :
    cube (F := Ideal) x (ix3 p t c) = rDev (row x p c) t * rDev (row x p c) t * rDev (row x p c) t := by
  unfold cube
  rw [mulf_apply, mulf_apply, centred_apply]

/-- The mean of the centred cubes of a row. -/
theorem m3_apply :
    m3 (F := Ideal) x (ix2 p c)
      = Ideal.div (w0 + ∑ t : Fin 16384, rDev (row x p c) t * rDev (row x p c) t * rDev (row x p c) t) wT := by
  unfold m3
  rw [hostDivf_apply, rowSum_apply, broadcastInDim_scalar_apply]
  simp only [cube_apply]
  rfl

/-- The standard deviation plus the small constant. -/
theorem sde_apply : sde (F := Ideal) x (ix2 p c) = rStd (row x p c) + wE := by
  unfold sde
  rw [addf_apply, stdv_apply, broadcastInDim_scalar_apply]
  rfl

/-- The skewness of a row. -/
theorem skew_apply : skew (F := Ideal) x (ix2 p c) = rSkew (row x p c) := by
  unfold skew
  rw [hostDivf_apply, m3_apply, mulf_apply, mulf_apply, sde_apply]
  rfl

/-- The maximum of a row, folded from -∞. -/
theorem mx_apply : mx (F := Ideal) x (ix2 p c) = rowMax (row x p c) := by
  unfold mx
  rw [Host.reduce_eq_fold_single (FloatOps.maximumf (F := Ideal) (φ := .f32)) x _ _ red, fold_lift]
  rfl

/-- The widened bit "this entry is positive". -/
theorem posI_apply (t : Fin 16384) : posI (F := Ideal) x (ix3 p t c) = (pos (row x p c t)).setWidth 32 := by
  unfold posI
  rw [extui_apply, cmpf_apply, broadcastInDim_scalar_apply]
  rfl

/-- The count of positive entries of a row, summed as 32-bit integers and made a float. -/
theorem cnt_apply : cnt (F := Ideal) x (ix2 p c) = cntI (row x p c) := by
  unfold cnt
  rw [sitofp_apply, Host.reduce_eq_fold_single (IntOp.addi (w := 32)) (posI (F := Ideal) x) _ _ red, fold_lift]
  simp only [posI_apply]
  rfl

/-- Where the bit is set the scalar, elsewhere the element. -/
theorem where0_apply (q : Cb Ideal S2048x8) (z : FVec Ideal S_ .f32) (a : FVec Ideal S2048x8 .f32) (i : S2048x8.Idx) :
    where0 (F := Ideal) q z a i = Scalar.select (q i) (z ix0) (a i) := by
  unfold where0
  rw [select_apply, bcast_scalar_2x8]

/-- First replacement at an element: a NaN becomes the scalar. -/
theorem n2n1_apply (a : FVec Ideal S2048x8 .f32) (z : FVec Ideal S_ .f32) (i : S2048x8.Idx) :
    n2n1 (F := Ideal) a z i = Scalar.select (Ideal.cmp .une (a i) (a i)) (z ix0) (a i) := by
  unfold n2n1
  rw [where0_apply, cmpf_apply]
  rfl

/-- Second replacement at an element: +∞ becomes the largest finite float. -/
theorem n2n2_apply (a : FVec Ideal S2048x8 .f32) (z : FVec Ideal S_ .f32) (i : S2048x8.Idx) :
    n2n2 (F := Ideal) a z i
      = Scalar.select (Ideal.cmp .oeq (Scalar.select (Ideal.cmp .une (a i) (a i)) (z ix0) (a i)) wInf) wMax
          (Scalar.select (Ideal.cmp .une (a i) (a i)) (z ix0) (a i)) := by
  unfold n2n2
  rw [where0_apply, cmpf_apply, bcast_scalar_2x8, n2n1_apply]
  rfl

/-- The replacement of non-finite values, element by element. -/
theorem nanToNum_apply (a : FVec Ideal S2048x8 .f32) (z : FVec Ideal S_ .f32) (i : S2048x8.Idx) :
    nanToNum (F := Ideal) a z i = n2n (z ix0) (a i) := by
  unfold nanToNum
  rw [where0_apply, cmpf_apply, bcast_scalar_2x8, n2n2_apply]
  rfl

/-- The standard deviation with non-finite values replaced. -/
theorem stdN_apply : stdN (F := Ideal) x (ix2 p c) = n2n w0 (rStd (row x p c)) := by
  unfold stdN
  rw [nanToNum_apply, stdv_apply]
  rfl

/-- The skewness with non-finite values replaced. -/
theorem skewN_apply : skewN (F := Ideal) x (ix2 p c) = n2n w0 (rSkew (row x p c)) := by
  unfold skewN
  rw [nanToNum_apply, skew_apply]
  rfl

end Stats

/-! ## The stacking of the five statistics -/

section Cat
variable {α : Type} (a0 a1 a2 a3 a4 : S2048x8x1.Idx → α)
  (h : Shape.Concatenates [S2048x8x1, S2048x8x1, S2048x8x1, S2048x8x1, S2048x8x1] S2048x8x5 2) (p : Fin 2048) (c : Fin 8)

/-- Five unit slabs laid along the last axis: coordinate 0 reads the first slab. -/
theorem cat_at0 (h0 : 0 < 5) :
    concatenate S2048x8x5 2 [⟨S2048x8x1, a0⟩, ⟨S2048x8x1, a1⟩, ⟨S2048x8x1, a2⟩, ⟨S2048x8x1, a3⟩, ⟨S2048x8x1, a4⟩] h
      (ix3 p c (⟨0, h0⟩ : Fin 5)) = a0 (ix3 p c (0 : Fin 1)) := by
  show a0 _ = a0 _
  congr 1
  funext b
  match b with
  | ⟨0, _⟩ => rfl
  | ⟨1, _⟩ => rfl
  | ⟨2, _⟩ => rfl

/-- Coordinate 1 reads the second slab. -/
theorem cat_at1 (h1 : 1 < 5) :
    concatenate S2048x8x5 2 [⟨S2048x8x1, a0⟩, ⟨S2048x8x1, a1⟩, ⟨S2048x8x1, a2⟩, ⟨S2048x8x1, a3⟩, ⟨S2048x8x1, a4⟩] h
      (ix3 p c (⟨1, h1⟩ : Fin 5)) = a1 (ix3 p c (0 : Fin 1)) := by
  show a1 _ = a1 _
  congr 1
  funext b
  match b with
  | ⟨0, _⟩ => rfl
  | ⟨1, _⟩ => rfl
  | ⟨2, _⟩ => rfl

/-- Coordinate 2 reads the third slab. -/
theorem cat_at2 (h2 : 2 < 5) :
    concatenate S2048x8x5 2 [⟨S2048x8x1, a0⟩, ⟨S2048x8x1, a1⟩, ⟨S2048x8x1, a2⟩, ⟨S2048x8x1, a3⟩, ⟨S2048x8x1, a4⟩] h
      (ix3 p c (⟨2, h2⟩ : Fin 5)) = a2 (ix3 p c (0 : Fin 1)) := by
  show a2 _ = a2 _
  congr 1
  funext b
  match b with
  | ⟨0, _⟩ => rfl
  | ⟨1, _⟩ => rfl
  | ⟨2, _⟩ => rfl

/-- Coordinate 3 reads the fourth slab. -/
theorem cat_at3 (h3 : 3 < 5) :
    concatenate S2048x8x5 2 [⟨S2048x8x1, a0⟩, ⟨S2048x8x1, a1⟩, ⟨S2048x8x1, a2⟩, ⟨S2048x8x1, a3⟩, ⟨S2048x8x1, a4⟩] h
      (ix3 p c (⟨3, h3⟩ : Fin 5)) = a3 (ix3 p c (0 : Fin 1)) := by
  show a3 _ = a3 _
  congr 1
  funext b
  match b with
  | ⟨0, _⟩ => rfl
  | ⟨1, _⟩ => rfl
  | ⟨2, _⟩ => rfl

/-- Coordinate 4 reads the fifth slab. -/
theorem cat_at4 (h4 : 4 < 5) :
    concatenate S2048x8x5 2 [⟨S2048x8x1, a0⟩, ⟨S2048x8x1, a1⟩, ⟨S2048x8x1, a2⟩, ⟨S2048x8x1, a3⟩, ⟨S2048x8x1, a4⟩] h
      (ix3 p c (⟨4, h4⟩ : Fin 5)) = a4 (ix3 p c (0 : Fin 1)) := by
  show a4 _ = a4 _
  congr 1
  funext b
  match b with
  | ⟨0, _⟩ => rfl
  | ⟨1, _⟩ => rfl
  | ⟨2, _⟩ => rfl

end Cat

section Assemble
variable (x : FVec Ideal S2048x16384x8 .f32) (W : FVec Ideal S1x40 .f32) (b : FVec Ideal S1 .f32) (p : Fin 2048)

/-- A slab reads its statistic. -/
theorem slab_apply (a : FVec Ideal S2048x8 .f32) (c : Fin 8) :
    slab (F := Ideal) a (ix3 p c (0 : Fin 1)) = a (ix2 p c) := by
  unfold slab
  rw [bcast_2x8_slab]

/-- The stacked array at (p, c, j) is statistic j of the row (p, c). -/
theorem cat_apply (c : Fin 8) (j : Fin 5) : cat (F := Ideal) x (ix3 p c j) = rFeat (row x p c) j := by
  unfold cat
  match j with
  | ⟨0, h0⟩ => rw [cat_at0, slab_apply, mx_apply]; rfl
  | ⟨1, h1⟩ => rw [cat_at1, slab_apply, mean_apply]; rfl
  | ⟨2, h2⟩ => rw [cat_at2, slab_apply, cnt_apply]; rfl
  | ⟨3, h3⟩ => rw [cat_at3, slab_apply, stdN_apply]; rfl
  | ⟨4, h4⟩ => rw [cat_at4, slab_apply, skewN_apply]; rfl

/-- The flattened statistics at position k: channel k / 5, statistic k % 5. -/
theorem feats_apply (k : Fin 40) :
    feats (F := Ideal) x (ix2 p k)
      = rFeat (row x p ⟨k.val / 5, by omega⟩) ⟨k.val % 5, by omega⟩ := by
  unfold feats
  rw [← cat_apply]
  refine shapeCast_apply _ _ _ _ ?_
  rw [Shape.rowMajor_val_three, Shape.rowMajor_val_two]
  show (p.val * 8 + k.val / 5) * 5 + k.val % 5 = p.val * 40 + k.val
  omega

/-- The weight column reads the weight row. -/
theorem wT_apply (k : Fin 40) : RefTerm.wT (F := Ideal) W (ix2 k (0 : Fin 1)) = wAt W k := by
  unfold RefTerm.wT wAt
  exact transpose_ix2_apply W _ k (0 : Fin 1)

/-- The bias over the samples reads the bias. -/
theorem bias_apply : bias (F := Ideal) b (ix2 p (0 : Fin 1)) = b (ix1 (0 : Fin 1)) := by
  unfold bias
  rw [bcast_1x1_2048x1, bcast_1_1x1]

/-- The contraction index of the product is its one coordinate, a position among the forty. -/
def contrE : dot_S2048x40_S40x1_S2048x1_1_0_0_1_n_n.contr.Idx ≃ Fin 40 :=
  contrEquiv1 dot_S2048x40_S40x1_S2048x1_1_0_0_1_n_n 40 rfl rfl

/-- At sample p and position k the product reads the statistics at (p, k) … -/
theorem lhsIdx_eq (k : Fin 40) :
    dot_S2048x40_S40x1_S2048x1_1_0_0_1_n_n.lhsIdx (ix2 p (0 : Fin 1)) (contrE.symm k) = ix2 p k := by
  funext a
  match a with
  | ⟨0, _⟩ => rfl
  | ⟨1, _⟩ => rfl

/-- … and the weight column at (k, 0). -/
theorem rhsIdx_eq (k : Fin 40) :
    dot_S2048x40_S40x1_S2048x1_1_0_0_1_n_n.rhsIdx (ix2 p (0 : Fin 1)) (contrE.symm k) = ix2 k (0 : Fin 1) := by
  funext a
  match a with
  | ⟨0, _⟩ => rfl
  | ⟨1, _⟩ => rfl

/-- The product at sample p: the sum over the forty positions of statistic times weight. -/
theorem dot_apply :
    dot (F := Ideal) x W (ix2 p (0 : Fin 1))
      = ∑ k : Fin 40, rFeat (row x p ⟨k.val / 5, by omega⟩) ⟨k.val % 5, by omega⟩ * wAt W k := by
  unfold dot
  simp only [Host.dotGeneral]
  rw [Ideal.dotGeneral_apply, ← Equiv.sum_comp contrE.symm]
  refine Finset.sum_congr rfl fun k _ => ?_
  rw [lhsIdx_eq, rhsIdx_eq, feats_apply, wT_apply]

end Assemble

/-- THE RESULT READ AT A SAMPLE: the program's value at (p, 0) is the two-pass value of the specification. -/
theorem out_apply (x : FVec Ideal S2048x16384x8 .f32) (W : FVec Ideal S1x40 .f32) (b : FVec Ideal S1 .f32) (p : Fin 2048) :
    Cert.ReferenceIdeal.RefTerm.out (F := Ideal) x W b (ix2 p (0 : Fin 1)) = Cert.Moments.rVal x W b p := by
  unfold RefTerm.out rVal
  rw [addf_apply, dot_apply, bias_apply]

end Cert.ReferenceIdeal.RefRead

end
-- ==== Proof.BridgeWords.lean ====
/-
  The float words of the specification, read as extended reals.

  Each word is a fixed 32-bit pattern; its value is computed once here from the sign, exponent and
  significand fields. Only these values are used afterwards: the row length 16384 and its predecessor
  16383, the small integers 0, 2, 3, the two infinities, and for the regulariser added to the standard
  deviation only that it is a positive real.
-/
import proofs.«158877_j46231027974422_2_alg».proof.Proof.Spec

open Idealize.ShloMosaic

namespace Cert.Moments

theorem w0_eq : w0 = 0 := by
  unfold w0
  simp [Ideal.ofBits, Ideal.ieee]

/-- Exponent field 141, significand 0: `2 ^ 14`. -/
theorem wT_eq : wT = ((16384 : ℝ) : EReal) := by
  unfold wT
  simp [Ideal.ofBits, Ideal.ieee]
  rw [← EReal.coe_mul]
  norm_num

/-- Exponent field 140, significand `2 ^ 23 - 2 ^ 10`: `(2 - 2 ^ (-13)) * 2 ^ 13 = 16383`. -/
theorem wT1_eq : wT1 = ((16383 : ℝ) : EReal) := by
  unfold wT1
  simp [Ideal.ofBits, Ideal.ieee]
  rw [← EReal.coe_mul]
  norm_num

theorem w2_eq : w2 = ((2 : ℝ) : EReal) := by
  unfold w2
  simp [Ideal.ofBits, Ideal.ieee]
  rw [← EReal.coe_mul]
  norm_num

theorem w3_eq : w3 = ((3 : ℝ) : EReal) := by
  unfold w3
  simp [Ideal.ofBits, Ideal.ieee]
  rw [← EReal.coe_mul]
  norm_num

theorem wInf_eq : wInf = ⊤ := by
  unfold wInf
  simp [Ideal.ofBits, Ideal.ieee]

theorem wNInf_eq : wNInf = ⊥ := by
  unfold wNInf
  simp [Ideal.ofBits, Ideal.ieee]

/-- The regulariser is a normal positive number: a positive significand times a power of two. -/
theorem wE_eq : ∃ e : ℝ, 0 < e ∧ wE = (e : EReal) := by
  unfold wE
  simp [Ideal.ofBits, Ideal.ieee]
  refine ⟨_, ?_, (EReal.coe_mul _ _).symm⟩
  positivity

/-- The divisor of the unbiased variance is `16384 - 1`. -/
theorem rN1_eq : rN1 = ((16383 : ℝ) : EReal) := by
  have h1 : ((1#32 : BitVec 32)).toInt = 1 := by decide
  unfold rN1
  rw [wT_eq, h1, ← EReal.coe_sub]
  norm_num

end Cert.Moments
-- ==== Proof.BridgeCount.lean ====
/-
  Counting the positive entries of a row: in 32-bit integers or in floats.

  Each entry contributes one bit, widened to a 32-bit word that is 0 or 1. Adding fewer than `2 ^ 31` such words in
  32-bit arithmetic never wraps, so the signed reading of the 32-bit total is the number of ones; and that number is
  also what one gets by reading every word as an integer first and adding the readings as real numbers.
-/
import proofs.«158877_j46231027974422_2_alg».proof.Proof.Spec

open Idealize.ShloMosaic
open scoped BigOperators

namespace Cert.Moments

/-- The coercion of reals into extended reals commutes with finite sums. -/
theorem coe_finset_sum {ι : Type*} (s : Finset ι) (g : ι → ℝ) :
    ((∑ t ∈ s, g t : ℝ) : EReal) = ∑ t ∈ s, ((g t : ℝ) : EReal) := by
  classical
  induction s using Finset.induction_on with
  | empty => simp
  | insert a s ha ih => rw [Finset.sum_insert ha, Finset.sum_insert ha, EReal.coe_add, ih]

/-- A bit widened to 32 bits reads, as a signed integer, as the bit. -/
theorem toInt_setWidth_bit (b : BitVec 1) : (b.setWidth 32).toInt = (b.toNat : ℤ) := by
  revert b; decide

theorem toNat_setWidth_bit (b : BitVec 1) : (b.setWidth 32).toNat = b.toNat := by
  revert b; decide

theorem toNat_bit_le (b : BitVec 1) : b.toNat ≤ 1 := by
  revert b; decide

/-- The 32-bit total of fewer than `2 ^ 31` widened bits is the number of ones, which is at most the number of
    summands. -/
theorem fold_addi_toNat {ι : Type*} [DecidableEq ι] (s : Finset ι) (f : ι → BitVec 1) (hs : s.card < 2 ^ 31) :
    (s.fold (IntOp.addi (w := 32)) (0#32) (fun t => (f t).setWidth 32)).toNat = ∑ t ∈ s, (f t).toNat
      ∧ ∑ t ∈ s, (f t).toNat ≤ s.card := by
  induction s using Finset.induction_on with
  | empty => simp
  | insert a s ha ih =>
    rw [Finset.card_insert_of_notMem ha] at hs
    obtain ⟨ih1, ih2⟩ := ih (by omega)
    rw [Finset.fold_insert ha, Finset.sum_insert ha, Finset.card_insert_of_notMem ha]
    have hb := toNat_bit_le (f a)
    refine ⟨?_, by omega⟩
    show ((f a).setWidth 32 + _).toNat = _
    rw [BitVec.toNat_add, toNat_setWidth_bit, ih1]
    have h31 : (2 : ℕ) ^ 31 = 2147483648 := by norm_num
    have h32 : (2 : ℕ) ^ 32 = 4294967296 := by norm_num
    rw [h31] at hs
    rw [h32]
    omega

/-- The signed reading of that total is the sum of the signed readings of the summands. -/
theorem fold_addi_toInt {ι : Type*} [DecidableEq ι] (s : Finset ι) (f : ι → BitVec 1) (hs : s.card < 2 ^ 31) :
    (s.fold (IntOp.addi (w := 32)) (0#32) (fun t => (f t).setWidth 32)).toInt
      = ∑ t ∈ s, ((f t).setWidth 32).toInt := by
  obtain ⟨h1, h2⟩ := fold_addi_toNat s f hs
  rw [BitVec.toInt_eq_toNat_of_lt, h1]
  · push_cast
    exact Finset.sum_congr rfl fun t _ => (toInt_setWidth_bit (f t)).symm
  · rw [h1]
    have h31 : (2 : ℕ) ^ 31 = 2147483648 := by norm_num
    have h32 : (2 : ℕ) ^ 32 = 4294967296 := by norm_num
    rw [h31] at hs
    rw [h32]
    omega

/-- The two ways of counting the positive entries of a row agree (for every row, finite or not). -/
theorem cntI_eq_cntF (r : Fin 16384 → EReal) : cntI r = cntF r := by
  unfold cntI cntF
  rw [fold_addi_toInt Finset.univ (fun t => pos (r t)) (by simp), Int.cast_sum, coe_finset_sum]

end Cert.Moments
-- ==== Proof.BridgeReal.lean ====
/-
  Central moments of a finite family of real numbers in terms of its raw moments.

  For real numbers `a t` and any real `μ`, expanding `(a t - μ) ^ 2` and `(a t - μ) ^ 3` and summing term by term
  expresses the sums of squared and of cubed deviations through `Σ a`, `Σ a²`, `Σ a³` and the number of terms.
  With `μ` the mean of 16384 terms, `Σ a = 16384 μ`, and the expressions collapse to the one-pass formulas
  `Σ (a - μ)² = Σ a² - 16384 μ²` and `(Σ (a - μ)³) / 16384 = (Σ a³) / 16384 - 3 μ (Σ a²) / 16384 + 2 μ³`.
-/
import Mathlib

open scoped BigOperators

namespace Cert.Moments

/-- The sum of squared deviations from `μ`, expanded. -/
theorem sum_dev_sq {n : ℕ} (a : Fin n → ℝ) (μ : ℝ) :
    ∑ t, (a t - μ) * (a t - μ) = (∑ t, a t * a t) - 2 * μ * (∑ t, a t) + n * (μ * μ) := by
  have h : ∀ t, (a t - μ) * (a t - μ) = a t * a t - 2 * μ * a t + μ * μ := fun t => by ring
  simp only [h, Finset.sum_add_distrib, Finset.sum_sub_distrib, ← Finset.mul_sum, Finset.sum_const,
    Finset.card_univ, Fintype.card_fin, nsmul_eq_mul]
  ring

/-- The sum of cubed deviations from `μ`, expanded. -/
theorem sum_dev_cube {n : ℕ} (a : Fin n → ℝ) (μ : ℝ) :
    ∑ t, (a t - μ) * (a t - μ) * (a t - μ)
      = (∑ t, a t * a t * a t) - 3 * μ * (∑ t, a t * a t) + 3 * μ * μ * (∑ t, a t) - n * (μ * μ * μ) := by
  have h : ∀ t, (a t - μ) * (a t - μ) * (a t - μ)
      = a t * a t * a t - 3 * μ * (a t * a t) + 3 * μ * μ * a t - μ * μ * μ := fun t => by ring
  simp only [h, Finset.sum_add_distrib, Finset.sum_sub_distrib, ← Finset.mul_sum, Finset.sum_const,
    Finset.card_univ, Fintype.card_fin, nsmul_eq_mul]
  ring

/-- The mean of a row of 16384 reals. -/
noncomputable def mu (a : Fin 16384 → ℝ) : ℝ := (∑ t, a t) / 16384

/-- About the mean, the sum of squared deviations is the raw second moment minus `16384 μ²`. -/
theorem var_identity (a : Fin 16384 → ℝ) :
    ∑ t, (a t - mu a) * (a t - mu a) = (∑ t, a t * a t) - 16384 * mu a * mu a := by
  rw [sum_dev_sq]
  unfold mu
  push_cast
  ring

/-- About the mean, the third central moment in raw moments. -/
theorem skew_identity (a : Fin 16384 → ℝ) :
    (∑ t, (a t - mu a) * (a t - mu a) * (a t - mu a)) / 16384
      = (∑ t, a t * a t * a t) / 16384 - 3 * mu a * ((∑ t, a t * a t) / 16384) + 2 * mu a * mu a * mu a := by
  rw [sum_dev_cube]
  unfold mu
  push_cast
  ring

/-- A sum of squares divided by a positive number is nonnegative. -/
theorem var_nonneg (a : Fin 16384 → ℝ) : 0 ≤ (∑ t, (a t - mu a) * (a t - mu a)) / 16383 :=
  div_nonneg (Finset.sum_nonneg fun t _ => mul_self_nonneg _) (by norm_num)

end Cert.Moments
-- ==== Proof.BridgeMoments.lean ====
/-
  The statistics of a row of real numbers in closed form, in both arrangements.

  When every entry of a row is a real number `a t`, every intermediate quantity of either arrangement is a real
  number too: division by the nonzero reals 16384, 16383 and `d³` (with `d` = standard deviation + regulariser > 0)
  is real division, the square root is taken of a nonnegative real, and `nan_to_num` leaves a real unchanged.
  So both arrangements can be evaluated in the real numbers, where they are the mean `μ`, the standard deviation
  `σ = √(Σ (a - μ)² / 16383)` and the skewness `(Σ (a - μ)³ / 16384) / (σ + ε)³`; for the one-pass arrangement this
  uses the expansions of the central moments in raw moments. The maximum, the count and the weights stay opaque.
-/
import proofs.«158877_j46231027974422_2_alg».proof.Proof.BridgeWords
import proofs.«158877_j46231027974422_2_alg».proof.Proof.BridgeCount
import proofs.«158877_j46231027974422_2_alg».proof.Proof.BridgeReal

open Idealize.ShloMosaic
open scoped BigOperators

namespace Cert.Moments

/-- Division of a real by a nonzero real is real division. -/
theorem div_real (a b : ℝ) (hb : b ≠ 0) : Ideal.div (a : EReal) (b : EReal) = ((a / b : ℝ) : EReal) := by
  rw [Ideal.div_coe hb, ← EReal.coe_mul, mul_one_div]

/-- The square root of a nonnegative real is the real square root. -/
theorem sqrt_real (a : ℝ) (ha : 0 ≤ a) : Ideal.sqrt (a : EReal) = ((Real.sqrt a : ℝ) : EReal) := by
  rw [Ideal.sqrt_coe, if_neg (not_lt.mpr ha)]

/-- A real number equals itself and is neither infinity, so none of the three replacements applies to it. -/
theorem n2n_real (z : EReal) (v : ℝ) : n2n z (v : EReal) = (v : EReal) := by
  simp [n2n, Ideal.cmp, wInf_eq, wNInf_eq]

/-- The unbiased standard deviation of a row of 16384 reals. -/
noncomputable def sig (a : Fin 16384 → ℝ) : ℝ := Real.sqrt ((∑ t, (a t - mu a) * (a t - mu a)) / 16383)

/-- The skewness of a row of 16384 reals, with `e` added to the standard deviation in the denominator. -/
noncomputable def skw (a : Fin 16384 → ℝ) (e : ℝ) : ℝ :=
  ((∑ t, (a t - mu a) * (a t - mu a) * (a t - mu a)) / 16384) / ((sig a + e) * (sig a + e) * (sig a + e))

theorem sig_nonneg (a : Fin 16384 → ℝ) : 0 ≤ sig a := Real.sqrt_nonneg _

theorem cube_ne_zero (a : Fin 16384 → ℝ) (e : ℝ) (he0 : 0 < e) :
    (sig a + e) * (sig a + e) * (sig a + e) ≠ 0 := by
  have h : 0 < sig a + e := by linarith [sig_nonneg a]
  exact (mul_pos (mul_pos h h) h).ne'

section
variable (a : Fin 16384 → ℝ)

theorem sum1_coe : sum1 (fun t => ((a t : ℝ) : EReal)) = ((∑ t, a t : ℝ) : EReal) := by
  unfold sum1
  rw [coe_finset_sum]

theorem sum2_coe : sum2 (fun t => ((a t : ℝ) : EReal)) = ((∑ t, a t * a t : ℝ) : EReal) := by
  unfold sum2
  rw [coe_finset_sum]
  simp only [EReal.coe_mul]

theorem sum3_coe : sum3 (fun t => ((a t : ℝ) : EReal)) = ((∑ t, a t * a t * a t : ℝ) : EReal) := by
  unfold sum3
  rw [coe_finset_sum]
  simp only [EReal.coe_mul]

/-! ### The two-pass arrangement -/

theorem rMean_coe : rMean (fun t => ((a t : ℝ) : EReal)) = ((mu a : ℝ) : EReal) := by
  unfold rMean mu
  rw [sum1_coe, w0_eq, zero_add, wT_eq, div_real _ _ (by norm_num)]

theorem rDev_coe (t : Fin 16384) : rDev (fun t => ((a t : ℝ) : EReal)) t = ((a t - mu a : ℝ) : EReal) := by
  unfold rDev
  rw [rMean_coe, EReal.coe_sub]

/-- The divisor 16383 is positive, so the variance is the sum of squared deviations over 16383. -/
theorem rVar_coe :
    rVar (fun t => ((a t : ℝ) : EReal)) = (((∑ t, (a t - mu a) * (a t - mu a)) / 16383 : ℝ) : EReal) := by
  have hc : Ideal.cmp .ogt rN1 w0 = 1#1 := by
    rw [rN1_eq, w0_eq]
    simp [Ideal.cmp]
  unfold rVar
  rw [if_pos hc]
  simp only [rDev_coe, ← EReal.coe_mul]
  rw [← coe_finset_sum, w0_eq, zero_add, rN1_eq, div_real _ _ (by norm_num)]

theorem rStd_coe : rStd (fun t => ((a t : ℝ) : EReal)) = ((sig a : ℝ) : EReal) := by
  unfold rStd sig
  rw [rVar_coe, sqrt_real _ (var_nonneg a)]

theorem rSkew_coe (e : ℝ) (he0 : 0 < e) (he : wE = (e : EReal)) :
    rSkew (fun t => ((a t : ℝ) : EReal)) = ((skw a e : ℝ) : EReal) := by
  unfold rSkew skw
  dsimp only
  rw [rStd_coe, he]
  simp only [rDev_coe, ← EReal.coe_mul, ← EReal.coe_add]
  rw [← coe_finset_sum, w0_eq, zero_add, wT_eq, div_real _ _ (by norm_num), div_real _ _ (cube_ne_zero a e he0)]

/-! ### The one-pass arrangement -/

theorem kMean_coe : Ideal.div (sum1 (fun t => ((a t : ℝ) : EReal))) wT = ((mu a : ℝ) : EReal) := by
  unfold mu
  rw [sum1_coe, wT_eq, div_real _ _ (by norm_num)]

/-- The raw-moment variance is the sum of squared deviations over 16383: nonnegative, so the guard `max · 0` is
    the identity. -/
theorem kStd_coe :
    Ideal.sqrt (max (Ideal.div (sum2 (fun t => ((a t : ℝ) : EReal)) - wT * ((mu a : ℝ) : EReal) * ((mu a : ℝ) : EReal)) wT1) w0)
      = ((sig a : ℝ) : EReal) := by
  unfold sig
  rw [sum2_coe, wT_eq, wT1_eq, w0_eq, ← EReal.coe_mul, ← EReal.coe_mul, ← EReal.coe_sub,
    div_real _ _ (by norm_num), ← var_identity, max_eq_left (EReal.coe_nonneg.mpr (var_nonneg a)),
    sqrt_real _ (var_nonneg a)]

/-- The raw-moment third central moment. -/
theorem kM3_coe :
    Ideal.div (sum3 (fun t => ((a t : ℝ) : EReal))) wT
        - w3 * ((mu a : ℝ) : EReal) * Ideal.div (sum2 (fun t => ((a t : ℝ) : EReal))) wT
        + w2 * ((mu a : ℝ) : EReal) * ((mu a : ℝ) : EReal) * ((mu a : ℝ) : EReal)
      = (((∑ t, (a t - mu a) * (a t - mu a) * (a t - mu a)) / 16384 : ℝ) : EReal) := by
  rw [sum3_coe, sum2_coe, wT_eq, w3_eq, w2_eq, div_real _ _ (by norm_num), div_real _ _ (by norm_num)]
  simp only [← EReal.coe_mul, ← EReal.coe_sub, ← EReal.coe_add]
  rw [skew_identity]

/-- One channel's contribution in the one-pass arrangement, evaluated. -/
theorem kHead_coe (e : ℝ) (he0 : 0 < e) (he : wE = (e : EReal)) (mx cnt : EReal) (w : Fin 5 → EReal) :
    kHead (sum1 (fun t => ((a t : ℝ) : EReal))) (sum2 (fun t => ((a t : ℝ) : EReal)))
        (sum3 (fun t => ((a t : ℝ) : EReal))) mx cnt w
      = mx * w 0 + ((mu a : ℝ) : EReal) * w 1 + cnt * w 2 + ((sig a : ℝ) : EReal) * w 3
          + ((skw a e : ℝ) : EReal) * w 4 := by
  have hd : (sig a + e) * ((sig a + e) * (sig a + e)) ≠ 0 := by
    rw [← mul_assoc]; exact cube_ne_zero a e he0
  unfold kHead
  dsimp only
  rw [kMean_coe, kStd_coe, kM3_coe, he, ← EReal.coe_add, ← EReal.coe_mul, ← EReal.coe_mul, div_real _ _ hd]
  unfold skw
  rw [mul_assoc (sig a + e)]

end

/-- On a row of real numbers, a channel's one-pass contribution is the weighted sum of its five two-pass
    statistics. -/
theorem kHead_eq_feat (r : Fin 16384 → EReal) (hr : ∀ t, ∃ v : ℝ, r t = (v : EReal)) (w : Fin 5 → EReal) :
    kHead (sum1 r) (sum2 r) (sum3 r) (rowMax r) (cntF r) w = ∑ j : Fin 5, rFeat r j * w j := by
  choose a ha using hr
  obtain rfl : r = fun t => ((a t : ℝ) : EReal) := funext ha
  obtain ⟨e, he0, he⟩ := wE_eq
  rw [kHead_coe a e he0 he, Fin.sum_univ_five]
  show _ = rowMax _ * w 0 + rMean _ * w 1 + cntI _ * w 2 + n2n w0 (rStd _) * w 3 + n2n w0 (rSkew _) * w 4
  rw [rMean_coe, cntI_eq_cntF, rStd_coe, rSkew_coe a e he0 he, n2n_real, n2n_real]

end Cert.Moments
-- ==== Proof.BridgeSum.lean ====
/-
  The forty positions of the weight row, run through channel by channel.

  Position `5 c + j` holds the weight of statistic `j` of channel `c`. Every `k < 40` is `5 c + j` for exactly one
  pair `c < 8`, `j < 5` (namely `c = k / 5`, `j = k % 5`), so a sum over the forty positions in a commutative monoid is
  the sum over the channels of the sums over the five statistics. Nothing is assumed about the summands.
-/
import proofs.«158877_j46231027974422_2_alg».proof.Proof.Spec

open scoped BigOperators

namespace Cert.Moments

/-- A sum over the forty positions is the sum over the channels of the sums over a channel's five positions. -/
theorem sum_fin40 {M : Type*} [AddCommMonoid M] (g : Fin 40 → M) :
    ∑ k : Fin 40, g k = ∑ c : Fin 8, ∑ j : Fin 5, g (widx c j) := by
  have h : ∀ x : Fin 8 × Fin 5, g (widx x.1 x.2) = g (finProdFinEquiv x) := fun x => by
    apply congrArg
    apply Fin.ext
    simp only [widx, finProdFinEquiv_apply_val]
    omega
  calc ∑ k : Fin 40, g k
      = ∑ x : Fin 8 × Fin 5, g (widx x.1 x.2) := (Fintype.sum_equiv finProdFinEquiv _ _ h).symm
    _ = ∑ c : Fin 8, ∑ j : Fin 5, g (widx c j) := Fintype.sum_prod_type' (fun c j => g (widx c j))

/-- The channel of position `5 c + j` is `c`. -/
theorem widx_div (c : Fin 8) (j : Fin 5) (h : (widx c j).val / 5 < 8) :
    (⟨(widx c j).val / 5, h⟩ : Fin 8) = c := by
  apply Fin.ext
  simp only [widx]
  omega

/-- The statistic at position `5 c + j` is `j`. -/
theorem widx_mod (c : Fin 8) (j : Fin 5) (h : (widx c j).val % 5 < 5) :
    (⟨(widx c j).val % 5, h⟩ : Fin 5) = j := by
  apply Fin.ext
  simp only [widx]
  omega

end Cert.Moments
-- ==== Proof.Bridge.lean ====
/-
  The two arrangements agree on finite input.

  Both values are a sum of weighted statistics plus the same bias. The two-pass value runs through the forty
  positions of the weight row in order; regrouped channel by channel it is a sum over the eight channels of the five
  weighted statistics of the channel's row. On a row of real numbers these five terms are exactly the one-pass
  contribution of the channel. Weights and bias are arbitrary extended reals: the regrouping uses only that addition
  is commutative and associative.
-/
import proofs.«158877_j46231027974422_2_alg».proof.Proof.BridgeMoments
import proofs.«158877_j46231027974422_2_alg».proof.Proof.BridgeSum

open Idealize.ShloMosaic Idealize.ShloMosaic.ValueIdx
open scoped BigOperators

namespace Cert.Moments

theorem kVal_eq_rVal (x : SX.Idx → EReal) (W : SW.Idx → EReal) (b : SB.Idx → EReal)
    (hx : ∀ i, ∃ r : ℝ, x i = (r : EReal)) (p : Fin 2048) : kVal x W b p = rVal x W b p := by
  unfold kVal rVal
  refine congrArg (fun s => s + b (ix1 (0 : Fin 1))) ?_
  rw [sum_fin40]
  refine Finset.sum_congr rfl fun c _ => ?_
  rw [kHead_eq_feat (row x p c) (fun t => hx (ix3 p t c)) (fun j => wAt W (widx c j))]
  refine Finset.sum_congr rfl fun j _ => ?_
  rw [widx_div, widx_mod]

end Cert.Moments
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«158877_j46231027974422_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.FinPre.lean ====
/-
  From the finiteness precondition to "every entry of the input is a real number".

  The precondition is the conjunction of three tests, one per argument array: "every entry is below +∞ in
  absolute value", each printed as a reduction by `and` of an entrywise comparison. The conjunction evaluates
  to true, so its first conjunct — the test of the first array — does, and that test decodes to: every entry of the
  first array is a real number. Nothing is concluded (or needed) about the other two arrays here.
-/
import proofs.«158877_j46231027974422_2_alg».proof.Proof.LibFinDecode
import proofs.«158877_j46231027974422_2_alg».proof.Pre_finite_inputs

open Idealize.ShloMosaic Idealize.ShloMosaic.ValueIdx

namespace Cert.Moments

theorem x_real_of_pre [Cert.Pre_finite_inputs.Facts]
    (x : FVec Ideal Cert.Pre_finite_inputs.S2048x16384x8 .f32) (W : FVec Ideal Cert.Pre_finite_inputs.S1x40 .f32)
    (b : FVec Ideal Cert.Pre_finite_inputs.S1 .f32)
    (h : Cert.Pre_finite_inputs.fn (F := Ideal) x W b = fun _ => 1#1) : ∀ i, ∃ r : ℝ, x i = (r : EReal) := by
  have h0 := congrFun h ix0
  dsimp only [Cert.Pre_finite_inputs.fn] at h0
  change IntOp.andi (IntOp.andi _ _) _ = 1#1 at h0
  have h1 := (IntOp.andi_eq_one.1 h0).1
  have h2 := (IntOp.andi_eq_one.1 h1).1
  exact fun i => Cert.LibFinDecode.all_fin x _ _ _ h2 i

end Cert.Moments
-- ==== Proof.lean ====
/-
  The kernel streams x : [2048, 16384, 8] once and keeps, per sample row and channel, the running sums of x, x², x³, the
  running maximum and the running count of positive entries; at the end of a row's time axis it turns them into mean,
  unbiased standard deviation and skewness (from the raw moments), and forms the weighted sum of the forty statistics
  plus the bias. The reference centres each time series at its mean first, counts in 32-bit integers, passes the
  standard deviation and the skewness through `nan_to_num`, and multiplies the stacked statistics by the weight row.

  Over the extended reals, for finite x, both are the same number at every sample:
    Σ(x − μ)² = Σx² − T·μ² and Σ(x − μ)³ / T = Σx³/T − 3μ·Σx²/T + 2μ³ with μ = Σx / T (T = 16384 the length of a row),
  the variance is non-negative so clamping it at 0 changes nothing, the statistics are finite so `nan_to_num` and the
  kernel's own "x ≠ x" guards are identities, an integer count below 2³¹ is the sum of its one-bit summands, and the sum
  over the forty weights is the sum over the eight channels of the sums over their five statistics.

  The pieces: the kernel's result array entry by entry is `Cert.Moments.kVal` (the accumulators in closed form over the
  grid, the head read at an index); the reference's run ends at the composition of its operations, which read at an
  index is `Cert.Moments.rVal`; `kVal = rVal` on finite rows; the precondition says every entry of x is a real.
-/
import proofs.«158877_j46231027974422_2_alg».proof.Defs
import proofs.«158877_j46231027974422_2_alg».proof.Proof.Gen.Kernel
import proofs.«158877_j46231027974422_2_alg».proof.Proof.Gen.Kernel.Frame
import proofs.«158877_j46231027974422_2_alg».proof.Proof.Gen.KernelIdeal
import proofs.«158877_j46231027974422_2_alg».proof.Proof.Gen.KernelIdeal.Frame
import proofs.«158877_j46231027974422_2_alg».proof.Proof.Gen.KernelIdeal.Value
import proofs.«158877_j46231027974422_2_alg».proof.Proof.Gen.ReferenceIdeal
import proofs.«158877_j46231027974422_2_alg».proof.Proof.Gen.Pre_finite_inputs
import proofs.«158877_j46231027974422_2_alg».proof.Proof.KOut
import proofs.«158877_j46231027974422_2_alg».proof.Proof.RefRun
import proofs.«158877_j46231027974422_2_alg».proof.Proof.RefRead
import proofs.«158877_j46231027974422_2_alg».proof.Proof.Bridge
import proofs.«158877_j46231027974422_2_alg».proof.Proof.FinPre
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations, none of which writes an argument. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end with the one-pass value at every sample: the kernel by its accumulators' closed forms, the
    reference because its two-pass value equals the one-pass value on the finite rows the precondition gives. -/
theorem algebraic : Cert.algebraic_KernelIdeal_ReferenceIdeal := by
  intro m ρ m' ρ' hpre hagree
  refine ⟨fun c => Cert.KernelIdeal.Acc.G m c, Cert.KernelIdeal.Acc.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext i
  have hi : i = ix2 (⟨(i 0).val, idx2_lt0 i⟩ : Fin 2048) (0 : Fin 1) := by
    funext a
    match a with
    | ⟨0, _⟩ => rfl
    | ⟨1, _⟩ => exact Fin.ext (Nat.lt_one_iff.mp (idx2_lt1 i))
  refine (congrArg _ hi).trans ((Cert.ReferenceIdeal.RefRead.out_apply _ _ _ ⟨(i 0).val, idx2_lt0 i⟩).trans ?_)
  exact (Cert.Moments.kVal_eq_rVal _ _ _ (Cert.Moments.x_real_of_pre _ _ _ (hpre c)) ⟨(i 0).val, idx2_lt0 i⟩).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
